-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S8192 : Shape := ⟨1, ![8192]⟩
abbrev S1024x128 : Shape := ⟨2, ![1024, 128]⟩
abbrev S1024 : Shape := ⟨1, ![1024]⟩
abbrev S128x1024 : Shape := ⟨2, ![128, 1024]⟩
abbrev S1024x1024 : Shape := ⟨2, ![1024, 1024]⟩

abbrev nBuf : Space → Nat
  | .hbm => 40
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S8192x128, .f32⟩
  | .hbm, ⟨23, _⟩ => ⟨S8192x128, .bf16⟩
  | .hbm, ⟨24, _⟩ => ⟨S8192, .f32⟩
  | .hbm, ⟨25, _⟩ => ⟨S4096x128, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024, .f32⟩
  | .local _ .vmem, ⟨5, _⟩ => ⟨S1024, .f32⟩
  | .local _ .vmem, ⟨6, _⟩ => ⟨S1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_10 : BitVec 32 := 0#32
  let v31 : BitVec 1 := Scalar.cmpi .ne v30 c0_i32_10
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1024 : S1024.ShapeCasts S1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  iota_S1024x1024_d0_w32 : S1024x1024.Iotas .tc 32 [0]
  iota_S1024x1024_d1_w32 : S1024x1024.Iotas .tc 32 [1]
  reduces_S1024x1024_S1024 : S1024x1024.Reduces [1] S1024
  bcast_S_S4096 : S_.BroadcastsInDim S4096 (![] : Fin 0 → Fin S4096.rank)
  concatenates_S4096_S4096_S8192_d0 : Shape.Concatenates [S4096, S4096] S8192 0
  reducesTo_S8192_S_d0 : S8192.ReducesTo [0] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v17) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S128x8192 : Shape := ⟨2, ![128, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 97
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S8192x128, .f32⟩
  | .hbm, ⟨23, _⟩ => ⟨S128x8192, .f32⟩
  | .hbm, ⟨24, _⟩ => ⟨S8192x8192, .f32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4096x1, .i32⟩
  | .hbm, ⟨45, _⟩ => ⟨S4096x2, .i32⟩
  | .hbm, ⟨46, _⟩ => ⟨S4096, .f32⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096x1, .i32⟩
  | .hbm, ⟨65, _⟩ => ⟨S4096x1, .i32⟩
  | .hbm, ⟨66, _⟩ => ⟨S4096x2, .i32⟩
  | .hbm, ⟨67, _⟩ => ⟨S4096, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S8192x8192, .i32⟩
  | .hbm, ⟨74, _⟩ => ⟨S8192x8192, .i32⟩
  | .hbm, ⟨75, _⟩ => ⟨S_, .i32⟩
  | .hbm, ⟨76, _⟩ => ⟨S8192x8192, .i32⟩
  | .hbm, ⟨77, _⟩ => ⟨S8192x8192, .i32⟩
  | .hbm, ⟨78, _⟩ => ⟨S8192x8192, .i1⟩
  | .hbm, ⟨79, _⟩ => ⟨S8192x8192, .f32⟩
  | .hbm, ⟨80, _⟩ => ⟨S_, .f32⟩
  | .hbm, ⟨81, _⟩ => ⟨S8192x8192, .f32⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_7 : Ref sig .tc := ⟨.hbm, 47, rfl⟩
abbrev main_v36 : Ref sig .tc := ⟨.hbm, 48, rfl⟩
abbrev main_v37 : Ref sig .tc := ⟨.hbm, 49, rfl⟩
abbrev main_c_8 : Ref sig .tc := ⟨.hbm, 50, rfl⟩
abbrev main_v38 : Ref sig .tc := ⟨.hbm, 51, rfl⟩
abbrev main_v39 : Ref sig .tc := ⟨.hbm, 52, rfl⟩
abbrev main_c_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_10 : Ref sig .tc := ⟨.hbm, 57, rfl⟩
abbrev main_v43 : Ref sig .tc := ⟨.hbm, 58, rfl⟩
abbrev main_v44 : Ref sig .tc := ⟨.hbm, 59, rfl⟩
abbrev main_c_11 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_12 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_13 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_14 : Ref sig .tc := ⟨.hbm, 80, rfl⟩
abbrev main_v62 : Ref sig .tc := ⟨.hbm, 81, rfl⟩
abbrev main_v63 : Ref sig .tc := ⟨.hbm, 82, rfl⟩
abbrev main_cst_15 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_16 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_17 : Ref sig .tc := ⟨.hbm, 93, rfl⟩
abbrev main_v72 : Ref sig .tc := ⟨.hbm, 94, rfl⟩
abbrev main_cst_18 : Ref sig .tc := ⟨.hbm, 95, rfl⟩
abbrev main_v73 : Ref sig .tc := ⟨.hbm, 96, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  transposes_S8192x128_S128x8192_1_0 : S8192x128.Transposes [1, 0] S128x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x128_S128x8192_S8192x8192_1_0_0_1_n_n_wf : DotDims.WF S8192x128 S128x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.FrameBitsShared.lean ====
/-
  The row-denominator kernel's run, point by point: what its three kinds of grid point share.

  The grid is 8 × 8, row block `i₀` outermost. At a point `(i₀, i₁)` the body takes row block `i₀` and column
  block `i₁` of ONE array — the 8192 stacked unit rows, handed to the kernel through both input windows —, and adds
  the row sums of the masked exponentials of their 1024 × 1024 products into a 1024-vector it keeps between points.
  The first point of a row block (`i₁ = 0`) zeroes that vector first; the last (`i₁ = 7`) copies it into the output
  block, which the other points leave alone. Stated here: the arrays as the region finds them (after the host lines
  that normalise and stack the rows), @main as those lines, the region and the lines after it, each input window's
  block at a point, the two branch conditions in closed form over the 64 points, where the output window is idle,
  and the kept vector's place in the region's invariant.
-/
import proofs.«165202_j28097676050918_1_alg».proof.Proof.Gen.Kernel.Launch
import proofs.«165202_j28097676050918_1_alg».proof.Proof.Gen.Kernel.Skeleton
import proofs.«165202_j28097676050918_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch contents after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) (fun c => (main_chain c).trans rfl)

/-- The lines after the region touch TensorCore references only, -/
theorem tail_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write neither the stacked rows nor the denominators: each writes its own result only. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl
  all_goals intro w; fin_cases w <;> simp only [StableHlo.nullary_writes, StableHlo.unary_writes, StableHlo.binary_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window's current staging buffer holds its block at every point, fetched there or not. -/
theorem before_rows_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- So does the column-block window's. -/
theorem before_cols_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first column block": the body's first `if`, from the grid coordinates. -/
abbrev isFirst (i : grid0.Coords) : Prop := (Scalar.cmpi .ne (Scalar.extui (Scalar.cmpi .eq (BitVec.ofNat 32 (i 1).val) 0#32)) 0#32) = 1#1
/-- It holds at the points whose number is a multiple of 8. -/
theorem isFirst_iff : ∀ t : Fin cfg0.N, isFirst (grid0.coords t) ↔ t.val % 8 = 0 :=
  (by decide +kernel : ∀ t : Fin grid0.N, isFirst (grid0.coords t) ↔ t.val % 8 = 0)

/-- "This is the last column block": the body's second `if`. -/
abbrev isLast (i : grid0.Coords) : Prop := k0_cond2 i = 1#1
/-- It holds at the points whose number is 7 modulo 8. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

/-- The two input windows are never idle. -/
theorem live_rows : ∀ t : Fin cfg0.N, cfg0.idle 0 (grid0.coords t) = false := by decide +kernel
theorem live_cols : ∀ t : Fin cfg0.N, cfg0.idle 1 (grid0.coords t) = false := by decide +kernel
/-- Away from the last column block the output window is idle (the body stores nothing into it) and is not written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- At the last column block it is live. -/
theorem live_out : ∀ t : Fin cfg0.N, isLast (grid0.coords t) → cfg0.idle 2 (grid0.coords t) = false := by decide +kernel

/-! ## The staging memrefs at a point, and the kept vector -/

/-- One staging buffer of the output window, through which its contents are stated. -/
abbrev outView : View sig .tc .vmem S1024 .f32 := (Memref.whole cc0_stg2_0 : Memref sig .tc .vmem S1024 .f32).view
/-- Each window's current staging memref at point `t`, as the pipeline passes it, and its wholeness. -/
abbrev msRows (t : Fin cfg0.N) : Memref sig .tc .vmem S1024x128 .bf16 := win0_0.stage (cfg0.slots t 0)
abbrev hsRows (t : Fin cfg0.N) : (msRows t).IsWhole := hstage0_0 ((cfg0.slots t 0).cast nbuf0_0)
abbrev msCols (t : Fin cfg0.N) : Memref sig .tc .vmem S1024x128 .bf16 := win0_1.stage (cfg0.slots t 1)
abbrev hsCols (t : Fin cfg0.N) : (msCols t).IsWhole := hstage0_1 ((cfg0.slots t 1).cast nbuf0_1)
abbrev msOut (t : Fin cfg0.N) : Memref sig .tc .vmem S1024 .f32 := win0_2.stage (cfg0.slots t 2)
abbrev hsOut (t : Fin cfg0.N) : (msOut t).IsWhole := hstage0_2 ((cfg0.slots t 2).cast nbuf0_2)
/-- The kept vector: a whole scoped buffer of the kernel's own, passed beside the windows. -/
abbrev accM : Memref sig .tc .vmem S1024 .f32 := Memref.whole cc0_scratch0
/-- The same as a view: what it holds is stated through it. -/
abbrev accView : View sig .tc .vmem S1024 .f32 := accM.view

/-- The region's class invariant with the kept vector as a memref owned at some contents. -/
theorem classInv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Frame

end
-- ==== Proof.FrameBitsFirst.lean ====
/-
  The body at the first column block of a row block (`i₁ = 0`): it zeroes the kept vector, then adds this block's
  row sums into it; the output block is not touched. On whole staging memrefs — the two input blocks at their
  contents, the output block at anything (handed back as found), the kept vector at anything — the body runs to the
  end with the kept vector written piece by piece: the pieces (last store first) are what the run finds.
-/
import proofs.«165202_j28097676050918_1_alg».proof.Proof.FrameBitsShared

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : isFirst i) (hc2 : ¬isLast i)
    (x0 x1 : Vec F S1024x128 .bf16) :
    { LS : List (View.Piece (Elt F) S1024 .f32) //
      ∀ (xi : Vec F S1024 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨?_, fun xi E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Frame

end
-- ==== Proof.FrameBitsMiddle.lean ====
/-
  The body at a column block that is neither the first nor the last of its row block: it adds this block's row sums
  into the kept vector, which holds what the point before left; the output block is not touched.
-/
import proofs.«165202_j28097676050918_1_alg».proof.Proof.FrameBitsFirst

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

set_option maxHeartbeats 1000000 in
noncomputable def runMiddle (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : ¬isLast i)
    (x0 x1 : Vec F S1024x128 .bf16) (xs : Vec F S1024 .f32) :
    { LS : List (View.Piece (Elt F) S1024 .f32) //
      ∀ (xi : Vec F S1024 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨?_, fun xi E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Frame

end
-- ==== Proof.FrameBitsLast.lean ====
/-
  The body at the last column block of a row block (`i₁ = 7`): it adds this block's row sums into the kept vector,
  which holds what the point before left, and copies the vector into the output block, whatever that held.
-/
import proofs.«165202_j28097676050918_1_alg».proof.Proof.FrameBitsMiddle

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : isLast i)
    (x0 x1 : Vec F S1024x128 .bf16) (xs : Vec F S1024 .f32) :
    Σ' (LO : List (View.Piece (Elt F) S1024 .f32)), { LS : List (View.Piece (Elt F) S1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Frame

end
-- ==== Proof.LibSharedArrays.lean ====
/-
  One array handed to a kernel through several input windows.

  A pipeline holds each window's array separately, window by window, at a share of the window's own; the launch hands
  over the DISTINCT buffers behind the arrays, each whole at the full share. When several windows read one buffer the
  buffer's full share has to be dealt among them. Two facts, for any window layout:

  * regrouping — the windows are partitioned by the buffer behind their array, so the distinct buffers entail any
    window-indexed family of resources as soon as each buffer by itself entails the family over the windows on it;
  * dealing — one points-to at the full share is three points-tos of the same contents at the shares
    left, right·left, right·right (the tree share's two halves, the right one halved again), and back.
-/
import Idealize.ShloMosaic.Lib.Pipeline.Launch
import Idealize.ShloMosaic.Lib.Pipeline.Frame
import Idealize.ShloMosaic.Lib.Pipeline.FrameSuffix

noncomputable section

namespace Cert.Lib.SharedArrays

open Idealize.ShloMosaic Idealize.ShloMosaic.Pipeline
open Idealize.SL
open Idealize.SL.BI (sProp bigSep bigSep_mono bigSep_biUnion)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The windows, grouped by the buffer behind their array, are all the windows. -/
theorem biUnion_fibers {gr W : Nat} (win : Fin W → WinSpec sig gr) :
    (Finset.univ.image (arrRef win)).biUnion (fun b => Finset.univ.filter fun w => arrRef win w = b) = Finset.univ := by
  ext w
  simp only [Finset.mem_biUnion, Finset.mem_image, Finset.mem_univ, true_and, Finset.mem_filter, iff_true]
  exact ⟨arrRef win w, ⟨w, rfl⟩, rfl⟩

/-- A family over the windows whose array lies among the buffers `s`, grouped buffer by buffer. -/
theorem bigSep_fiberwise {gr W : Nat} (win : Fin W → WinSpec sig gr) (P : Fin W → sProp 𝕄) (s : Finset (Ref sig .tc)) :
    bigSep (Finset.univ.filter fun w => arrRef win w ∈ s) P
      = bigSep s fun b => bigSep (Finset.univ.filter fun w => arrRef win w = b) P := by
  classical
  induction s using Finset.induction_on with
  | empty => simp
  | insert b s hb ih =>
    have hd : Disjoint (Finset.univ.filter fun w => arrRef win w = b) (Finset.univ.filter fun w => arrRef win w ∈ s) :=
      Finset.disjoint_filter.mpr fun w _ h₁ h₂ => hb (h₁ ▸ h₂)
    have hu : (Finset.univ.filter fun w => arrRef win w ∈ insert b s)
        = (Finset.univ.filter fun w => arrRef win w = b) ∪ (Finset.univ.filter fun w => arrRef win w ∈ s) := by
      ext w; simp [Finset.mem_insert]
    rw [BI.bigSep_insert hb, ← ih, hu, BI.bigSep_union hd]

/-- Every window's array lies among the buffers behind the arrays. -/
theorem filter_image_eq_univ {gr W : Nat} (win : Fin W → WinSpec sig gr) :
    (Finset.univ.filter fun w => arrRef win w ∈ Finset.univ.image (arrRef win)) = Finset.univ := by
  ext w; simp

/-- REGROUPING, as an equality: a family over all windows is the family over the windows on each buffer, buffer by buffer. -/
theorem bigSep_windows_eq {gr W : Nat} (win : Fin W → WinSpec sig gr) (P : Fin W → sProp 𝕄) :
    bigSep Finset.univ P
      = bigSep (Finset.univ.image (arrRef win)) fun b => bigSep (Finset.univ.filter fun w => arrRef win w = b) P := by
  rw [← bigSep_fiberwise, filter_image_eq_univ]

/-- JOINING (the converse of dealing, at a region's exit). If the resources of the windows on each buffer entail the buffer
    whole at the full share at contents `V`, then the windows' resources together entail the distinct buffers at `V`. -/
theorem entails_arrBufs {gr W : Nat} (win : Fin W → WinSpec sig gr) (c : Dev nD)
    (V : (b : Ref sig .tc) → Buf Val ((c.tc : Thread nD τ).loc b)) (P : Fin W → sProp 𝕄)
    (h : ∀ b ∈ Finset.univ.image (arrRef win),
      bigSep (Finset.univ.filter fun w => arrRef win w = b) P ⊢ ((((c.tc : Thread nD τ).loc b) ↦{fullShare} V b : sProp 𝕄))) :
    bigSep Finset.univ P ⊢ (arrBufs win c V : sProp 𝕄) := by
  classical
  rw [bigSep_windows_eq win P]
  unfold arrBufs
  exact bigSep_mono h

/-- REGROUPING. If each distinct buffer, whole at the full share at contents `V`, entails the resources `P w` of the
    windows `w` whose array it is, then the distinct buffers together entail `P` over every window. -/
theorem arrBufs_entails {gr W : Nat} (win : Fin W → WinSpec sig gr) (c : Dev nD)
    (V : (b : Ref sig .tc) → Buf Val ((c.tc : Thread nD τ).loc b)) (P : Fin W → sProp 𝕄)
    (h : ∀ b ∈ Finset.univ.image (arrRef win),
      ((((c.tc : Thread nD τ).loc b) ↦{fullShare} V b : sProp 𝕄)) ⊢ bigSep (Finset.univ.filter fun w => arrRef win w = b) P) :
    (arrBufs win c V : sProp 𝕄) ⊢ bigSep Finset.univ P := by
  classical
  unfold arrBufs
  have hflat := bigSep_biUnion (M := 𝕄) (Finset.univ.image (arrRef win))
    (fun b => Finset.univ.filter fun w => arrRef win w = b) (Φ := P)
  rw [biUnion_fibers] at hflat
  exact (bigSep_mono h).trans hflat

/-- REGROUPING, both ways at once. -/
theorem arrBufs_iff {gr W : Nat} (win : Fin W → WinSpec sig gr) (c : Dev nD)
    (V : (b : Ref sig .tc) → Buf Val ((c.tc : Thread nD τ).loc b)) (P : Fin W → sProp 𝕄)
    (h : ∀ b ∈ Finset.univ.image (arrRef win),
      ((((c.tc : Thread nD τ).loc b) ↦{fullShare} V b : sProp 𝕄)) ⊣⊢ bigSep (Finset.univ.filter fun w => arrRef win w = b) P) :
    (arrBufs win c V : sProp 𝕄) ⊣⊢ bigSep Finset.univ P :=
  ⟨arrBufs_entails win c V P fun b hb => (h b hb).1, entails_arrBufs win c V P fun b hb => (h b hb).2⟩

/-- DEALING. One points-to at the full share is three of the same contents, at the left half, the left half of the
    right half and the right half of the right half; the three together are the full share again. -/
theorem pointsTo_deal3 {ℓ : Loc nD τ sig} (I : Finset (Idx ℓ)) (f : Buf Val ℓ) :
    (ℓ ↦[I]{fullShare} f : sProp 𝕄)
      ⊣⊢ iprop((ℓ ↦[I]{fullShare.left} f) ∗ (ℓ ↦[I]{fullShare.right.left} f) ∗ ℓ ↦[I]{fullShare.right.right} f) :=
  (pointsTo_share (PosShare.mem_left_op_right fullShare)).trans
    ⟨sep_mono .rfl (pointsTo_share (PosShare.mem_left_op_right fullShare.right)).1,
     sep_mono .rfl (pointsTo_share (PosShare.mem_left_op_right fullShare.right)).2⟩

/-- The three shares of the deal, for a window's position among the three windows on one buffer. -/
def share3 : Fin 3 → PosShare TreeShare
  | 0 => fullShare.left
  | 1 => fullShare.right.left
  | 2 => fullShare.right.right

/-- A core's unscoped buffers are the distinct buffers behind the windows' arrays and the rest, whether or not
    windows share an array. -/
theorem unscopedBufs_eq {gr W : Nat} (win : Fin W → WinSpec sig gr) (hunscoped : ∀ w, (arrRef win w).isScoped = false) (c : Dev nD)
    (V : (b : Ref sig .tc) → Buf Val ((c.tc : Thread nD τ).loc b)) :
    (unscopedBufs c V : sProp 𝕄) = iprop((arrBufs win c V : sProp 𝕄) ∗ unscopedRest win c V) := by
  classical
  have hA : Finset.univ.image (arrRef win) ⊆ Finset.univ.filter fun b : Ref sig .tc => ¬ b.isScoped := fun b hb => by
    obtain ⟨w, -, rfl⟩ := Finset.mem_image.mp hb
    exact Finset.mem_filter.mpr ⟨Finset.mem_univ _, by simp [hunscoped w]⟩
  unfold unscopedBufs unscopedRest arrBufs
  rw [BI.bigSep_sdiff_split hA]
  rfl

/-! ## The host lines after a region whose windows share arrays -/

section Tail

variable {Λ₀ : Idealize.SL.Sem.Labels} {P : Type} [Fintype P] [DecidableEq P]
variable (pcs : P → PCfg sig Λ₀ Val) (defs₀ : Defs nD τ sig Val Λ₀) (𝒱₀ : Variants)

local notation "𝔻" => Pipeline.defs pcs defs₀
local notation "𝕍" => Variants.lift 𝒱₀

omit [Fintype P] [DecidableEq P] in
set_option backward.isDefEq.respectTransparency.types false in
/-- The lines after the region, run from the windows' resources `Pw` and the bypassing buffers. The windows' resources
    join into the distinct buffers behind the arrays at the exit contents `Wv` (`hjoin`) and are dealt from them again
    (`hdeal`); no line writes an array (`hkeep`). The lines then run over the core's unscoped buffers, held whole, and the
    windows' resources come back as they were beside the bypassing buffers at the lines' results. -/
theorem tail_seqs_shared [Preorder Lvl] {gr W : Nat} (win : Fin W → WinSpec sig gr) (hunscoped : ∀ w, (arrRef win w).isScoped = false)
    (c : Dev nD) (Wv : Valuation τ sig Val) (Pw : Fin W → sProp 𝕄)
    (hjoin : bigSep Finset.univ Pw ⊢ (arrBufs win c (fun b => Wv (Proc.devRef .tc b)) : sProp 𝕄))
    (hdeal : (arrBufs win c (fun b => Wv (Proc.devRef .tc b)) : sProp 𝕄) ⊢ bigSep Finset.univ Pw)
    (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef win w) ∉ op.writes)
    (Q' : PUnit → sProp 𝕄) :
    iprop((iprop(bigSep Finset.univ Pw ∗ unscopedRest win c (fun b => StableHlo.after opss.flatten Wv (Proc.devRef .tc b))) -∗ Q' ⟨⟩)
        ∗ boundary (c.tc : Thread nD τ) ∗ bigSep Finset.univ Pw ∗ unscopedRest win c (fun b => Wv (Proc.devRef .tc b)))
      ⊢ wp frame (wpE 𝔻 𝕍 (c.tc : Thread nD τ) none) Set.univ (chain (opss.map StableHlo.seq)) Q' := by
  classical
  have hheld : ∀ Wv' : Valuation τ sig Val, (StableHlo.held (c.tc : Thread nD τ) (ucRefs τ sig) Wv' : sProp 𝕄)
      = iprop((arrBufs win c (fun b => Wv' (Proc.devRef .tc b)) : sProp 𝕄) ∗ unscopedRest win c (fun b => Wv' (Proc.devRef .tc b))) := fun Wv' => by
    rw [← unscopedBufs_held (Ix := Ix) (Name := Name) (U := U) (Lvl := Lvl) c Wv']
    exact unscopedBufs_eq win hunscoped c _
  have hsame : (arrBufs win c (fun b => StableHlo.after opss.flatten Wv (Proc.devRef .tc b)) : sProp 𝕄)
      = arrBufs win c (fun b => Wv (Proc.devRef .tc b)) := by
    unfold arrBufs
    refine BI.bigSep_congr fun b hb => ?_
    obtain ⟨w, -, rfl⟩ := Finset.mem_image.mp hb
    beta_reduce
    rw [StableHlo.after_of_forall_not_mem _ _ fun op hop => ?_]
    obtain ⟨ops, hops, hop⟩ := List.mem_flatten.mp hop
    exact hkeep ops hops op hop w
  rw [← List.append_nil (opss.map StableHlo.seq)]
  iintro ⟨Hk, Hb, Hp, Hr⟩
  ihave Ha := hjoin $$ Hp
  iapply (wp_seqs_then pcs defs₀ 𝒱₀ c (ucRefs τ sig) [] opss (fun ops ho op h => sub_ucRefs op (hsub ops ho op h)) hfresh Wv) $$ [Hb Ha Hr]
  · rw [hheld Wv]
    isplitl [Hb]; · iexact Hb
    isplitl [Ha] <;> iassumption
  iintro Hb
  rw [chain_nil, wp_pure, hheld, hsame]
  imodintro
  iapply Hk
  icases Hb with ⟨-, Ha, Hr⟩
  isplitl [Ha]
  · iapply hdeal; iexact Ha
  iexact Hr

end Tail

/-! ## The frame run of a region whose windows share arrays, @main continuing after it -/

section Frame

variable {Λ₀ : Idealize.SL.Sem.Labels} {P : Type} [Fintype P] [DecidableEq P] [∀ e, Nonempty (Val e)]
variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝕄₁" => MT nD τ sig Unit Val ℕ (UR sig nD τ) ℕ
local notation "𝔻" => Pipeline.defs (fun q => Cfg.toPCfg (Val := Val) (cfgs q)) defs₀

/-- What a run of such a program ends in: every window's array at what the library computes from the proof data, and
    every unscoped buffer that is no window's array at the results of the lines after the region, run from the exit
    contents `VN`. -/
def SharedPost (VN : Dev nD → Valuation τ sig Val) (opss : List (List (HloOp τ sig Val))) : PUnit × MemSt nD τ sig Val → Prop := fun r =>
  ∀ c : Dev nD, (∀ w, r.2.mem (((cfg).spec w).arr.view.loc (c.tc : Thread nD τ)) = (dats p c).arrAt w (cfg).N)
    ∧ ∀ b ∈ restRefs sig (cfg).spec, r.2.mem ((c.tc : Thread nD τ).loc b) = StableHlo.after opss.flatten (VN c) (Proc.devRef .tc b)

set_option backward.isDefEq.respectTransparency.types false in
/-- THE FRAME RUN for a kernel of the plain class — no semaphore, scratch or table of its own, nothing carried between
    points beyond the tracked invariant — whose windows MAY SHARE ARRAYS, in an @main that continues after the region
    with the host lines `opss`. The layout comes by its fields (`hinj`, `hw`, `hne`, `harr`, `hstage`); in place of the
    arrays' distinctness the certificate says how the distinct buffers at the entry contents `V₀` are dealt to the
    windows (`hdeal0`), and, at the exit contents `VN` — `V₀` off the arrays (`hVN`) —, that the windows' holdings join
    into the distinct buffers and are dealt from them again (`hjoinN`, `hdealN`); the lines write no array (`hkeep`). -/
theorem θ_run_frame_around_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ VN : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hVN : ∀ c, ∀ b ∈ restRefs sig (cfg).spec, VN c (Proc.devRef .tc b) = V₀ c (Proc.devRef .tc b))
    (hdeal0 : ∀ c, (arrBufs (cfg).spec c (fun b => V₀ c (Proc.devRef .tc b)) : sProp 𝕄₁) ⊢ (dats p c).arrays ((dats p c).arrAt · 0))
    (hjoinN : ∀ c, (dats p c).arrays ((dats p c).arrAt · (cfg).N) ⊢ (arrBufs (cfg).spec c (fun b => VN c (Proc.devRef .tc b)) : sProp 𝕄₁))
    (hdealN : ∀ c, (arrBufs (cfg).spec c (fun b => VN c (Proc.devRef .tc b)) : sProp 𝕄₁) ⊢ (dats p c).arrays ((dats p c).arrAt · (cfg).N))
    (hin : ∀ c, ΦA (cfg).spec c ⊢ (dats p c).Φ 0) (hout : ∀ c, (dats p c).Φ (Fin.last (cfg).N) ⊢ ΦA (cfg).spec c) :
    θ_run 𝔻 (onTc main) (s₀ m g) (SharedPost cfgs dats p VN opss) := by
  classical
  exact θ_run_region_pf_tail (fun q => (cfgs q).toPCfg (Val := Val)) (fun q => (cfgs q).toPCfg_adm) dats () hinj p hw
    (OwnSemFacts.none (cfg).spec) (PreFacts.none _) emb₁ defs₀ 𝒱₀ m g main
    (fun _ => chain (opss.map StableHlo.seq)) hbody hne harr hstage howed
    (G := fun _ => iprop(emp)) (u₀ := initOf (cells cfgs hinj) (launchToks cfgs hinj))
    (hu₀ := by
      iintro Hu; imodintro
      isplitl [Hu]; · iapply (show (ownU _ : sProp 𝕄₁) ⊢ BI.own (emb₁ (initOf (cells cfgs hinj) (launchToks cfgs hinj))) from .rfl); iexact Hu
      iapply (show (BI.emp : sProp 𝕄₁) ⊢ bigSep Finset.univ (fun _ : Dev nD => (BI.emp : sProp 𝕄₁)) from by rw [BI.bigSep_emp_const])
      iempintro)
    (V := fun c b => V₀ c (Proc.devRef .tc b)) (hmain := hmain)
    (hsplit := hdeal0)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c
      (fun b => StableHlo.after opss.flatten (VN c) (Proc.devRef .tc b)))
    (hX := fun c => by
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      rw [unscopedRestP_none, unscopedRestP_none,
        show (unscopedRest (cfg).spec c (fun b => V₀ c (Proc.devRef .tc b)) : sProp 𝕄₁)
            = unscopedRest (cfg).spec c (fun b => VN c (Proc.devRef .tc b)) from by
          unfold unscopedRest; exact BI.bigSep_congr fun b hb => by beta_reduce; rw [hVN c b hb]]
      exact tail_seqs_shared (fun q => (cfgs q).toPCfg (Val := Val)) defs₀ 𝒱₀ (cfg).spec hw.arr_unscoped c (VN c) _
        (hjoinN c) (hdealN c) opss hsub hfresh hkeep Q')
    (QY := fun c s => ∀ b ∈ restRefs sig (cfg).spec, s.mem ((c.tc : Thread nD τ).loc b) = StableHlo.after opss.flatten (VN c) (Proc.devRef .tc b))
    (hY := fun c s' => by
      rw [unscopedRestP_none]
      iintro ⟨-, HU, HSI⟩
      unfold unscopedRest
      imodintro
      iapply (pointsTo_read_all (restRefs sig (cfg).spec) (fun b => (c.tc : Thread nD τ).loc b)
        (fun b => StableHlo.after opss.flatten (VN c) (Proc.devRef .tc b)) s')
      isplitl [HU] <;> iassumption)
    (hQ := fun s h c => ⟨(h c).1, (h c).2.2⟩)

end Frame

end Cert.Lib.SharedArrays

end
-- ==== Proof.FrameBits.lean ====
/-
  The row-denominator kernel's frame: every weakly fair execution of @main terminates without a fault, the stacked
  rows end as the host lines before the region left them, the denominators end at what the region's write-backs
  made of them, and every other buffer at what the host lines after the region compute from those.

  The kept vector after point `n` is stated by recursion on `n`: at a first column block the body's result over a
  zeroed vector, elsewhere the body's result over what point `n − 1` left. The output block holds the kept vector at
  the last column block of each row block, which is also the only point at which it is written back. Both input
  windows read ONE array, so each holds it at half the share: the launch deals the array's full share in two and the
  exit joins the halves again.
-/
import proofs.«165202_j28097676050918_1_alg».proof.Proof.FrameBitsLast
import proofs.«165202_j28097676050918_1_alg».proof.Proof.LibSharedArrays

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen
open Cert.Lib.SharedArrays

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- A first column block's stores into the kept vector (the zeroing, then the sum) cover it. -/
theorem cover_accFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : isFirst i) (hc2 : ¬isLast i)
    (x0 x1 : Vec F S1024x128 .bf16) (y : S1024.Idx) :
    ∃ pc ∈ (runFirst c i arg2 harg2 arg3 harg3 arg4 harg4 arg5 harg5 hc0 hc2 x0 x1).1, y ∈ pc.1.set :=
  View.cover_of_tiledL (runFirst c i arg2 harg2 arg3 harg3 arg4 harg4 arg5 harg5 hc0 hc2 x0 x1).1 S1024.size (by sl_kernel_rfl) y

/-- What a first column block leaves in the kept vector: its stores read back. -/
def accFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : isFirst i) (hc2 : ¬isLast i)
    (x0 x1 : Vec F S1024x128 .bf16) : Vec F S1024 .f32 :=
  accView.read (Elt F) (accView.writes (Elt F) accView.junk (runFirst c i arg2 harg2 arg3 harg3 arg4 harg4 arg5 harg5 hc0 hc2 x0 x1).1)

theorem cover_accMiddle (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : ¬isLast i)
    (x0 x1 : Vec F S1024x128 .bf16) (xs : Vec F S1024 .f32) (y : S1024.Idx) :
    ∃ pc ∈ (runMiddle c i arg2 harg2 arg3 harg3 arg4 harg4 arg5 harg5 hc0 hc2 x0 x1 xs).1, y ∈ pc.1.set :=
  View.cover_of_tiledL (runMiddle c i arg2 harg2 arg3 harg3 arg4 harg4 arg5 harg5 hc0 hc2 x0 x1 xs).1 S1024.size (by sl_kernel_rfl) y

/-- What a middle column block leaves in the kept vector, over what the point before left (`xs`). -/
def accMiddle (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : ¬isLast i)
    (x0 x1 : Vec F S1024x128 .bf16) (xs : Vec F S1024 .f32) : Vec F S1024 .f32 :=
  accView.read (Elt F) (accView.writes (Elt F) accView.junk (runMiddle c i arg2 harg2 arg3 harg3 arg4 harg4 arg5 harg5 hc0 hc2 x0 x1 xs).1)

theorem cover_accLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : isLast i)
    (x0 x1 : Vec F S1024x128 .bf16) (xs : Vec F S1024 .f32) (y : S1024.Idx) :
    ∃ pc ∈ (runLast c i arg2 harg2 arg3 harg3 arg4 harg4 arg5 harg5 hc0 hc2 x0 x1 xs).2.1, y ∈ pc.1.set :=
  View.cover_of_tiledL (runLast c i arg2 harg2 arg3 harg3 arg4 harg4 arg5 harg5 hc0 hc2 x0 x1 xs).2.1 S1024.size (by sl_kernel_rfl) y

/-- What the last column block leaves in the kept vector. -/
def accLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : isLast i)
    (x0 x1 : Vec F S1024x128 .bf16) (xs : Vec F S1024 .f32) : Vec F S1024 .f32 :=
  accView.read (Elt F) (accView.writes (Elt F) accView.junk (runLast c i arg2 harg2 arg3 harg3 arg4 harg4 arg5 harg5 hc0 hc2 x0 x1 xs).2.1)

theorem cover_outLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : isLast i)
    (x0 x1 : Vec F S1024x128 .bf16) (xs : Vec F S1024 .f32) (y : S1024.Idx) :
    ∃ pc ∈ (runLast c i arg2 harg2 arg3 harg3 arg4 harg4 arg5 harg5 hc0 hc2 x0 x1 xs).1, y ∈ pc.1.set :=
  View.cover_of_tiledL (runLast c i arg2 harg2 arg3 harg3 arg4 harg4 arg5 harg5 hc0 hc2 x0 x1 xs).1 S1024.size (by sl_kernel_rfl) y

/-- What the last column block leaves in the output block. -/
def outLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : isLast i)
    (x0 x1 : Vec F S1024x128 .bf16) (xs : Vec F S1024 .f32) : Vec F S1024 .f32 :=
  outView.read (Elt F) (outView.writes (Elt F) outView.junk (runLast c i arg2 harg2 arg3 harg3 arg4 harg4 arg5 harg5 hc0 hc2 x0 x1 xs).1)

/-- The output block's contents at a point that does not store into it: a placeholder nothing consults (there the window
    is idle and is not written back). -/
def outIdle : Vec F S1024 .f32 := outView.read (Elt F) outView.junk

/-! ## Point by point -/

/-- What the output block and the kept vector hold after the body at position `n` (a pair: the output block, then the
    kept vector). -/
def stateAt (c : Dev nD) : (n : ℕ) → n < cfg0.N → Vec F S1024 .f32 × Vec F S1024 .f32
  | 0, hn => (outIdle, accFirst c (grid0.coords ⟨0, hn⟩) (msRows ⟨0, hn⟩) (hsRows ⟨0, hn⟩) (msCols ⟨0, hn⟩) (hsCols ⟨0, hn⟩) (msOut ⟨0, hn⟩) (hsOut ⟨0, hn⟩) accM (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩))
  | n + 1, hn =>
    if h0 : (n + 1) % 8 = 0 then
      (outIdle, accFirst c (grid0.coords ⟨n + 1, hn⟩) (msRows ⟨n + 1, hn⟩) (hsRows ⟨n + 1, hn⟩) (msCols ⟨n + 1, hn⟩) (hsCols ⟨n + 1, hn⟩) (msOut ⟨n + 1, hn⟩) (hsOut ⟨n + 1, hn⟩) accM (Memref.isWhole_whole _) ((isFirst_iff ⟨n + 1, hn⟩).mpr h0) (fun h => (fun h => by (try dsimp only at h); omega) ((isLast_iff ⟨n + 1, hn⟩).mp h)) (iblk m c 0 ⟨n + 1, hn⟩) (iblk m c 1 ⟨n + 1, hn⟩))
    else
      if h2 : (n + 1) % 8 = 7 then
        (outLast c (grid0.coords ⟨n + 1, hn⟩) (msRows ⟨n + 1, hn⟩) (hsRows ⟨n + 1, hn⟩) (msCols ⟨n + 1, hn⟩) (hsCols ⟨n + 1, hn⟩) (msOut ⟨n + 1, hn⟩) (hsOut ⟨n + 1, hn⟩) accM (Memref.isWhole_whole _) (fun h => h0 ((isFirst_iff ⟨n + 1, hn⟩).mp h)) ((isLast_iff ⟨n + 1, hn⟩).mpr h2) (iblk m c 0 ⟨n + 1, hn⟩) (iblk m c 1 ⟨n + 1, hn⟩) (stateAt c n (Nat.lt_of_succ_lt hn)).2,
         accLast c (grid0.coords ⟨n + 1, hn⟩) (msRows ⟨n + 1, hn⟩) (hsRows ⟨n + 1, hn⟩) (msCols ⟨n + 1, hn⟩) (hsCols ⟨n + 1, hn⟩) (msOut ⟨n + 1, hn⟩) (hsOut ⟨n + 1, hn⟩) accM (Memref.isWhole_whole _) (fun h => h0 ((isFirst_iff ⟨n + 1, hn⟩).mp h)) ((isLast_iff ⟨n + 1, hn⟩).mpr h2) (iblk m c 0 ⟨n + 1, hn⟩) (iblk m c 1 ⟨n + 1, hn⟩) (stateAt c n (Nat.lt_of_succ_lt hn)).2)
      else
        (outIdle, accMiddle c (grid0.coords ⟨n + 1, hn⟩) (msRows ⟨n + 1, hn⟩) (hsRows ⟨n + 1, hn⟩) (msCols ⟨n + 1, hn⟩) (hsCols ⟨n + 1, hn⟩) (msOut ⟨n + 1, hn⟩) (hsOut ⟨n + 1, hn⟩) accM (Memref.isWhole_whole _) (fun h => h0 ((isFirst_iff ⟨n + 1, hn⟩).mp h)) (fun h => h2 ((isLast_iff ⟨n + 1, hn⟩).mp h)) (iblk m c 0 ⟨n + 1, hn⟩) (iblk m c 1 ⟨n + 1, hn⟩) (stateAt c n (Nat.lt_of_succ_lt hn)).2)

/-- At a first column block. -/
theorem stateAt_first (c : Dev nD) (t : Fin cfg0.N) (h0 : t.val % 8 = 0) (h2 : ¬t.val % 8 = 7) :
    stateAt m c t.val t.isLt = (outIdle, accFirst c (grid0.coords t) (msRows t) (hsRows t) (msCols t) (hsCols t) (msOut t) (hsOut t) accM (Memref.isWhole_whole _) ((isFirst_iff t).mpr h0) (fun h => h2 ((isLast_iff t).mp h)) (iblk m c 0 t) (iblk m c 1 t)) := by
  obtain ⟨n, hn⟩ := t
  cases n with
  | zero => exact rfl
  | succ n => exact (dif_pos h0).trans rfl

/-- At a middle column block: over what the point before left. -/
theorem stateAt_middle (c : Dev nD) (t : Fin cfg0.N) (h0 : ¬t.val % 8 = 0) (h2 : ¬t.val % 8 = 7) :
    stateAt m c t.val t.isLt = (outIdle, accMiddle c (grid0.coords t) (msRows t) (hsRows t) (msCols t) (hsCols t) (msOut t) (hsOut t) accM (Memref.isWhole_whole _) (fun h => h0 ((isFirst_iff t).mp h)) (fun h => h2 ((isLast_iff t).mp h)) (iblk m c 0 t) (iblk m c 1 t) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h2).trans rfl)

/-- At the last column block: over what the point before left. -/
theorem stateAt_last (c : Dev nD) (t : Fin cfg0.N) (h0 : ¬t.val % 8 = 0) (h2 : t.val % 8 = 7) :
    stateAt m c t.val t.isLt = (outLast c (grid0.coords t) (msRows t) (hsRows t) (msCols t) (hsCols t) (msOut t) (hsOut t) accM (Memref.isWhole_whole _) (fun h => h0 ((isFirst_iff t).mp h)) ((isLast_iff t).mpr h2) (iblk m c 0 t) (iblk m c 1 t) (stateAt m c (t.val - 1) (Nat.lt_of_le_of_lt (Nat.sub_le _ _) t.isLt)).2,
      accLast c (grid0.coords t) (msRows t) (hsRows t) (msCols t) (hsCols t) (msOut t) (hsOut t) accM (Memref.isWhole_whole _) (fun h => h0 ((isFirst_iff t).mp h)) ((isLast_iff t).mpr h2) (iblk m c 0 t) (iblk m c 1 t) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h2).trans rfl)

/-- The region's invariant before position `n`: before the first point the class's (the kept vector at anything);
    afterwards the kept vector at what the point before left, and the generator register at some state. -/
def inv (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) accM fullShare ((stateAt m c n hn).2)) ∗ (∃ r, prngReg c r)) := rfl

theorem inv_pos (c : Dev nD) (n : ℕ) (h : n ≤ cfg0.N) (hz : n ≠ 0) :
    inv m c n h = iprop(iprop(owns (c : Thread nD τ) accM fullShare ((stateAt m c (n - 1) (by omega)).2)) ∗ (∃ r, prngReg c r)) := by
  cases n with
  | zero => exact absurd rfl hz
  | succ n => rfl

/-! ## The proof data -/

/-- The arrays as the region finds them; after the body at point `t` each input block in place and the output block at
    `stateAt`'s first component; the invariant `inv`; nothing owed; the stacked rows held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stateAt m c t.val t.isLt).1
  Φ t := inv m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; simp only [Fin.coe_castSucc]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_out (c : Dev nD) (t : Fin cfg0.N) : (dats m 0 c).after 2 t = (stateAt m c t.val t.isLt).1 := by dsimp only [dats]

theorem before_rows (c : Dev nD) (t : Fin cfg0.N) (d) : (dats m 0 c).before 0 t d = iblk m c 0 t :=
  before_rows_of m (dats m 0 c) (A_eq m c 0) (after_rows m c) t d
theorem before_cols (c : Dev nD) (t : Fin cfg0.N) (d) : (dats m 0 c).before 1 t d = iblk m c 1 t :=
  before_cols_of m (dats m 0 c) (A_eq m c 1) (after_cols m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msRows t) fullShare ((dats m 0 c).before 0 t d))
    ∗ (∃ d, owns (c : Thread nD τ) (msCols t) fullShare ((dats m 0 c).before 1 t d))
    ∗ (∃ d, owns (c : Thread nD τ) (msOut t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the input memrefs hold their blocks; the closed forms say which kind of point it is; the
    invariant hands the body the kept vector at what the point before left (at anything before the first point) and
    takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols]
  rw [show (dats m 0 c).owesAt () t.succ = (dats m 0 c).owesAt () t.castSucc from rfl]
  rw [show (dats m 0 c).Φ t.succ = inv m c (t.val + 1) t.isLt from rfl, inv_succ]
  have hN : t.val < 64 := lt_of_lt_of_eq t.isLt (show cfg0.N = 64 from N_0)
  rw [show (dats m 0 c).leavesExact 0 t = owns (c : Thread nD τ) (msRows t) fullShare ((dats m 0 c).after 0 t) from by
      unfold Dat.leavesExact; rw [live_rows t], after_rows]
  rw [show (dats m 0 c).leavesExact 1 t = owns (c : Thread nD τ) (msCols t) fullShare ((dats m 0 c).after 1 t) from by
      unfold Dat.leavesExact; rw [live_cols t], after_cols]
  by_cases h0 : t.val % 8 = 0
  · have h2 : ¬t.val % 8 = 7 := by omega
    rw [Dat.leavesExact_idle (dats m 0 c) 2 t (idle_out t (fun h => h2 ((isLast_iff t).mp h))) (noFlush_out t (fun h => h2 ((isLast_iff t).mp h)))]
    rw [stateAt_first m c t h0 h2]
    unfold accFirst; (try dsimp only)
    by_cases hz : t.val = 0
    · rw [inv_castSucc m c t, inv_zero m c _ _ hz, classInv_eq]
      iintro ⟨⟨HS, Hg⟩, Ho, ⟨%d0, H0⟩, ⟨%d1, H1⟩, ⟨%d2, H2⟩⟩
      iapply ((runFirst c (grid0.coords t) _ _ _ _ _ _ _ _ ((isFirst_iff t).mpr h0) (fun h => h2 ((isLast_iff t).mp h)) (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (cover_accFirst c _ _ _ _ _ _ _ _ _ _ _ _ _)
        iexact Hg
      isplitl [Ho]; · iexact Ho
      isplitl [H0]; · iexact H0
      isplitl [H1]; · iexact H1
      iexists _; iexact H2
    · rw [inv_castSucc m c t, inv_pos m c _ _ hz]
      iintro ⟨⟨HS, Hg⟩, Ho, ⟨%d0, H0⟩, ⟨%d1, H1⟩, ⟨%d2, H2⟩⟩
      iapply ((runFirst c (grid0.coords t) _ _ _ _ _ _ _ _ ((isFirst_iff t).mpr h0) (fun h => h2 ((isLast_iff t).mp h)) (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (cover_accFirst c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h2 : t.val % 8 = 7
    · rw [show (dats m 0 c).leavesExact 2 t = owns (c : Thread nD τ) (msOut t) fullShare ((dats m 0 c).after 2 t) from by
          unfold Dat.leavesExact; rw [live_out t ((isLast_iff t).mpr h2)], after_out]
      rw [stateAt_last m c t h0 h2]
      unfold outLast accLast; (try dsimp only)
      rw [inv_castSucc m c t, inv_pos m c _ _ hz]
      iintro ⟨⟨HS, Hg⟩, Ho, ⟨%d0, H0⟩, ⟨%d1, H1⟩, ⟨%d2, H2⟩⟩
      iapply ((runLast c (grid0.coords t) _ _ _ _ _ _ _ _ (fun h => h0 ((isFirst_iff t).mp h)) ((isLast_iff t).mpr h2) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (cover_accLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover_outLast c _ _ _ _ _ _ _ _ _ _ _ _ _ _)
    · rw [Dat.leavesExact_idle (dats m 0 c) 2 t (idle_out t (fun h => h2 ((isLast_iff t).mp h))) (noFlush_out t (fun h => h2 ((isLast_iff t).mp h)))]
      rw [stateAt_middle m c t h0 h2]
      unfold accMiddle; (try dsimp only)
      rw [inv_castSucc m c t, inv_pos m c _ _ hz]
      iintro ⟨⟨HS, Hg⟩, Ho, ⟨%d0, H0⟩, ⟨%d1, H1⟩, ⟨%d2, H2⟩⟩
      iapply ((runMiddle c (grid0.coords t) _ _ _ _ _ _ _ _ (fun h => h0 ((isFirst_iff t).mp h)) (fun h => h2 ((isLast_iff t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (cover_accMiddle c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the class's back: what the kept vector holds is forgotten. -/
theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 64 := N_0; omega), classInv_eq]
  iintro ⟨HS, Hg⟩
  isplitl [HS]
  · iexists _; iexact HS
  iexact Hg

end Cert.Kernel.Frame

end
-- ==== Proof.FrameBitsRun.lean ====
/-
  The row-denominator kernel's launch and run. Both input windows read the stacked rows, so the launch deals that
  array's full share in two halves, one per window, and the exit joins them; the denominators are the output
  window's alone. At the exit every buffer is as the region found it, but the denominators, which hold what the
  write-backs made of them; the host lines after the region run from there.
-/
import proofs.«165202_j28097676050918_1_alg».proof.Proof.FrameBits

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen
open Cert.Lib.SharedArrays

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Which buffer each window's array is. -/
theorem arrRef_rows : Pipeline.arrRef spec0 0 = main_v17 := rfl
theorem arrRef_cols : Pipeline.arrRef spec0 1 = main_v17 := rfl
theorem arrRef_out : Pipeline.arrRef spec0 2 = main_v18 := rfl

/-- The windows on the stacked rows are the two input windows; the window on the denominators is the output window. -/
theorem fiber_rows : (Finset.univ.filter fun w : Fin 3 => Pipeline.arrRef spec0 w = main_v17) = {0, 1} := by decide
theorem fiber_out : (Finset.univ.filter fun w : Fin 3 => Pipeline.arrRef spec0 w = main_v18) = {2} := by decide

/-- DEALING AND JOINING. For contents `G` of the buffers and `Fw` of the windows' arrays that agree, the two distinct
    buffers whole at the full share are the three windows' holdings: the stacked rows at the left half for the row-block
    window and at the right half for the column-block window, the denominators at the full share. -/
theorem arrays_iff (c : Dev nD) (G : (b : Ref sig .tc) → Buf (Elt F) ((c.tc : Thread nD τ).loc b))
    (Fw : (w : Fin cfg0.W) → Buf (Elt F) ((cfg0.win w).arr.view.loc (c.tc : Thread nD τ)))
    (h0 : Fw 0 = G main_v17) (h1 : Fw 1 = G main_v17) (h2 : Fw 2 = G main_v18) :
    (Pipeline.arrBufs spec0 c G : sProp 𝕄) ⊣⊢ (dats m 0 c).arrays Fw := by
  unfold Dat.arrays
  refine arrBufs_iff spec0 c G _ fun b hb => ?_
  obtain ⟨w, -, rfl⟩ := Finset.mem_image.mp hb
  have hrows : ((((c.tc : Thread nD τ).loc main_v17) ↦{fullShare} G main_v17 : sProp 𝕄))
      ⊣⊢ bigSep ({0, 1} : Finset (Fin 3)) fun w : Fin cfg0.W =>
        (cfg0.win w).arr.view.loc (c.tc : Thread nD τ) ↦[(cfg0.win w).arr.view.set]{(dats m 0 c).share w} Fw w := by
    rw [bigSep_insert (by decide), bigSep_singleton, (arr_whole0 0).set_eq_univ, h0, h1,
      show (dats m 0 c).share 0 = fullShare.left from rfl, show (dats m 0 c).share 1 = fullShare.right from rfl]
    exact pointsTo_share (PosShare.mem_left_op_right fullShare)
  have hout : ((((c.tc : Thread nD τ).loc main_v18) ↦{fullShare} G main_v18 : sProp 𝕄))
      ⊣⊢ bigSep ({2} : Finset (Fin 3)) fun w : Fin cfg0.W =>
        (cfg0.win w).arr.view.loc (c.tc : Thread nD τ) ↦[(cfg0.win w).arr.view.set]{(dats m 0 c).share w} Fw w := by
    rw [bigSep_singleton, (arr_whole0 2).set_eq_univ, h2]
    exact ⟨.rfl, .rfl⟩
  fin_cases w
  · rw [show Pipeline.arrRef spec0 ((fun i => i) ⟨0, by decide⟩ : Fin 3) = main_v17 from rfl, fiber_rows]; exact hrows
  · rw [show Pipeline.arrRef spec0 ((fun i => i) ⟨1, by decide⟩ : Fin 3) = main_v17 from rfl, fiber_rows]; exact hrows
  · rw [show Pipeline.arrRef spec0 ((fun i => i) ⟨2, by decide⟩ : Fin 3) = main_v18 from rfl, fiber_out]; exact hout

open Classical in
/-- The buffers at the region's exit: as the region found them, but the denominators at what the write-backs made of them. -/
def VN (c : Dev nD) : Valuation τ sig (Elt F) :=
  Function.update (V0 m c) (Proc.devRef .tc main_v18) ((dats m 0 c).arrAt 2 cfg0.N)

theorem VN_out (c : Dev nD) : VN m c (Proc.devRef .tc main_v18) = (dats m 0 c).arrAt 2 cfg0.N := by
  unfold VN; exact Function.update_self ..

theorem VN_of_ne (c : Dev nD) (b : Ref sig .tc) (hb : b ≠ main_v18) : VN m c (Proc.devRef .tc b) = V0 m c (Proc.devRef .tc b) := by
  unfold VN; exact Function.update_of_ne (StableHlo.devRef_ne_of_ne hb) ..

theorem VN_rest (c : Dev nD) : ∀ b ∈ Pipeline.restRefs sig spec0, VN m c (Proc.devRef .tc b) = V0 m c (Proc.devRef .tc b) := by
  intro b hb
  refine VN_of_ne m c b fun h => (Finset.mem_sdiff.mp hb).2 ?_
  exact Finset.mem_image.mpr ⟨2, Finset.mem_univ _, h.symm ▸ arrRef_out⟩

/-- At entry the windows' arrays are the region-entry contents of their buffers. -/
theorem deal_entry (c : Dev nD) :
    (Pipeline.arrBufs spec0 c (fun b => V0 m c (Proc.devRef .tc b)) : sProp 𝕄) ⊢ (dats m 0 c).arrays ((dats m 0 c).arrAt · 0) :=
  (arrays_iff m c (fun b => V0 m c (Proc.devRef .tc b)) ((dats m 0 c).arrAt · 0) (A_eq m c 0) (A_eq m c 1) (A_eq m c 2)).1

/-- At the exit: the stacked rows were never written, the denominators are the output window's array after all points. -/
theorem exit_iff (c : Dev nD) :
    (Pipeline.arrBufs spec0 c (fun b => VN m c (Proc.devRef .tc b)) : sProp 𝕄) ⊣⊢ (dats m 0 c).arrays ((dats m 0 c).arrAt · cfg0.N) :=
  arrays_iff m c (fun b => VN m c (Proc.devRef .tc b)) ((dats m 0 c).arrAt · cfg0.N)
    (((dats m 0 c).arrAt_in 0 rfl _).trans ((A_eq m c 0).trans (VN_of_ne m c main_v17 (by decide)).symm))
    (((dats m 0 c).arrAt_in 1 rfl _).trans ((A_eq m c 1).trans (VN_of_ne m c main_v17 (by decide)).symm))
    (VN_out m c).symm

-- the launch theorem's implicit arguments are found by unifying its conclusion with this one
set_option backward.isDefEq.respectTransparency.types false in
/-- THE RUN. Every weakly fair execution of @main terminates without a fault; at the end each window's array is what the
    library computes from the proof data, and every other unscoped buffer is what the host lines after the region
    compute from the exit contents. -/
theorem run_main : θ_run defs (onTc (τ := τ) (main (F := F))) (s₀ m ρ) (SharedPost cfgs (dats m) 0 (VN m) [hostOps1]) :=
  θ_run_frame_around_shared cfgs (dats m) (0 : Fin 1) defs₀ Variants.none cellOf_inj winFacts₀0 block_pos0 arr_whole0 stage_whole0
    m ρ main (hbody := fun c => (body_obligation m c).loose) (howed := fun _ _ => rfl)
    (V₀ := V0 m) (VN := VN m) (opss := [hostOps1]) (hsub := tail_sub) (hfresh := tail_fresh) (hkeep := tail_keeps)
    (hmain := hmain m Variants.none) (hVN := VN_rest m) (hdeal0 := deal_entry m)
    (hjoinN := fun c => (exit_iff m c).2) (hdealN := fun c => (exit_iff m c).1) (hin := hin m) (hout := hout m)

/-- The two argument arrays are no window's array, and no host line writes them: they end as launched. -/
theorem kept_arg0 (c : Dev nD) : StableHlo.after (List.flatten [hostOps1]) (VN m c) (Proc.devRef .tc main_arg0) = m ((c.tc : Thread nD τ).loc main_arg0) := by
  rw [StableHlo.after_of_forall_not_mem _ _ (by
    intro op hop
    simp only [List.flatten_cons, List.flatten_nil, List.append_nil, hostOps1, List.mem_cons, List.mem_nil_iff, or_false] at hop
    rcases hop with rfl | rfl | rfl | rfl | rfl | rfl | rfl | rfl | rfl | rfl | rfl | rfl | rfl | rfl | rfl
    all_goals simp only [StableHlo.nullary_writes, StableHlo.unary_writes, StableHlo.binary_writes, Finset.mem_singleton] <;> exact StableHlo.devRef_ne_of_ne (by decide)),
    VN_of_ne m c main_arg0 (by decide)]
  unfold V0
  rw [StableHlo.after_of_forall_not_mem _ _ (by
    intro op hop
    simp only [List.flatten_cons, List.flatten_nil, List.append_nil, hostOps0, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals simp only [StableHlo.nullary_writes, StableHlo.unary_writes, StableHlo.binary_writes, Finset.mem_singleton] <;> exact StableHlo.devRef_ne_of_ne (by decide))]

theorem kept_arg1 (c : Dev nD) : StableHlo.after (List.flatten [hostOps1]) (VN m c) (Proc.devRef .tc main_arg1) = m ((c.tc : Thread nD τ).loc main_arg1) := by
  rw [StableHlo.after_of_forall_not_mem _ _ (by
    intro op hop
    simp only [List.flatten_cons, List.flatten_nil, List.append_nil, hostOps1, List.mem_cons, List.mem_nil_iff, or_false] at hop
    rcases hop with rfl | rfl | rfl | rfl | rfl | rfl | rfl | rfl | rfl | rfl | rfl | rfl | rfl | rfl | rfl
    all_goals simp only [StableHlo.nullary_writes, StableHlo.unary_writes, StableHlo.binary_writes, Finset.mem_singleton] <;> exact StableHlo.devRef_ne_of_ne (by decide)),
    VN_of_ne m c main_arg1 (by decide)]
  unfold V0
  rw [StableHlo.after_of_forall_not_mem _ _ (by
    intro op hop
    simp only [List.flatten_cons, List.flatten_nil, List.append_nil, hostOps0, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals simp only [StableHlo.nullary_writes, StableHlo.unary_writes, StableHlo.binary_writes, Finset.mem_singleton] <;> exact StableHlo.devRef_ne_of_ne (by decide))]

theorem arg0_rest : main_arg0 ∈ Pipeline.restRefs sig spec0 :=
  Pipeline.mem_restRefs_of main_arg0 rfl (by decide)
theorem arg1_rest : main_arg1 ∈ Pipeline.restRefs sig spec0 :=
  Pipeline.mem_restRefs_of main_arg1 rfl (by decide)
theorem result_rest : main_v29 ∈ Pipeline.restRefs sig spec0 :=
  Pipeline.mem_restRefs_of main_v29 rfl (by decide)

/-- THE FRAME: @main terminates, nothing faults, and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_rest).trans (kept_arg0 m c), ((h c).2 main_arg1 arg1_rest).trans (kept_arg1 m c)⟩) (run_main m ρ)

end Cert.Kernel.Frame

end
-- ==== Proof.FrameIdealShared.lean ====
/-
  The row-denominator kernel's run, point by point: what its three kinds of grid point share.

  The grid is 8 × 8, row block `i₀` outermost. At a point `(i₀, i₁)` the body takes row block `i₀` and column
  block `i₁` of ONE array — the 8192 stacked unit rows, handed to the kernel through both input windows —, and adds
  the row sums of the masked exponentials of their 1024 × 1024 products into a 1024-vector it keeps between points.
  The first point of a row block (`i₁ = 0`) zeroes that vector first; the last (`i₁ = 7`) copies it into the output
  block, which the other points leave alone. Stated here: the arrays as the region finds them (after the host lines
  that normalise and stack the rows), @main as those lines, the region and the lines after it, each input window's
  block at a point, the two branch conditions in closed form over the 64 points, where the output window is idle,
  and the kept vector's place in the region's invariant.
-/
import proofs.«165202_j28097676050918_1_alg».proof.Proof.Gen.KernelIdeal.Launch
import proofs.«165202_j28097676050918_1_alg».proof.Proof.Gen.KernelIdeal.Skeleton
import proofs.«165202_j28097676050918_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch contents after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) (fun c => (main_chain c).trans rfl)

/-- The lines after the region touch TensorCore references only, -/
theorem tail_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write neither the stacked rows nor the denominators: each writes its own result only. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl
  all_goals intro w; fin_cases w <;> simp only [StableHlo.nullary_writes, StableHlo.unary_writes, StableHlo.binary_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window's current staging buffer holds its block at every point, fetched there or not. -/
theorem before_rows_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- So does the column-block window's. -/
theorem before_cols_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first column block": the body's first `if`, from the grid coordinates. -/
abbrev isFirst (i : grid0.Coords) : Prop := (Scalar.cmpi .ne (Scalar.extui (Scalar.cmpi .eq (BitVec.ofNat 32 (i 1).val) 0#32)) 0#32) = 1#1
/-- It holds at the points whose number is a multiple of 8. -/
theorem isFirst_iff : ∀ t : Fin cfg0.N, isFirst (grid0.coords t) ↔ t.val % 8 = 0 :=
  (by decide +kernel : ∀ t : Fin grid0.N, isFirst (grid0.coords t) ↔ t.val % 8 = 0)

/-- "This is the last column block": the body's second `if`. -/
abbrev isLast (i : grid0.Coords) : Prop := k0_cond2 i = 1#1
/-- It holds at the points whose number is 7 modulo 8. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

/-- The two input windows are never idle. -/
theorem live_rows : ∀ t : Fin cfg0.N, cfg0.idle 0 (grid0.coords t) = false := by decide +kernel
theorem live_cols : ∀ t : Fin cfg0.N, cfg0.idle 1 (grid0.coords t) = false := by decide +kernel
/-- Away from the last column block the output window is idle (the body stores nothing into it) and is not written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- At the last column block it is live. -/
theorem live_out : ∀ t : Fin cfg0.N, isLast (grid0.coords t) → cfg0.idle 2 (grid0.coords t) = false := by decide +kernel

/-! ## The staging memrefs at a point, and the kept vector -/

/-- One staging buffer of the output window, through which its contents are stated. -/
abbrev outView : View sig .tc .vmem S1024 .f32 := (Memref.whole cc0_stg2_0 : Memref sig .tc .vmem S1024 .f32).view
/-- Each window's current staging memref at point `t`, as the pipeline passes it, and its wholeness. -/
abbrev msRows (t : Fin cfg0.N) : Memref sig .tc .vmem S1024x128 .bf16 := win0_0.stage (cfg0.slots t 0)
abbrev hsRows (t : Fin cfg0.N) : (msRows t).IsWhole := hstage0_0 ((cfg0.slots t 0).cast nbuf0_0)
abbrev msCols (t : Fin cfg0.N) : Memref sig .tc .vmem S1024x128 .bf16 := win0_1.stage (cfg0.slots t 1)
abbrev hsCols (t : Fin cfg0.N) : (msCols t).IsWhole := hstage0_1 ((cfg0.slots t 1).cast nbuf0_1)
abbrev msOut (t : Fin cfg0.N) : Memref sig .tc .vmem S1024 .f32 := win0_2.stage (cfg0.slots t 2)
abbrev hsOut (t : Fin cfg0.N) : (msOut t).IsWhole := hstage0_2 ((cfg0.slots t 2).cast nbuf0_2)
/-- The kept vector: a whole scoped buffer of the kernel's own, passed beside the windows. -/
abbrev accM : Memref sig .tc .vmem S1024 .f32 := Memref.whole cc0_scratch0
/-- The same as a view: what it holds is stated through it. -/
abbrev accView : View sig .tc .vmem S1024 .f32 := accM.view

/-- The region's class invariant with the kept vector as a memref owned at some contents. -/
theorem classInv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Frame

end
-- ==== Proof.FrameIdealFirst.lean ====
/-
  The body at the first column block of a row block (`i₁ = 0`): it zeroes the kept vector, then adds this block's
  row sums into it; the output block is not touched. On whole staging memrefs — the two input blocks at their
  contents, the output block at anything (handed back as found), the kept vector at anything — the body runs to the
  end with the kept vector written piece by piece: the pieces (last store first) are what the run finds.
-/
import proofs.«165202_j28097676050918_1_alg».proof.Proof.FrameIdealShared

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : isFirst i) (hc2 : ¬isLast i)
    (x0 x1 : Vec F S1024x128 .bf16) :
    { LS : List (View.Piece (Elt F) S1024 .f32) //
      ∀ (xi : Vec F S1024 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨?_, fun xi E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Frame

end
-- ==== Proof.FrameIdealMiddle.lean ====
/-
  The body at a column block that is neither the first nor the last of its row block: it adds this block's row sums
  into the kept vector, which holds what the point before left; the output block is not touched.
-/
import proofs.«165202_j28097676050918_1_alg».proof.Proof.FrameIdealFirst

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

set_option maxHeartbeats 1000000 in
noncomputable def runMiddle (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : ¬isLast i)
    (x0 x1 : Vec F S1024x128 .bf16) (xs : Vec F S1024 .f32) :
    { LS : List (View.Piece (Elt F) S1024 .f32) //
      ∀ (xi : Vec F S1024 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨?_, fun xi E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Frame

end
-- ==== Proof.FrameIdealLast.lean ====
/-
  The body at the last column block of a row block (`i₁ = 7`): it adds this block's row sums into the kept vector,
  which holds what the point before left, and copies the vector into the output block, whatever that held.
-/
import proofs.«165202_j28097676050918_1_alg».proof.Proof.FrameIdealMiddle

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : isLast i)
    (x0 x1 : Vec F S1024x128 .bf16) (xs : Vec F S1024 .f32) :
    Σ' (LO : List (View.Piece (Elt F) S1024 .f32)), { LS : List (View.Piece (Elt F) S1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Frame

end
-- ==== Proof.FrameIdeal.lean ====
/-
  The row-denominator kernel's frame: every weakly fair execution of @main terminates without a fault, the stacked
  rows end as the host lines before the region left them, the denominators end at what the region's write-backs
  made of them, and every other buffer at what the host lines after the region compute from those.

  The kept vector after point `n` is stated by recursion on `n`: at a first column block the body's result over a
  zeroed vector, elsewhere the body's result over what point `n − 1` left. The output block holds the kept vector at
  the last column block of each row block, which is also the only point at which it is written back. Both input
  windows read ONE array, so each holds it at half the share: the launch deals the array's full share in two and the
  exit joins the halves again.
-/
import proofs.«165202_j28097676050918_1_alg».proof.Proof.FrameIdealLast
import proofs.«165202_j28097676050918_1_alg».proof.Proof.LibSharedArrays

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen
open Cert.Lib.SharedArrays

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- A first column block's stores into the kept vector (the zeroing, then the sum) cover it. -/
theorem cover_accFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : isFirst i) (hc2 : ¬isLast i)
    (x0 x1 : Vec F S1024x128 .bf16) (y : S1024.Idx) :
    ∃ pc ∈ (runFirst c i arg2 harg2 arg3 harg3 arg4 harg4 arg5 harg5 hc0 hc2 x0 x1).1, y ∈ pc.1.set :=
  View.cover_of_tiledL (runFirst c i arg2 harg2 arg3 harg3 arg4 harg4 arg5 harg5 hc0 hc2 x0 x1).1 S1024.size (by sl_kernel_rfl) y

/-- What a first column block leaves in the kept vector: its stores read back. -/
def accFirst (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : isFirst i) (hc2 : ¬isLast i)
    (x0 x1 : Vec F S1024x128 .bf16) : Vec F S1024 .f32 :=
  accView.read (Elt F) (accView.writes (Elt F) accView.junk (runFirst c i arg2 harg2 arg3 harg3 arg4 harg4 arg5 harg5 hc0 hc2 x0 x1).1)

theorem cover_accMiddle (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : ¬isLast i)
    (x0 x1 : Vec F S1024x128 .bf16) (xs : Vec F S1024 .f32) (y : S1024.Idx) :
    ∃ pc ∈ (runMiddle c i arg2 harg2 arg3 harg3 arg4 harg4 arg5 harg5 hc0 hc2 x0 x1 xs).1, y ∈ pc.1.set :=
  View.cover_of_tiledL (runMiddle c i arg2 harg2 arg3 harg3 arg4 harg4 arg5 harg5 hc0 hc2 x0 x1 xs).1 S1024.size (by sl_kernel_rfl) y

/-- What a middle column block leaves in the kept vector, over what the point before left (`xs`). -/
def accMiddle (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : ¬isLast i)
    (x0 x1 : Vec F S1024x128 .bf16) (xs : Vec F S1024 .f32) : Vec F S1024 .f32 :=
  accView.read (Elt F) (accView.writes (Elt F) accView.junk (runMiddle c i arg2 harg2 arg3 harg3 arg4 harg4 arg5 harg5 hc0 hc2 x0 x1 xs).1)

theorem cover_accLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : isLast i)
    (x0 x1 : Vec F S1024x128 .bf16) (xs : Vec F S1024 .f32) (y : S1024.Idx) :
    ∃ pc ∈ (runLast c i arg2 harg2 arg3 harg3 arg4 harg4 arg5 harg5 hc0 hc2 x0 x1 xs).2.1, y ∈ pc.1.set :=
  View.cover_of_tiledL (runLast c i arg2 harg2 arg3 harg3 arg4 harg4 arg5 harg5 hc0 hc2 x0 x1 xs).2.1 S1024.size (by sl_kernel_rfl) y

/-- What the last column block leaves in the kept vector. -/
def accLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : isLast i)
    (x0 x1 : Vec F S1024x128 .bf16) (xs : Vec F S1024 .f32) : Vec F S1024 .f32 :=
  accView.read (Elt F) (accView.writes (Elt F) accView.junk (runLast c i arg2 harg2 arg3 harg3 arg4 harg4 arg5 harg5 hc0 hc2 x0 x1 xs).2.1)

theorem cover_outLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : isLast i)
    (x0 x1 : Vec F S1024x128 .bf16) (xs : Vec F S1024 .f32) (y : S1024.Idx) :
    ∃ pc ∈ (runLast c i arg2 harg2 arg3 harg3 arg4 harg4 arg5 harg5 hc0 hc2 x0 x1 xs).1, y ∈ pc.1.set :=
  View.cover_of_tiledL (runLast c i arg2 harg2 arg3 harg3 arg4 harg4 arg5 harg5 hc0 hc2 x0 x1 xs).1 S1024.size (by sl_kernel_rfl) y

/-- What the last column block leaves in the output block. -/
def outLast (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : isLast i)
    (x0 x1 : Vec F S1024x128 .bf16) (xs : Vec F S1024 .f32) : Vec F S1024 .f32 :=
  outView.read (Elt F) (outView.writes (Elt F) outView.junk (runLast c i arg2 harg2 arg3 harg3 arg4 harg4 arg5 harg5 hc0 hc2 x0 x1 xs).1)

/-- The output block's contents at a point that does not store into it: a placeholder nothing consults (there the window
    is idle and is not written back). -/
def outIdle : Vec F S1024 .f32 := outView.read (Elt F) outView.junk

/-! ## Point by point -/

/-- What the output block and the kept vector hold after the body at position `n` (a pair: the output block, then the
    kept vector). -/
def stateAt (c : Dev nD) : (n : ℕ) → n < cfg0.N → Vec F S1024 .f32 × Vec F S1024 .f32
  | 0, hn => (outIdle, accFirst c (grid0.coords ⟨0, hn⟩) (msRows ⟨0, hn⟩) (hsRows ⟨0, hn⟩) (msCols ⟨0, hn⟩) (hsCols ⟨0, hn⟩) (msOut ⟨0, hn⟩) (hsOut ⟨0, hn⟩) accM (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩))
  | n + 1, hn =>
    if h0 : (n + 1) % 8 = 0 then
      (outIdle, accFirst c (grid0.coords ⟨n + 1, hn⟩) (msRows ⟨n + 1, hn⟩) (hsRows ⟨n + 1, hn⟩) (msCols ⟨n + 1, hn⟩) (hsCols ⟨n + 1, hn⟩) (msOut ⟨n + 1, hn⟩) (hsOut ⟨n + 1, hn⟩) accM (Memref.isWhole_whole _) ((isFirst_iff ⟨n + 1, hn⟩).mpr h0) (fun h => (fun h => by (try dsimp only at h); omega) ((isLast_iff ⟨n + 1, hn⟩).mp h)) (iblk m c 0 ⟨n + 1, hn⟩) (iblk m c 1 ⟨n + 1, hn⟩))
    else
      if h2 : (n + 1) % 8 = 7 then
        (outLast c (grid0.coords ⟨n + 1, hn⟩) (msRows ⟨n + 1, hn⟩) (hsRows ⟨n + 1, hn⟩) (msCols ⟨n + 1, hn⟩) (hsCols ⟨n + 1, hn⟩) (msOut ⟨n + 1, hn⟩) (hsOut ⟨n + 1, hn⟩) accM (Memref.isWhole_whole _) (fun h => h0 ((isFirst_iff ⟨n + 1, hn⟩).mp h)) ((isLast_iff ⟨n + 1, hn⟩).mpr h2) (iblk m c 0 ⟨n + 1, hn⟩) (iblk m c 1 ⟨n + 1, hn⟩) (stateAt c n (Nat.lt_of_succ_lt hn)).2,
         accLast c (grid0.coords ⟨n + 1, hn⟩) (msRows ⟨n + 1, hn⟩) (hsRows ⟨n + 1, hn⟩) (msCols ⟨n + 1, hn⟩) (hsCols ⟨n + 1, hn⟩) (msOut ⟨n + 1, hn⟩) (hsOut ⟨n + 1, hn⟩) accM (Memref.isWhole_whole _) (fun h => h0 ((isFirst_iff ⟨n + 1, hn⟩).mp h)) ((isLast_iff ⟨n + 1, hn⟩).mpr h2) (iblk m c 0 ⟨n + 1, hn⟩) (iblk m c 1 ⟨n + 1, hn⟩) (stateAt c n (Nat.lt_of_succ_lt hn)).2)
      else
        (outIdle, accMiddle c (grid0.coords ⟨n + 1, hn⟩) (msRows ⟨n + 1, hn⟩) (hsRows ⟨n + 1, hn⟩) (msCols ⟨n + 1, hn⟩) (hsCols ⟨n + 1, hn⟩) (msOut ⟨n + 1, hn⟩) (hsOut ⟨n + 1, hn⟩) accM (Memref.isWhole_whole _) (fun h => h0 ((isFirst_iff ⟨n + 1, hn⟩).mp h)) (fun h => h2 ((isLast_iff ⟨n + 1, hn⟩).mp h)) (iblk m c 0 ⟨n + 1, hn⟩) (iblk m c 1 ⟨n + 1, hn⟩) (stateAt c n (Nat.lt_of_succ_lt hn)).2)

/-- At a first column block. -/
theorem stateAt_first (c : Dev nD) (t : Fin cfg0.N) (h0 : t.val % 8 = 0) (h2 : ¬t.val % 8 = 7) :
    stateAt m c t.val t.isLt = (outIdle, accFirst c (grid0.coords t) (msRows t) (hsRows t) (msCols t) (hsCols t) (msOut t) (hsOut t) accM (Memref.isWhole_whole _) ((isFirst_iff t).mpr h0) (fun h => h2 ((isLast_iff t).mp h)) (iblk m c 0 t) (iblk m c 1 t)) := by
  obtain ⟨n, hn⟩ := t
  cases n with
  | zero => exact rfl
  | succ n => exact (dif_pos h0).trans rfl

/-- At a middle column block: over what the point before left. -/
theorem stateAt_middle (c : Dev nD) (t : Fin cfg0.N) (h0 : ¬t.val % 8 = 0) (h2 : ¬t.val % 8 = 7) :
    stateAt m c t.val t.isLt = (outIdle, accMiddle c (grid0.coords t) (msRows t) (hsRows t) (msCols t) (hsCols t) (msOut t) (hsOut t) accM (Memref.isWhole_whole _) (fun h => h0 ((isFirst_iff t).mp h)) (fun h => h2 ((isLast_iff t).mp h)) (iblk m c 0 t) (iblk m c 1 t) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h2).trans rfl)

/-- At the last column block: over what the point before left. -/
theorem stateAt_last (c : Dev nD) (t : Fin cfg0.N) (h0 : ¬t.val % 8 = 0) (h2 : t.val % 8 = 7) :
    stateAt m c t.val t.isLt = (outLast c (grid0.coords t) (msRows t) (hsRows t) (msCols t) (hsCols t) (msOut t) (hsOut t) accM (Memref.isWhole_whole _) (fun h => h0 ((isFirst_iff t).mp h)) ((isLast_iff t).mpr h2) (iblk m c 0 t) (iblk m c 1 t) (stateAt m c (t.val - 1) (Nat.lt_of_le_of_lt (Nat.sub_le _ _) t.isLt)).2,
      accLast c (grid0.coords t) (msRows t) (hsRows t) (msCols t) (hsCols t) (msOut t) (hsOut t) accM (Memref.isWhole_whole _) (fun h => h0 ((isFirst_iff t).mp h)) ((isLast_iff t).mpr h2) (iblk m c 0 t) (iblk m c 1 t) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h2).trans rfl)

/-- The region's invariant before position `n`: before the first point the class's (the kept vector at anything);
    afterwards the kept vector at what the point before left, and the generator register at some state. -/
def inv (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) accM fullShare ((stateAt m c n hn).2)) ∗ (∃ r, prngReg c r)) := rfl

theorem inv_pos (c : Dev nD) (n : ℕ) (h : n ≤ cfg0.N) (hz : n ≠ 0) :
    inv m c n h = iprop(iprop(owns (c : Thread nD τ) accM fullShare ((stateAt m c (n - 1) (by omega)).2)) ∗ (∃ r, prngReg c r)) := by
  cases n with
  | zero => exact absurd rfl hz
  | succ n => rfl

/-! ## The proof data -/

/-- The arrays as the region finds them; after the body at point `t` each input block in place and the output block at
    `stateAt`'s first component; the invariant `inv`; nothing owed; the stacked rows held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stateAt m c t.val t.isLt).1
  Φ t := inv m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; simp only [Fin.coe_castSucc]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_out (c : Dev nD) (t : Fin cfg0.N) : (dats m 0 c).after 2 t = (stateAt m c t.val t.isLt).1 := by dsimp only [dats]

theorem before_rows (c : Dev nD) (t : Fin cfg0.N) (d) : (dats m 0 c).before 0 t d = iblk m c 0 t :=
  before_rows_of m (dats m 0 c) (A_eq m c 0) (after_rows m c) t d
theorem before_cols (c : Dev nD) (t : Fin cfg0.N) (d) : (dats m 0 c).before 1 t d = iblk m c 1 t :=
  before_cols_of m (dats m 0 c) (A_eq m c 1) (after_cols m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msRows t) fullShare ((dats m 0 c).before 0 t d))
    ∗ (∃ d, owns (c : Thread nD τ) (msCols t) fullShare ((dats m 0 c).before 1 t d))
    ∗ (∃ d, owns (c : Thread nD τ) (msOut t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the input memrefs hold their blocks; the closed forms say which kind of point it is; the
    invariant hands the body the kept vector at what the point before left (at anything before the first point) and
    takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols]
  rw [show (dats m 0 c).owesAt () t.succ = (dats m 0 c).owesAt () t.castSucc from rfl]
  rw [show (dats m 0 c).Φ t.succ = inv m c (t.val + 1) t.isLt from rfl, inv_succ]
  have hN : t.val < 64 := lt_of_lt_of_eq t.isLt (show cfg0.N = 64 from N_0)
  rw [show (dats m 0 c).leavesExact 0 t = owns (c : Thread nD τ) (msRows t) fullShare ((dats m 0 c).after 0 t) from by
      unfold Dat.leavesExact; rw [live_rows t], after_rows]
  rw [show (dats m 0 c).leavesExact 1 t = owns (c : Thread nD τ) (msCols t) fullShare ((dats m 0 c).after 1 t) from by
      unfold Dat.leavesExact; rw [live_cols t], after_cols]
  by_cases h0 : t.val % 8 = 0
  · have h2 : ¬t.val % 8 = 7 := by omega
    rw [Dat.leavesExact_idle (dats m 0 c) 2 t (idle_out t (fun h => h2 ((isLast_iff t).mp h))) (noFlush_out t (fun h => h2 ((isLast_iff t).mp h)))]
    rw [stateAt_first m c t h0 h2]
    unfold accFirst; (try dsimp only)
    by_cases hz : t.val = 0
    · rw [inv_castSucc m c t, inv_zero m c _ _ hz, classInv_eq]
      iintro ⟨⟨HS, Hg⟩, Ho, ⟨%d0, H0⟩, ⟨%d1, H1⟩, ⟨%d2, H2⟩⟩
      iapply ((runFirst c (grid0.coords t) _ _ _ _ _ _ _ _ ((isFirst_iff t).mpr h0) (fun h => h2 ((isLast_iff t).mp h)) (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (cover_accFirst c _ _ _ _ _ _ _ _ _ _ _ _ _)
        iexact Hg
      isplitl [Ho]; · iexact Ho
      isplitl [H0]; · iexact H0
      isplitl [H1]; · iexact H1
      iexists _; iexact H2
    · rw [inv_castSucc m c t, inv_pos m c _ _ hz]
      iintro ⟨⟨HS, Hg⟩, Ho, ⟨%d0, H0⟩, ⟨%d1, H1⟩, ⟨%d2, H2⟩⟩
      iapply ((runFirst c (grid0.coords t) _ _ _ _ _ _ _ _ ((isFirst_iff t).mpr h0) (fun h => h2 ((isLast_iff t).mp h)) (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (cover_accFirst c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h2 : t.val % 8 = 7
    · rw [show (dats m 0 c).leavesExact 2 t = owns (c : Thread nD τ) (msOut t) fullShare ((dats m 0 c).after 2 t) from by
          unfold Dat.leavesExact; rw [live_out t ((isLast_iff t).mpr h2)], after_out]
      rw [stateAt_last m c t h0 h2]
      unfold outLast accLast; (try dsimp only)
      rw [inv_castSucc m c t, inv_pos m c _ _ hz]
      iintro ⟨⟨HS, Hg⟩, Ho, ⟨%d0, H0⟩, ⟨%d1, H1⟩, ⟨%d2, H2⟩⟩
      iapply ((runLast c (grid0.coords t) _ _ _ _ _ _ _ _ (fun h => h0 ((isFirst_iff t).mp h)) ((isLast_iff t).mpr h2) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (cover_accLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover_outLast c _ _ _ _ _ _ _ _ _ _ _ _ _ _)
    · rw [Dat.leavesExact_idle (dats m 0 c) 2 t (idle_out t (fun h => h2 ((isLast_iff t).mp h))) (noFlush_out t (fun h => h2 ((isLast_iff t).mp h)))]
      rw [stateAt_middle m c t h0 h2]
      unfold accMiddle; (try dsimp only)
      rw [inv_castSucc m c t, inv_pos m c _ _ hz]
      iintro ⟨⟨HS, Hg⟩, Ho, ⟨%d0, H0⟩, ⟨%d1, H1⟩, ⟨%d2, H2⟩⟩
      iapply ((runMiddle c (grid0.coords t) _ _ _ _ _ _ _ _ (fun h => h0 ((isFirst_iff t).mp h)) (fun h => h2 ((isLast_iff t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (cover_accMiddle c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the class's back: what the kept vector holds is forgotten. -/
theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 64 := N_0; omega), classInv_eq]
  iintro ⟨HS, Hg⟩
  isplitl [HS]
  · iexists _; iexact HS
  iexact Hg

end Cert.KernelIdeal.Frame

end
-- ==== Proof.FrameIdealRun.lean ====
/-
  The row-denominator kernel's launch and run. Both input windows read the stacked rows, so the launch deals that
  array's full share in two halves, one per window, and the exit joins them; the denominators are the output
  window's alone. At the exit every buffer is as the region found it, but the denominators, which hold what the
  write-backs made of them; the host lines after the region run from there.
-/
import proofs.«165202_j28097676050918_1_alg».proof.Proof.FrameIdeal

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen
open Cert.Lib.SharedArrays

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Which buffer each window's array is. -/
theorem arrRef_rows : Pipeline.arrRef spec0 0 = main_v17 := rfl
theorem arrRef_cols : Pipeline.arrRef spec0 1 = main_v17 := rfl
theorem arrRef_out : Pipeline.arrRef spec0 2 = main_v18 := rfl

/-- The windows on the stacked rows are the two input windows; the window on the denominators is the output window. -/
theorem fiber_rows : (Finset.univ.filter fun w : Fin 3 => Pipeline.arrRef spec0 w = main_v17) = {0, 1} := by decide
theorem fiber_out : (Finset.univ.filter fun w : Fin 3 => Pipeline.arrRef spec0 w = main_v18) = {2} := by decide

/-- DEALING AND JOINING. For contents `G` of the buffers and `Fw` of the windows' arrays that agree, the two distinct
    buffers whole at the full share are the three windows' holdings: the stacked rows at the left half for the row-block
    window and at the right half for the column-block window, the denominators at the full share. -/
theorem arrays_iff (c : Dev nD) (G : (b : Ref sig .tc) → Buf (Elt F) ((c.tc : Thread nD τ).loc b))
    (Fw : (w : Fin cfg0.W) → Buf (Elt F) ((cfg0.win w).arr.view.loc (c.tc : Thread nD τ)))
    (h0 : Fw 0 = G main_v17) (h1 : Fw 1 = G main_v17) (h2 : Fw 2 = G main_v18) :
    (Pipeline.arrBufs spec0 c G : sProp 𝕄) ⊣⊢ (dats m 0 c).arrays Fw := by
  unfold Dat.arrays
  refine arrBufs_iff spec0 c G _ fun b hb => ?_
  obtain ⟨w, -, rfl⟩ := Finset.mem_image.mp hb
  have hrows : ((((c.tc : Thread nD τ).loc main_v17) ↦{fullShare} G main_v17 : sProp 𝕄))
      ⊣⊢ bigSep ({0, 1} : Finset (Fin 3)) fun w : Fin cfg0.W =>
        (cfg0.win w).arr.view.loc (c.tc : Thread nD τ) ↦[(cfg0.win w).arr.view.set]{(dats m 0 c).share w} Fw w := by
    rw [bigSep_insert (by decide), bigSep_singleton, (arr_whole0 0).set_eq_univ, h0, h1,
      show (dats m 0 c).share 0 = fullShare.left from rfl, show (dats m 0 c).share 1 = fullShare.right from rfl]
    exact pointsTo_share (PosShare.mem_left_op_right fullShare)
  have hout : ((((c.tc : Thread nD τ).loc main_v18) ↦{fullShare} G main_v18 : sProp 𝕄))
      ⊣⊢ bigSep ({2} : Finset (Fin 3)) fun w : Fin cfg0.W =>
        (cfg0.win w).arr.view.loc (c.tc : Thread nD τ) ↦[(cfg0.win w).arr.view.set]{(dats m 0 c).share w} Fw w := by
    rw [bigSep_singleton, (arr_whole0 2).set_eq_univ, h2]
    exact ⟨.rfl, .rfl⟩
  fin_cases w
  · rw [show Pipeline.arrRef spec0 ((fun i => i) ⟨0, by decide⟩ : Fin 3) = main_v17 from rfl, fiber_rows]; exact hrows
  · rw [show Pipeline.arrRef spec0 ((fun i => i) ⟨1, by decide⟩ : Fin 3) = main_v17 from rfl, fiber_rows]; exact hrows
  · rw [show Pipeline.arrRef spec0 ((fun i => i) ⟨2, by decide⟩ : Fin 3) = main_v18 from rfl, fiber_out]; exact hout

open Classical in
/-- The buffers at the region's exit: as the region found them, but the denominators at what the write-backs made of them. -/
def VN (c : Dev nD) : Valuation τ sig (Elt F) :=
  Function.update (V0 m c) (Proc.devRef .tc main_v18) ((dats m 0 c).arrAt 2 cfg0.N)

theorem VN_out (c : Dev nD) : VN m c (Proc.devRef .tc main_v18) = (dats m 0 c).arrAt 2 cfg0.N := by
  unfold VN; exact Function.update_self ..

theorem VN_of_ne (c : Dev nD) (b : Ref sig .tc) (hb : b ≠ main_v18) : VN m c (Proc.devRef .tc b) = V0 m c (Proc.devRef .tc b) := by
  unfold VN; exact Function.update_of_ne (StableHlo.devRef_ne_of_ne hb) ..

theorem VN_rest (c : Dev nD) : ∀ b ∈ Pipeline.restRefs sig spec0, VN m c (Proc.devRef .tc b) = V0 m c (Proc.devRef .tc b) := by
  intro b hb
  refine VN_of_ne m c b fun h => (Finset.mem_sdiff.mp hb).2 ?_
  exact Finset.mem_image.mpr ⟨2, Finset.mem_univ _, h.symm ▸ arrRef_out⟩

/-- At entry the windows' arrays are the region-entry contents of their buffers. -/
theorem deal_entry (c : Dev nD) :
    (Pipeline.arrBufs spec0 c (fun b => V0 m c (Proc.devRef .tc b)) : sProp 𝕄) ⊢ (dats m 0 c).arrays ((dats m 0 c).arrAt · 0) :=
  (arrays_iff m c (fun b => V0 m c (Proc.devRef .tc b)) ((dats m 0 c).arrAt · 0) (A_eq m c 0) (A_eq m c 1) (A_eq m c 2)).1

/-- At the exit: the stacked rows were never written, the denominators are the output window's array after all points. -/
theorem exit_iff (c : Dev nD) :
    (Pipeline.arrBufs spec0 c (fun b => VN m c (Proc.devRef .tc b)) : sProp 𝕄) ⊣⊢ (dats m 0 c).arrays ((dats m 0 c).arrAt · cfg0.N) :=
  arrays_iff m c (fun b => VN m c (Proc.devRef .tc b)) ((dats m 0 c).arrAt · cfg0.N)
    (((dats m 0 c).arrAt_in 0 rfl _).trans ((A_eq m c 0).trans (VN_of_ne m c main_v17 (by decide)).symm))
    (((dats m 0 c).arrAt_in 1 rfl _).trans ((A_eq m c 1).trans (VN_of_ne m c main_v17 (by decide)).symm))
    (VN_out m c).symm

-- the launch theorem's implicit arguments are found by unifying its conclusion with this one
set_option backward.isDefEq.respectTransparency.types false in
/-- THE RUN. Every weakly fair execution of @main terminates without a fault; at the end each window's array is what the
    library computes from the proof data, and every other unscoped buffer is what the host lines after the region
    compute from the exit contents. -/
theorem run_main : θ_run defs (onTc (τ := τ) (main (F := F))) (s₀ m ρ) (SharedPost cfgs (dats m) 0 (VN m) [hostOps1]) :=
  θ_run_frame_around_shared cfgs (dats m) (0 : Fin 1) defs₀ Variants.none cellOf_inj winFacts₀0 block_pos0 arr_whole0 stage_whole0
    m ρ main (hbody := fun c => (body_obligation m c).loose) (howed := fun _ _ => rfl)
    (V₀ := V0 m) (VN := VN m) (opss := [hostOps1]) (hsub := tail_sub) (hfresh := tail_fresh) (hkeep := tail_keeps)
    (hmain := hmain m Variants.none) (hVN := VN_rest m) (hdeal0 := deal_entry m)
    (hjoinN := fun c => (exit_iff m c).2) (hdealN := fun c => (exit_iff m c).1) (hin := hin m) (hout := hout m)

/-- The two argument arrays are no window's array, and no host line writes them: they end as launched. -/
theorem kept_arg0 (c : Dev nD) : StableHlo.after (List.flatten [hostOps1]) (VN m c) (Proc.devRef .tc main_arg0) = m ((c.tc : Thread nD τ).loc main_arg0) := by
  rw [StableHlo.after_of_forall_not_mem _ _ (by
    intro op hop
    simp only [List.flatten_cons, List.flatten_nil, List.append_nil, hostOps1, List.mem_cons, List.mem_nil_iff, or_false] at hop
    rcases hop with rfl | rfl | rfl | rfl | rfl | rfl | rfl | rfl | rfl | rfl | rfl | rfl | rfl | rfl | rfl
    all_goals simp only [StableHlo.nullary_writes, StableHlo.unary_writes, StableHlo.binary_writes, Finset.mem_singleton] <;> exact StableHlo.devRef_ne_of_ne (by decide)),
    VN_of_ne m c main_arg0 (by decide)]
  unfold V0
  rw [StableHlo.after_of_forall_not_mem _ _ (by
    intro op hop
    simp only [List.flatten_cons, List.flatten_nil, List.append_nil, hostOps0, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals simp only [StableHlo.nullary_writes, StableHlo.unary_writes, StableHlo.binary_writes, Finset.mem_singleton] <;> exact StableHlo.devRef_ne_of_ne (by decide))]

theorem kept_arg1 (c : Dev nD) : StableHlo.after (List.flatten [hostOps1]) (VN m c) (Proc.devRef .tc main_arg1) = m ((c.tc : Thread nD τ).loc main_arg1) := by
  rw [StableHlo.after_of_forall_not_mem _ _ (by
    intro op hop
    simp only [List.flatten_cons, List.flatten_nil, List.append_nil, hostOps1, List.mem_cons, List.mem_nil_iff, or_false] at hop
    rcases hop with rfl | rfl | rfl | rfl | rfl | rfl | rfl | rfl | rfl | rfl | rfl | rfl | rfl | rfl | rfl
    all_goals simp only [StableHlo.nullary_writes, StableHlo.unary_writes, StableHlo.binary_writes, Finset.mem_singleton] <;> exact StableHlo.devRef_ne_of_ne (by decide)),
    VN_of_ne m c main_arg1 (by decide)]
  unfold V0
  rw [StableHlo.after_of_forall_not_mem _ _ (by
    intro op hop
    simp only [List.flatten_cons, List.flatten_nil, List.append_nil, hostOps0, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals simp only [StableHlo.nullary_writes, StableHlo.unary_writes, StableHlo.binary_writes, Finset.mem_singleton] <;> exact StableHlo.devRef_ne_of_ne (by decide))]

theorem arg0_rest : main_arg0 ∈ Pipeline.restRefs sig spec0 :=
  Pipeline.mem_restRefs_of main_arg0 rfl (by decide)
theorem arg1_rest : main_arg1 ∈ Pipeline.restRefs sig spec0 :=
  Pipeline.mem_restRefs_of main_arg1 rfl (by decide)
theorem result_rest : main_v29 ∈ Pipeline.restRefs sig spec0 :=
  Pipeline.mem_restRefs_of main_v29 rfl (by decide)

/-- THE FRAME: @main terminates, nothing faults, and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_rest).trans (kept_arg0 m c), ((h c).2 main_arg1 arg1_rest).trans (kept_arg1 m c)⟩) (run_main m ρ)

end Cert.KernelIdeal.Frame

end
-- ==== Proof.FrameIdealPieces.lean ====
/-
  What each kind of grid point leaves, as the body's own arithmetic: the kept vector after a point is the
  accumulation step `k0_pay2` of the point's two input blocks over what the vector held — the zero vector `k0_pay1` at a
  first column block, which stores it and reads it back —, and the output block after a last column block is that same
  vector, copied.
-/
import proofs.«165202_j28097676050918_1_alg».proof.Proof.FrameIdeal
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- A middle column block: the step over what the point before left. -/
theorem accMiddle_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : ¬isLast i)
    (x0 x1 : Vec F S1024x128 .bf16) (xs : Vec F S1024 .f32) :
    accMiddle c i arg2 harg2 arg3 harg3 arg4 harg4 arg5 harg5 hc0 hc2 x0 x1 xs = k0_pay2 i x0 x1 xs := by
  unfold accMiddle
  rw [View.read_writes_eq_canon _ _ _ (cover_accMiddle c i arg2 harg2 arg3 harg3 arg4 harg4 arg5 harg5 hc0 hc2 x0 x1 xs)]
  unfold runMiddle
  dsimp only
  rw [View.canon_unit_zero hz1]
  simp only [View.readAt_eq_ld, harg2.read_unread, harg3.read_unread, harg5.read_unread, View.ld_unit_zero (S := S1024x128) hz2, View.ld_unit_zero (S := S1024) hz1]

/-- A first column block: the step over the zero vector. -/
theorem accFirst_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : isFirst i) (hc2 : ¬isLast i)
    (x0 x1 : Vec F S1024x128 .bf16) :
    accFirst c i arg2 harg2 arg3 harg3 arg4 harg4 arg5 harg5 hc0 hc2 x0 x1 = k0_pay2 i x0 x1 (k0_pay1 (F := F)) := by
  unfold accFirst
  rw [View.read_writes_eq_canon _ _ _ (cover_accFirst c i arg2 harg2 arg3 harg3 arg4 harg4 arg5 harg5 hc0 hc2 x0 x1)]
  unfold runFirst
  dsimp only
  sl_unfold_words
  rw [View.canon_cons_unit_zero (S := S1024) hz1, View.readCov_unit_zero (S := S1024) _ hz1]
  simp only [View.readAt_eq_ld, harg2.read_unread, harg3.read_unread, View.ld_unit_zero (S := S1024x128) hz2, View.ld_unit_zero (S := S1024) hz1]

/-- The last column block leaves the step in the kept vector -/
theorem accLast_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : isLast i)
    (x0 x1 : Vec F S1024x128 .bf16) (xs : Vec F S1024 .f32) :
    accLast c i arg2 harg2 arg3 harg3 arg4 harg4 arg5 harg5 hc0 hc2 x0 x1 xs = k0_pay2 i x0 x1 xs := by
  unfold accLast
  rw [View.read_writes_eq_canon _ _ _ (cover_accLast c i arg2 harg2 arg3 harg3 arg4 harg4 arg5 harg5 hc0 hc2 x0 x1 xs)]
  unfold runLast
  dsimp only
  sl_unfold_words
  rw [View.canon_unit_zero hz1]
  simp only [View.readAt_eq_ld, harg2.read_unread, harg3.read_unread, harg5.read_unread, View.ld_unit_zero (S := S1024x128) hz2, View.ld_unit_zero (S := S1024) hz1]

/-- and the same vector in the output block. -/
theorem outLast_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024 .f32) (harg5 : arg5.IsWhole) (hc0 : ¬isFirst i) (hc2 : isLast i)
    (x0 x1 : Vec F S1024x128 .bf16) (xs : Vec F S1024 .f32) :
    outLast c i arg2 harg2 arg3 harg3 arg4 harg4 arg5 harg5 hc0 hc2 x0 x1 xs = k0_pay2 i x0 x1 xs := by
  unfold outLast
  rw [View.read_writes_eq_canon _ _ _ (cover_outLast c i arg2 harg2 arg3 harg3 arg4 harg4 arg5 harg5 hc0 hc2 x0 x1 xs)]
  unfold runLast
  dsimp only
  sl_unfold_words
  rw [View.canon_unit_zero hz1, View.readCov_unit_zero (S := S1024) _ hz1]
  simp only [View.readAt_eq_ld, harg2.read_unread, harg3.read_unread, harg5.read_unread, View.ld_unit_zero (S := S1024x128) hz2, View.ld_unit_zero (S := S1024) hz1]

end Cert.KernelIdeal.Frame

end
-- ==== Proof.Contrastive.lean ====
/-
  The normalised-temperature cross-entropy loss of two batches of embeddings, as one function of the two
  argument arrays over the extended reals.

  Each of the 4096 rows of `a` and of `b` is divided by its Euclidean length, floored at a small positive
  constant: 8192 unit rows, those of `a` first. For a row `r` the denominator is the sum, over every OTHER
  row `c`, of `exp (2 · ⟨row r, row c⟩)`; the numerator is `exp (2 · ⟨a-row n, b-row n⟩)` for the pair `n` the
  row belongs to (`n = r mod 4096`); the loss is the mean over the rows of `- log (numerator / denominator)`.
-/
import Mathlib.Algebra.BigOperators.Fin
import Idealize.ShloMosaic.PureOps.Ideal
import Idealize.ShloMosaic.Lib.ValueIdx

noncomputable section

namespace Cert.Contrastive

open Idealize.ShloMosaic Idealize.ShloMosaic.ValueIdx

/-- The two argument arrays' shape, the stacked rows' shape, and a vector over the stacked rows. -/
abbrev E4096x128 : Shape := ⟨2, ![4096, 128]⟩
abbrev E8192x128 : Shape := ⟨2, ![8192, 128]⟩
abbrev E8192 : Shape := ⟨1, ![8192]⟩
abbrev E0 : Shape := ⟨0, ![]⟩

/-- The floor under a row's length: the binary32 number nearest 1e-12. -/
def lenFloor : EReal := Ideal.ofBits .f32 0x2B8CBCCC#32
/-- The inverse temperature, 2. -/
def invTemp : EReal := Ideal.ofBits .f32 0x40000000#32
/-- The number of stacked rows, 8192, as a float. -/
def rowCount : EReal := Ideal.ofBits .f32 0x46000000#32

/-- Row `r` of an array of 4096 rows. -/
def rowOf (x : E4096x128.Idx → EReal) (r : Fin 4096) : Fin 128 → EReal := fun k => x (ix2 r k)

/-- A row divided by its floored Euclidean length `max (√(∑ x²)) floor`. -/
def unitRow (x : Fin 128 → EReal) : Fin 128 → EReal := fun k =>
  Ideal.div (x k) (max (Ideal.sqrt (∑ j, x j * x j)) lenFloor)

/-- The scalar product of two rows. -/
def dotRows (u v : Fin 128 → EReal) : EReal := ∑ k, u k * v k

/-- The 8192 unit rows: those of `a`, then those of `b`. -/
def rep (a b : E4096x128.Idx → EReal) (r : Fin 8192) : Fin 128 → EReal :=
  if h : r.val < 4096 then unitRow (rowOf a ⟨r.val, h⟩) else unitRow (rowOf b ⟨r.val - 4096, by omega⟩)

/-- One term of a row's denominator: nothing for the row itself, `exp (2 · ⟨row r, row c⟩)` for another row. -/
def term (a b : E4096x128.Idx → EReal) (r c : Fin 8192) : EReal :=
  if r = c then 0 else Ideal.exp (dotRows (rep a b r) (rep a b c) * invTemp)

/-- Row `r`'s denominator: the sum of its terms over all rows. -/
def denom (a b : E4096x128.Idx → EReal) (r : Fin 8192) : EReal := ∑ c : Fin 8192, term a b r c

/-- Pair `n`'s numerator `exp (2 · ⟨a-row n, b-row n⟩)`. -/
def pairNumer (a b : E4096x128.Idx → EReal) (n : Fin 4096) : EReal :=
  Ideal.exp (dotRows (unitRow (rowOf a n)) (unitRow (rowOf b n)) * invTemp)

/-- Row `r`'s numerator: that of its pair `r mod 4096`. -/
def numer (a b : E4096x128.Idx → EReal) (r : Fin 8192) : EReal :=
  pairNumer a b ⟨r.val % 4096, Nat.mod_lt _ (by norm_num)⟩

/-- The mean over the rows of `- log (numerator / denominator)`, for any numerators and denominators. -/
def meanNegLog (num den : Fin 8192 → EReal) : EReal :=
  Ideal.div (∑ r : Fin 8192, -(Ideal.log (Ideal.div (num r) (den r)))) rowCount

/-- The loss. -/
def loss (a b : E4096x128.Idx → EReal) : EReal := meanNegLog (numer a b) (denom a b)

end Cert.Contrastive

end
-- ==== Proof.KerWord.lean ====
/-
  Two 32-bit words built as  block · 1024 + offset  from a block number below 8 and an offset below 1024
  are equal exactly when the natural numbers  block · 1024 + offset  are equal: both sums stay far below
  2^32, so nothing wraps. From it, the one-bit comparison of two such words, and a select on that bit.
-/
import Idealize.ShloMosaic.PureOps.Ideal
import Idealize.ShloMosaic.Lib.ValueIdx

namespace Cert.KerValue

open Idealize.ShloMosaic Idealize.ShloMosaic.ValueIdx

/-- The word  a · 1024 + b  (wrapping arithmetic on 32 bits) denotes the natural number  a · 1024 + b
    when  a < 8  and  b < 1024. -/
theorem word_toNat (a b : Nat) (ha : a < 8) (hb : b < 1024) :
    (IntOp.addi (Scalar.muli (BitVec.ofNat 32 a) 1024#32) (BitVec.ofNat 32 b)).toNat = a * 1024 + b := by
  show (BitVec.ofNat 32 a * 1024#32 + BitVec.ofNat 32 b).toNat = a * 1024 + b
  simp only [BitVec.toNat_add, BitVec.toNat_mul, BitVec.toNat_ofNat]
  omega

/-- Two such words are equal exactly when the numbers they denote are. -/
theorem word_eq_iff (i0 i1 p q : Nat) (h0 : i0 < 8) (h1 : i1 < 8) (hp : p < 1024) (hq : q < 1024) :
    IntOp.addi (Scalar.muli (BitVec.ofNat 32 i0) 1024#32) (BitVec.ofNat 32 p)
        = IntOp.addi (Scalar.muli (BitVec.ofNat 32 i1) 1024#32) (BitVec.ofNat 32 q)
      ↔ i0 * 1024 + p = i1 * 1024 + q := by
  constructor
  · intro h
    have := congrArg BitVec.toNat h
    rwa [word_toNat _ _ h0 hp, word_toNat _ _ h1 hq] at this
  · intro h
    apply BitVec.eq_of_toNat_eq
    rw [word_toNat _ _ h0 hp, word_toNat _ _ h1 hq]
    exact h

/-- A select on the equality bit of two such words is the `if` on the equality of the numbers. -/
theorem select_word_eq {α : Type} (i0 i1 p q : Nat) (h0 : i0 < 8) (h1 : i1 < 8) (hp : p < 1024) (hq : q < 1024) (x y : α) :
    Scalar.select (IntOp.cmpi .eq (IntOp.addi (Scalar.muli (BitVec.ofNat 32 i0) 1024#32) (BitVec.ofNat 32 p))
        (IntOp.addi (Scalar.muli (BitVec.ofNat 32 i1) 1024#32) (BitVec.ofNat 32 q))) x y
      = if i0 * 1024 + p = i1 * 1024 + q then x else y := by
  by_cases h : i0 * 1024 + p = i1 * 1024 + q
  · rw [if_pos h, (word_eq_iff i0 i1 p q h0 h1 hp hq).mpr h]
    show Scalar.select (BitVec.ofBool (_ == _)) x y = x
    rw [beq_self_eq_true]
    exact select_one x y
  · rw [if_neg h]
    have hne := mt (word_eq_iff i0 i1 p q h0 h1 hp hq).mp h
    show Scalar.select (BitVec.ofBool (_ == _)) x y = y
    rw [beq_eq_false_iff_ne.mpr hne]
    exact select_zero x y

end Cert.KerValue
-- ==== Proof.KerGram.lean ====
/-
  One entry of the product of a block of rows with the transpose of another block of rows.

  For two blocks `x`, `y` of 1024 rows of length 128, the matrix product of `x` with the transpose of `y`,
  accumulated into an all-zero 1024 × 1024 array, has at entry (p, q) the scalar product of row p of `x`
  with row q of `y`:  ∑ k, x[p, k] · y[q, k].  Over the extended reals the accumulator adds nothing, the
  contraction runs over one axis of length 128, and the transpose only swaps the two coordinates.
-/
import proofs.«165202_j28097676050918_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KerValue

open Cert.KernelIdeal Cert.KernelIdeal.Gen Idealize.ShloMosaic Idealize.ShloMosaic.ValueIdx

/-- The product's dimension numbers: one contracted axis, the second of the left operand and the first of the right. -/
abbrev gramDims : DotDims S1024x128 S128x1024 S1024x1024 := dot_S1024x128_S128x1024_S1024x1024_1_0_0_1_n_n

/-- The left operand is read in the row of the result's row … -/
theorem gram_lhs_row (j : S1024x1024.Idx) (c : gramDims.contr.Idx) : (gramDims.lhsIdx j c 0).val = (j 0).val := by
  unfold DotDims.lhsIdx
  rw [dif_neg (show ¬(0 : Fin S1024x128.rank) ∈ gramDims.lhsBatch by decide),
    dif_pos (show (0 : Fin S1024x128.rank) ∈ gramDims.lhsNonContracting by decide)]
  rfl
/-- … at the contracted position; -/
theorem gram_lhs_col (j : S1024x1024.Idx) (c : gramDims.contr.Idx) : (gramDims.lhsIdx j c 1).val = (c ⟨0, by decide⟩).val :=
  gramDims.lhsIdx_val_of_single rfl j c
/-- the right operand at the contracted position … -/
theorem gram_rhs_row (j : S1024x1024.Idx) (c : gramDims.contr.Idx) : (gramDims.rhsIdx j c 0).val = (c ⟨0, by decide⟩).val :=
  gramDims.rhsIdx_val_of_single rfl j c
/-- … in the column of the result's column. -/
theorem gram_rhs_col (j : S1024x1024.Idx) (c : gramDims.contr.Idx) : (gramDims.rhsIdx j c 1).val = (j 1).val := by
  unfold DotDims.rhsIdx
  rw [dif_neg (show ¬(1 : Fin S128x1024.rank) ∈ gramDims.rhsBatch by decide),
    dif_pos (show (1 : Fin S128x1024.rank) ∈ gramDims.rhsNonContracting by decide)]
  rfl

/-- Entry (p, q) of  x · yᵀ  into a zero accumulator: the scalar product of row p of `x` and row q of `y`. -/
theorem gram_apply (x y : FVec Ideal S1024x128 .bf16) (p q : Fin 1024) :
    matmul gramDims none x (transpose S128x1024 [1, 0] y Facts₀.transposes_S1024x128_p1_0_S128x1024)
        (constant (F := Ideal) S1024x1024 .f32 0x00000000#32) (ix2 p q)
      = ∑ k : Fin 128, x (ix2 p k) * y (ix2 q k) := by
  show FloatOps.matmul gramDims none x _ (constant (F := Ideal) S1024x1024 .f32 0x00000000#32) (ix2 p q) = _
  rw [Ideal.matmul_constant_zero_apply, ← Equiv.sum_comp (contrEquiv1 gramDims 128 rfl rfl).symm]
  refine Finset.sum_congr rfl fun k _ => ?_
  have hk := contrEquiv1_symm_val gramDims 128 rfl rfl k
  have el : gramDims.lhsIdx (ix2 p q) ((contrEquiv1 gramDims 128 rfl rfl).symm k) = ix2 p k :=
    funext fun a => Fin.ext (by
      match a with
      | ⟨0, _⟩ => exact gram_lhs_row _ _
      | ⟨1, _⟩ => exact (gram_lhs_col _ _).trans hk)
  have er : gramDims.rhsIdx (ix2 p q) ((contrEquiv1 gramDims 128 rfl rfl).symm k) = ix2 k q :=
    funext fun a => Fin.ext (by
      match a with
      | ⟨0, _⟩ => exact (gram_rhs_row _ _).trans hk
      | ⟨1, _⟩ => exact gram_rhs_col _ _)
  rw [el, er]
  exact congrArg (x (ix2 p k) * ·) (transpose_apply [1, 0] y Facts₀.transposes_S1024x128_p1_0_S128x1024 (ix2 k q) (ix2 q k)
    (fun b => match b with
      | ⟨0, _⟩ => rfl
      | ⟨1, _⟩ => rfl))

end Cert.KerValue

end
-- ==== Proof.KerStep.lean ====
/-
  One accumulation step of the denominators, read at a row.

  At grid point (i₀, i₁) the body holds the row block i₀ (`rows`, 1024 unit rows) and the column block i₁
  (`cols`, 1024 unit rows) and the running sums `acc` of the 1024 rows of block i₀. It stores, for the row p of
  the block,

      acc[p] + ∑ q < 1024, (0 if  i₀·1024 + p = i₁·1024 + q  else  exp (⟨rows p, cols q⟩ · 2)) :

  the products of the row with every row of the column block, doubled, exponentiated, the row's own column left
  out (the two global row numbers are compared as 32-bit words, which here are the numbers themselves), summed
  along the 1024 columns and added to the running sum. At the first column block the running sums are first
  reset: the value stored then is 0 in every row.
-/
import proofs.«165202_j28097676050918_1_alg».proof.Proof.Gen.KernelIdeal.Skeleton
import proofs.«165202_j28097676050918_1_alg».proof.Proof.Contrastive
import proofs.«165202_j28097676050918_1_alg».proof.Proof.KerWord
import proofs.«165202_j28097676050918_1_alg».proof.Proof.KerGram

noncomputable section

namespace Cert.KerValue

open Cert.KernelIdeal Cert.KernelIdeal.Gen Idealize.ShloMosaic Idealize.ShloMosaic.ValueIdx

/-- Choosing by "global row number = global column number" between two 1024 × 1024 arrays, at entry (p, q) of the
    tile (i₀, i₁): the first array's entry when  i₀·1024 + p = i₁·1024 + q,  else the second's. -/
theorem diag_select_apply {α : Type} (i : grid0.Coords) (a b : S1024x1024.Idx → α) (p q : Fin 1024) :
    select (cmpi .eq
        (addi (broadcast S1024x1024 (Scalar.muli (BitVec.ofNat 32 (i 0).val) 1024#32))
          (iota .tc S1024x1024 32 [0] Facts₀.iota_S1024x1024_d0_w32))
        (addi (broadcast S1024x1024 (Scalar.muli (BitVec.ofNat 32 (i 1).val) 1024#32))
          (iota .tc S1024x1024 32 [1] Facts₀.iota_S1024x1024_d1_w32))) a b (ix2 p q)
      = if (i 0).val * 1024 + p.val = (i 1).val * 1024 + q.val then a (ix2 p q) else b (ix2 p q) := by
  show Scalar.select (IntOp.cmpi .eq
      (IntOp.addi (Scalar.muli (BitVec.ofNat 32 (i 0).val) 1024#32) (iota .tc S1024x1024 32 [0] _ (ix2 p q)))
      (IntOp.addi (Scalar.muli (BitVec.ofNat 32 (i 1).val) 1024#32) (iota .tc S1024x1024 32 [1] _ (ix2 p q)))) _ _ = _
  rw [iota_single_apply, iota_single_apply]
  exact select_word_eq (i 0).val (i 1).val p.val q.val (i 0).isLt (i 1).isLt p.isLt q.isLt _ _

/-- One entry of the masked exponentials of a tile: nothing on the diagonal of the whole 8192 × 8192 array,
    `exp (⟨row p, row q⟩ · 2)` elsewhere. -/
theorem tile_entry (i : grid0.Coords) (rows cols : FVec Ideal S1024x128 .bf16) (p q : Fin 1024) :
    select (cmpi .eq
        (addi (broadcast S1024x1024 (Scalar.muli (BitVec.ofNat 32 (i 0).val) 1024#32))
          (iota .tc S1024x1024 32 [0] Facts₀.iota_S1024x1024_d0_w32))
        (addi (broadcast S1024x1024 (Scalar.muli (BitVec.ofNat 32 (i 1).val) 1024#32))
          (iota .tc S1024x1024 32 [1] Facts₀.iota_S1024x1024_d1_w32)))
        (broadcast S1024x1024 (Scalar.ofBits (F := Ideal) .f32 0x00000000#32))
        (exp (mulf (matmul gramDims none rows
            (transpose S128x1024 [1, 0] cols Facts₀.transposes_S1024x128_p1_0_S128x1024)
            (constant (F := Ideal) S1024x1024 .f32 0x00000000#32))
          (broadcast S1024x1024 (Scalar.ofBits (F := Ideal) .f32 0x40000000#32)))) (ix2 p q)
      = if (i 0).val * 1024 + p.val = (i 1).val * 1024 + q.val then 0
        else Ideal.exp ((∑ k : Fin 128, rows (ix2 p k) * cols (ix2 q k)) * Cert.Contrastive.invTemp) := by
  refine (diag_select_apply i _ _ p q).trans ?_
  refine if_congr Iff.rfl Ideal.ofBits_zero_f32 ?_
  show Ideal.exp (matmul gramDims none rows _ _ (ix2 p q) * Ideal.ofBits .f32 0x40000000#32) = _
  rw [gram_apply]
  rfl

/-- The value stored at an accumulation step, at row p of the block. -/
theorem pay2_apply (i : grid0.Coords) (rows cols : Vec Ideal S1024x128 .bf16) (acc : Vec Ideal S1024 .f32) (p : Fin 1024) :
    k0_pay2 (F := Ideal) i rows cols acc (ix1 p)
      = acc (ix1 p) + ∑ q : Fin 1024,
          (if (i 0).val * 1024 + p.val = (i 1).val * 1024 + q.val then 0
           else Ideal.exp ((∑ k : Fin 128, rows (ix2 p k) * cols (ix2 q k)) * Cert.Contrastive.invTemp)) := by
  unfold k0_pay2
  simp only [shapeCast_self]
  refine congrArg (acc (ix1 p) + ·) ?_
  refine (Ideal.multiReduction_add_single _ 0x00000000#32 Facts₀.reduces_S1024x1024_S1024 (.inl rfl) rfl (ix1 p)).trans ?_
  refine Finset.sum_congr rfl fun q _ => ?_
  have hq : Facts₀.reduces_S1024x1024_S1024.lift (ix1 p) q = ix2 p q := funext fun a => Fin.ext (by
    match a with
    | ⟨0, _⟩ => rfl
    | ⟨1, _⟩ => rfl)
  rw [hq]
  exact tile_entry i rows cols p q

/-- The value stored when the running sums are reset: 0 in every row. -/
theorem pay1_eq : k0_pay1 (F := Ideal) = fun _ => 0 := by
  unfold k0_pay1
  simp only [shapeCast_self]
  exact funext fun _ => Ideal.ofBits_zero_f32

end Cert.KerValue

end
-- ==== Proof.KerHead.lean ====
/-
  The host lines before the region: from the two argument arrays to the 8192 unit rows.

  The twenty-two operations before the region read the two argument arrays `a` and `b` (4096 rows of length 128
  each) and nothing else that was there before them. For each array they form the squares, sum them along every
  row (from zero), take the square root, floor it at the small positive constant, spread the floored length along
  the row again and divide: every row is divided by its floored Euclidean length. The two arrays of unit rows are
  then stacked (those of `a` first) and narrowed to a smaller float format, which changes no extended real.
-/
import proofs.«165202_j28097676050918_1_alg».proof.Proof.Gen.KernelIdeal.Launch
import proofs.«165202_j28097676050918_1_alg».proof.Proof.Contrastive
import Idealize.ShloMosaic.Lib.StableHlo.Run
import Idealize.ShloMosaic.Lib.Pipeline.Value
import Idealize.ShloMosaic.Lib.ValueIdx
import Idealize.ShloMosaic.PureOps.Ideal.Laws

noncomputable section

namespace Cert.KerValue

open Cert.KernelIdeal Cert.KernelIdeal.Gen Idealize.ShloMosaic Idealize.ShloMosaic.ValueIdx Idealize.ShloMosaic.StableHlo

/-- One array's rows divided by their floored lengths, as the host lines compute it. -/
def unitRows (x : FVec Ideal S4096x128 .f32) : FVec Ideal S4096x128 .f32 :=
  Host.divf (F := Ideal) x
    (broadcastInDim S4096x128 ![0, 1] Facts₀.bcast_S4096x1_S4096x128_0_1
      (maximumf
        (Host.sqrt (F := Ideal)
          (broadcastInDim S4096x1 ![0] Facts₀.bcast_S4096_S4096x1_0
            (Host.reduceAdd (F := Ideal) (mulf x x) (constant (F := Ideal) S_ .f32 0x00000000#32)
              Facts₀.reducesTo_S4096x128_S4096_d1 Facts₀.h_S_)))
        (broadcastInDim S4096x1 ![] Facts₀.bcast_S_S4096x1 (constant (F := Ideal) S_ .f32 0x2B8CBCCC#32))))

/-- The two arrays of unit rows stacked, those of the first array first, in the narrower format. -/
def stackedRows (a b : FVec Ideal S4096x128 .f32) : FVec Ideal S8192x128 .bf16 :=
  truncf .bf16
    (concatenate S8192x128 0 [⟨S4096x128, unitRows a⟩, ⟨S4096x128, unitRows b⟩]
      Facts₀.concatenates_S4096x128_S4096x128_S8192x128_d0)
    Facts₀.bitsLt_bf16_f32

/-- What three of the buffers hold after the twenty-two lines, from ANY contents before them. -/
theorem head_after_v7 (W : Valuation τ sig (Elt Ideal)) :
    after (hostOps0 (F := Ideal)) W (Proc.devRef .tc main_v7) = unitRows (W (Proc.devRef .tc main_arg0)) := by
  dsimp only [hostOps0]
  after_results
  rfl
theorem head_after_v15 (W : Valuation τ sig (Elt Ideal)) :
    after (hostOps0 (F := Ideal)) W (Proc.devRef .tc main_v15) = unitRows (W (Proc.devRef .tc main_arg1)) := by
  dsimp only [hostOps0]
  after_results
  rfl
theorem head_after_v17 (W : Valuation τ sig (Elt Ideal)) :
    after (hostOps0 (F := Ideal)) W (Proc.devRef .tc main_v17)
      = stackedRows (W (Proc.devRef .tc main_arg0)) (W (Proc.devRef .tc main_arg1)) := by
  dsimp only [hostOps0]
  after_results
  rfl

/-- The sum of a row's squares, from zero. -/
theorem rowSquares_apply (x : FVec Ideal S4096x128 .f32) (r : Fin 4096) :
    Host.reduceAdd (F := Ideal) (mulf x x) (constant (F := Ideal) S_ .f32 0x00000000#32)
        Facts₀.reducesTo_S4096x128_S4096_d1 Facts₀.h_S_ (ix1 r)
      = ∑ j : Fin 128, x (ix2 r j) * x (ix2 r j) := by
  simp only [Host.reduceAdd, Ideal.hostReduceAdd_def]
  rw [Ideal.hostReduceAdd_single Facts₀.reducesTo_S4096x128_S4096_d1 (by decide)]
  rw [constant_apply, Ideal.ofBits_zero_f32, zero_add]
  refine Finset.sum_congr rfl fun k _ => ?_
  have hk : (by decide : S4096x128.Reduces [1] S4096).lift (ix1 r) k = ix2 r k := funext fun a => Fin.ext (by
    match a with
    | ⟨0, _⟩ => rfl
    | ⟨1, _⟩ => rfl)
  rw [hk]
  rfl

/-- Entry (r, k) of an array's unit rows: entry k of row r divided by the row's floored length. -/
theorem unitRows_apply (x : FVec Ideal S4096x128 .f32) (r : Fin 4096) (k : Fin 128) :
    unitRows x (ix2 r k) = Cert.Contrastive.unitRow (Cert.Contrastive.rowOf x r) k := by
  unfold unitRows
  generalize rowSquares_apply x r = hsq
  generalize Host.reduceAdd (F := Ideal) (mulf x x) (constant (F := Ideal) S_ .f32 0x00000000#32)
    Facts₀.reducesTo_S4096x128_S4096_d1 Facts₀.h_S_ = z at hsq
  show Ideal.div (x (ix2 r k)) _ = _
  refine congrArg (Ideal.div (x (ix2 r k))) ?_
  refine (broadcastInDim_apply (s := S4096x1) ![0, 1] Facts₀.bcast_S4096x1_S4096x128_0_1 _ (ix2 r k) (ix2 r (0 : Fin 1))
    (fun a => by
      match a with
      | ⟨0, _⟩ => rfl
      | ⟨1, _⟩ => rfl)).trans ?_
  have h1 : broadcastInDim S4096x1 (![0] : Fin S4096.rank → Fin S4096x1.rank) Facts₀.bcast_S4096_S4096x1_0 z (ix2 r (0 : Fin 1))
      = ∑ j : Fin 128, x (ix2 r j) * x (ix2 r j) :=
    (broadcastInDim_apply (s := S4096) ![0] Facts₀.bcast_S4096_S4096x1_0 z (ix2 r (0 : Fin 1)) (ix1 r) (fun a => by
      match a with
      | ⟨0, _⟩ => rfl)).trans hsq
  show max (Ideal.sqrt (broadcastInDim S4096x1 (![0] : Fin S4096.rank → Fin S4096x1.rank) Facts₀.bcast_S4096_S4096x1_0 z
    (ix2 r (0 : Fin 1)))) (Ideal.ofBits .f32 0x2B8CBCCC#32) = _
  rw [h1]
  rfl

/-- Entry (r, k) of the stacked unit rows: the unit rows of the first array for r < 4096, of the second after. -/
theorem stackedRows_apply (a b : FVec Ideal S4096x128 .f32) (r : Fin 8192) (k : Fin 128) :
    stackedRows a b (ix2 r k) = Cert.Contrastive.rep a b r k := by
  unfold stackedRows Cert.Contrastive.rep
  generalize unitRows_apply a = ha
  generalize unitRows_apply b = hb
  generalize unitRows a = ua at ha
  generalize unitRows b = ub at hb
  show concatenate S8192x128 0 [⟨S4096x128, ua⟩, ⟨S4096x128, ub⟩] Facts₀.concatenates_S4096x128_S4096x128_S8192x128_d0 (ix2 r k) = _
  by_cases h : r.val < 4096
  · rw [dif_pos h, ← ha]
    exact concatenate_pair_apply_left 0 ua ub _ (ix2 r k) rfl (ix2 (⟨r.val, h⟩ : Fin 4096) k) (fun c => by
      match c with
      | ⟨0, _⟩ => rfl
      | ⟨1, _⟩ => rfl)
  · have hr := r.isLt
    rw [dif_neg h, ← hb]
    exact concatenate_pair_apply_right 0 ua ub _ (ix2 r k) rfl rfl (ix2 (⟨r.val - 4096, by omega⟩ : Fin 4096) k)
      (fun c hc => by
        match c with
        | ⟨0, _⟩ => exact absurd rfl hc
        | ⟨1, _⟩ => rfl)
      (by show r.val - 4096 + 4096 = r.val; omega)

/-- So, from ANY contents `W` before the twenty-two lines: the two arrays of unit rows and their stack, entry by
    entry, of the two argument arrays found in `W`. -/
theorem head_v7_apply (W : Valuation τ sig (Elt Ideal)) (r : Fin 4096) (k : Fin 128) :
    (after (hostOps0 (F := Ideal)) W (Proc.devRef .tc main_v7) : S4096x128.Idx → EReal) (ix2 r k)
      = Cert.Contrastive.unitRow (Cert.Contrastive.rowOf (W (Proc.devRef .tc main_arg0) : S4096x128.Idx → EReal) r) k := by
  rw [head_after_v7]
  exact unitRows_apply _ r k
theorem head_v15_apply (W : Valuation τ sig (Elt Ideal)) (r : Fin 4096) (k : Fin 128) :
    (after (hostOps0 (F := Ideal)) W (Proc.devRef .tc main_v15) : S4096x128.Idx → EReal) (ix2 r k)
      = Cert.Contrastive.unitRow (Cert.Contrastive.rowOf (W (Proc.devRef .tc main_arg1) : S4096x128.Idx → EReal) r) k := by
  rw [head_after_v15]
  exact unitRows_apply _ r k
theorem head_v17_apply (W : Valuation τ sig (Elt Ideal)) (r : Fin 8192) (k : Fin 128) :
    (after (hostOps0 (F := Ideal)) W (Proc.devRef .tc main_v17) : S8192x128.Idx → EReal) (ix2 r k)
      = Cert.Contrastive.rep (W (Proc.devRef .tc main_arg0) : S4096x128.Idx → EReal)
          (W (Proc.devRef .tc main_arg1) : S4096x128.Idx → EReal) r k := by
  rw [head_after_v17]
  exact stackedRows_apply _ _ r k

end Cert.KerValue

end
-- ==== Proof.LibBlockSum.lean ====
/-
  Sums over an index range cut into equal blocks, in any commutative additive monoid (the extended reals are one:
  addition there is commutative and associative, infinities included, so no finiteness is asked).

  An index below nb * bs is position r of block b, k = b * bs + r. A sum over all k is the sum over the blocks of
  each block's sum (sum_fin_blocks); and a running total that takes the blocks one after the other, block 0 first,
  has after block n the sum of blocks 0 .. n (acc_eq_sum_range), so after the last block the whole sum
  (sum_range_blocks). This is what a matrix product accumulated over column blocks computes, entry by entry.
-/
import Mathlib.Algebra.BigOperators.Fin
import Mathlib.Algebra.BigOperators.Intervals
import Mathlib.Logic.Equiv.Fin.Basic

namespace BlockSum

open Finset

variable {M : Type*} [AddCommMonoid M]

/-- Position r of block b is below nb * bs when b is below nb. -/
theorem pos_lt {nb bs : ℕ} (b : Fin nb) (r : Fin bs) : b.val * bs + r.val < nb * bs := by
  have h1 : (b.val + 1) * bs ≤ nb * bs := Nat.mul_le_mul_right bs b.isLt
  have h2 : b.val * bs + r.val < (b.val + 1) * bs := by rw [Nat.succ_mul]; exact Nat.add_lt_add_left r.isLt _
  exact lt_of_lt_of_le h2 h1

/-- A sum over nb * bs indices is the sum over the nb blocks of the sum over each block's bs positions. -/
theorem sum_fin_blocks (nb bs : ℕ) (f : Fin (nb * bs) → M) :
    ∑ k, f k = ∑ b : Fin nb, ∑ r : Fin bs, f ⟨b.val * bs + r.val, pos_lt b r⟩ := by
  rw [← Equiv.sum_comp finProdFinEquiv f, Fintype.sum_prod_type]
  refine Finset.sum_congr rfl fun b _ => Finset.sum_congr rfl fun r _ => congrArg f (Fin.ext ?_)
  show r.val + bs * b.val = b.val * bs + r.val
  rw [Nat.mul_comm, Nat.add_comm]

/-- Position r of block b as an index below nb * bs, wrapped around so that it is defined for every natural b. -/
def pos (nb bs : ℕ) (h : 0 < nb * bs) (b : ℕ) (r : Fin bs) : Fin (nb * bs) :=
  ⟨(b * bs + r.val) % (nb * bs), Nat.mod_lt _ h⟩

/-- Below nb blocks nothing wraps. -/
theorem pos_eq (nb bs : ℕ) (h : 0 < nb * bs) (b : Fin nb) (r : Fin bs) :
    pos nb bs h b.val r = ⟨b.val * bs + r.val, pos_lt b r⟩ :=
  Fin.ext (Nat.mod_eq_of_lt (pos_lt b r))

/-- The blocks taken one after the other: the sum of the first nb block sums is the whole sum. -/
theorem sum_range_blocks (nb bs : ℕ) (h : 0 < nb * bs) (f : Fin (nb * bs) → M) :
    ∑ b ∈ range nb, ∑ r : Fin bs, f (pos nb bs h b r) = ∑ k, f k := by
  rw [Finset.sum_range, sum_fin_blocks]
  exact Finset.sum_congr rfl fun b _ => Finset.sum_congr rfl fun r _ => by rw [pos_eq]

end BlockSum
-- ==== Proof.KerSums.lean ====
/-
  A row's denominator gathered column block by column block.

  The 8192 stacked rows are cut into 8 blocks of 1024: row p of block i₀ is row  i₀ · 1024 + p.  A row's
  denominator is the sum of its terms over all 8192 rows; taken block by block — the terms against the 1024 rows
  of block 0, then of block 1, … — the running total after j blocks is `partialDenom … j`: nothing before the
  first block, one more block's terms at each step, the whole denominator after the eighth. And one block's terms
  are what a step computes from the two blocks of unit rows: nothing where the two global row numbers agree,
  `exp (⟨row, row⟩ · 2)` elsewhere.
-/
import proofs.«165202_j28097676050918_1_alg».proof.Proof.Contrastive
import proofs.«165202_j28097676050918_1_alg».proof.Proof.LibBlockSum

noncomputable section

namespace Cert.KerValue

open Cert.Contrastive Idealize.ShloMosaic Idealize.ShloMosaic.ValueIdx

/-- Row p of block i₀ among the 8192 stacked rows (wrapped around, so that it is defined for every i₀). -/
def rowIx (i0 : ℕ) (p : Fin 1024) : Fin 8192 := ⟨(i0 * 1024 + p.val) % 8192, Nat.mod_lt _ (by norm_num)⟩

/-- Below 8 blocks nothing wraps. -/
theorem rowIx_val (i0 : ℕ) (h : i0 < 8) (p : Fin 1024) : (rowIx i0 p).val = i0 * 1024 + p.val := by
  show (i0 * 1024 + p.val) % 8192 = i0 * 1024 + p.val
  have := p.isLt
  omega

/-- The terms of row p of block i₀ against the rows of the first `cnt` blocks, summed. -/
def partialDenom (a b : E4096x128.Idx → EReal) (i0 cnt : ℕ) (p : Fin 1024) : EReal :=
  ∑ j ∈ Finset.range cnt, ∑ q : Fin 1024, term a b (rowIx i0 p) (rowIx j q)

/-- Before the first block: nothing. -/
theorem partialDenom_zero (a b : E4096x128.Idx → EReal) (i0 : ℕ) (p : Fin 1024) : partialDenom a b i0 0 p = 0 :=
  Finset.sum_range_zero _

/-- One more block: its 1024 terms are added. -/
theorem partialDenom_succ (a b : E4096x128.Idx → EReal) (i0 j : ℕ) (p : Fin 1024) :
    partialDenom a b i0 (j + 1) p = partialDenom a b i0 j p + ∑ q : Fin 1024, term a b (rowIx i0 p) (rowIx j q) :=
  Finset.sum_range_succ _ _

/-- After all eight blocks: the row's denominator. -/
theorem partialDenom_full (a b : E4096x128.Idx → EReal) (i0 : ℕ) (p : Fin 1024) :
    partialDenom a b i0 8 p = denom a b (rowIx i0 p) :=
  BlockSum.sum_range_blocks 8 1024 (by norm_num) (fun c : Fin (8 * 1024) => term a b (rowIx i0 p) c)

/-- One block's terms, from the two blocks of unit rows: when `x0` holds the unit rows of block i₀ and `x1` those of
    block j, the masked exponentials of row p against the 1024 rows of `x1` sum to the terms of row p of block i₀
    against the rows of block j. -/
theorem block_term_eq (a b : E4096x128.Idx → EReal) (i0 j : ℕ) (hi : i0 < 8) (hj : j < 8) (p : Fin 1024)
    (x0 x1 : (⟨2, ![1024, 128]⟩ : Shape).Idx → EReal)
    (h0 : ∀ p k, x0 (ix2 p k) = rep a b (rowIx i0 p) k) (h1 : ∀ q k, x1 (ix2 q k) = rep a b (rowIx j q) k) :
    (∑ q : Fin 1024, if i0 * 1024 + p.val = j * 1024 + q.val then 0
        else Ideal.exp ((∑ k : Fin 128, x0 (ix2 p k) * x1 (ix2 q k)) * invTemp))
      = ∑ q : Fin 1024, term a b (rowIx i0 p) (rowIx j q) := by
  refine Finset.sum_congr rfl fun q _ => ?_
  have hc : (i0 * 1024 + p.val = j * 1024 + q.val) ↔ rowIx i0 p = rowIx j q := by
    rw [Fin.ext_iff, rowIx_val i0 hi p, rowIx_val j hj q]
  unfold term dotRows
  simp only [h0, h1]
  by_cases h : i0 * 1024 + p.val = j * 1024 + q.val
  · rw [if_pos h, if_pos (hc.mp h)]
  · rw [if_neg h, if_neg (mt hc.mpr h)]

end Cert.KerValue

end
-- ==== Proof.KerTail.lean ====
/-
  The host lines after the region: from the unit rows and the denominators to the loss.

  The fifteen operations after the region read three arrays — the 4096 unit rows of the first argument (`u`),
  the 4096 unit rows of the second (`v`), and the 8192 denominators (`d`) — and nothing else that was there
  before them. They form, for every pair n < 4096, the numerator  exp (⟨u n, v n⟩ · 2);  lay the 4096 numerators
  twice in a row (row r < 8192 gets the numerator of pair  r mod 4096);  divide by the denominators, take the
  logarithm, negate, sum the 8192 results from zero, and divide by 8192.  That is the mean of
  `- log (numerator / denominator)` over the rows.
-/
import proofs.«165202_j28097676050918_1_alg».proof.Proof.Gen.KernelIdeal.Launch
import proofs.«165202_j28097676050918_1_alg».proof.Proof.Contrastive
import Idealize.ShloMosaic.Lib.StableHlo.Run
import Idealize.ShloMosaic.Lib.Pipeline.Value
import Idealize.ShloMosaic.Lib.ValueIdx
import Idealize.ShloMosaic.PureOps.Ideal.Laws

noncomputable section

namespace Cert.KerValue

open Cert.KernelIdeal Cert.KernelIdeal.Gen Idealize.ShloMosaic Idealize.ShloMosaic.ValueIdx Idealize.ShloMosaic.StableHlo

/-- The 4096 numerators as the host lines compute them: the row-wise sum of the products of the two arrays of
    unit rows, times the broadcast constant 2, exponentiated. -/
def pairExp (u v : FVec Ideal S4096x128 .f32) : FVec Ideal S4096 .f32 :=
  Host.exp (F := Ideal)
    (mulf
      (Host.reduceAdd (F := Ideal) (mulf u v) (constant (F := Ideal) S_ .f32 0x00000000#32)
        Facts₀.reducesTo_S4096x128_S4096_d1 Facts₀.h_S_)
      (broadcastInDim S4096 ![] Facts₀.bcast_S_S4096 (constant (F := Ideal) S_ .f32 0x40000000#32)))

/-- The whole tail as one function of the three arrays it reads. -/
def tailFn (u v : FVec Ideal S4096x128 .f32) (d : FVec Ideal S8192 .f32) : FVec Ideal S_ .f32 :=
  Host.divf (F := Ideal)
    (Host.reduceAdd (F := Ideal)
      (Host.negf (F := Ideal) (Host.log (F := Ideal) (Host.divf (F := Ideal)
        (concatenate S8192 0 [⟨S4096, pairExp u v⟩, ⟨S4096, pairExp u v⟩] Facts₀.concatenates_S4096_S4096_S8192_d0) d)))
      (constant (F := Ideal) S_ .f32 0x00000000#32) Facts₀.reducesTo_S8192_S_d0 Facts₀.h_S_)
    (constant (F := Ideal) S_ .f32 0x46000000#32)

/-- What the last buffer holds after the fifteen lines, from ANY contents before them: the tail applied to what
    the three buffers it reads held. -/
theorem tail_after (W : Valuation τ sig (Elt Ideal)) :
    after (hostOps1 (F := Ideal)) W (Proc.devRef .tc main_v29)
      = tailFn (W (Proc.devRef .tc main_v7)) (W (Proc.devRef .tc main_v15)) (W (Proc.devRef .tc main_v18)) := by
  dsimp only [hostOps1]
  after_results
  rfl

/-- The three buffers the tail reads are written by none of its lines. -/
theorem tail_keeps_v7 (W : Valuation τ sig (Elt Ideal)) :
    after (hostOps1 (F := Ideal)) W (Proc.devRef .tc main_v7) = W (Proc.devRef .tc main_v7) := by
  dsimp only [hostOps1]
  after_results
theorem tail_keeps_v15 (W : Valuation τ sig (Elt Ideal)) :
    after (hostOps1 (F := Ideal)) W (Proc.devRef .tc main_v15) = W (Proc.devRef .tc main_v15) := by
  dsimp only [hostOps1]
  after_results
theorem tail_keeps_v18 (W : Valuation τ sig (Elt Ideal)) :
    after (hostOps1 (F := Ideal)) W (Proc.devRef .tc main_v18) = W (Proc.devRef .tc main_v18) := by
  dsimp only [hostOps1]
  after_results

/-- A vector's index set is its one coordinate's range, so a sum over it is the sum over the coordinate. -/
def rowEquiv {n : Nat} : (⟨1, ![n]⟩ : Shape).Idx ≃ Fin n where
  toFun j := j 0
  invFun a := ix1 a
  left_inv j := (eq_ix1 j).symm
  right_inv _ := rfl
theorem sum_rows {n : Nat} (f : (⟨1, ![n]⟩ : Shape).Idx → EReal) : ∑ j, f j = ∑ r : Fin n, f (ix1 r) :=
  (Equiv.sum_comp (rowEquiv (n := n)).symm f).symm

/-- The numerator of pair n:  exp (⟨u n, v n⟩ · 2). -/
theorem pairExp_apply (u v : FVec Ideal S4096x128 .f32) (n : Fin 4096) :
    pairExp u v (ix1 n) = Ideal.exp ((∑ k : Fin 128, u (ix2 n k) * v (ix2 n k)) * Cert.Contrastive.invTemp) := by
  show Ideal.exp (Host.reduceAdd (F := Ideal) (mulf u v) (constant (F := Ideal) S_ .f32 0x00000000#32)
      Facts₀.reducesTo_S4096x128_S4096_d1 Facts₀.h_S_ (ix1 n) * Ideal.ofBits .f32 0x40000000#32) = _
  refine congrArg (fun z => Ideal.exp (z * Cert.Contrastive.invTemp)) ?_
  simp only [Host.reduceAdd, Ideal.hostReduceAdd_def]
  rw [Ideal.hostReduceAdd_single Facts₀.reducesTo_S4096x128_S4096_d1 (by decide)]
  rw [constant_apply, Ideal.ofBits_zero_f32, zero_add]
  refine Finset.sum_congr rfl fun k _ => ?_
  have hk : (by decide : S4096x128.Reduces [1] S4096).lift (ix1 n) k = ix2 n k := funext fun a => Fin.ext (by
    match a with
    | ⟨0, _⟩ => rfl
    | ⟨1, _⟩ => rfl)
  rw [hk]
  rfl

/-- The numerators laid twice in a row: row r reads the numerator of pair  r mod 4096. -/
theorem twice_apply (e : FVec Ideal S4096 .f32) (r : Fin 8192) :
    concatenate S8192 0 [⟨S4096, e⟩, ⟨S4096, e⟩] Facts₀.concatenates_S4096_S4096_S8192_d0 (ix1 r)
      = e (ix1 (⟨r.val % 4096, Nat.mod_lt _ (by norm_num)⟩ : Fin 4096)) := by
  by_cases h : r.val < 4096
  · refine (concatenate_pair_apply_left 0 e e _ (ix1 r) rfl (ix1 (⟨r.val, h⟩ : Fin 4096)) (fun b => by
      match b with
      | ⟨0, _⟩ => rfl)).trans ?_
    exact congrArg e (congrArg ix1 (Fin.ext (Nat.mod_eq_of_lt h).symm))
  · have hr := r.isLt
    refine (concatenate_pair_apply_right 0 e e _ (ix1 r) rfl rfl (ix1 (⟨r.val - 4096, by omega⟩ : Fin 4096))
      (fun b hb => by
        match b with
        | ⟨0, _⟩ => exact absurd rfl hb)
      (by show r.val - 4096 + 4096 = r.val; omega)).trans ?_
    exact congrArg e (congrArg ix1 (Fin.ext (by show r.val - 4096 = r.val % 4096; omega)))

/-- The tail's one entry is the mean over the rows of `- log (numerator / denominator)`, the numerator of row r
    being that of pair  r mod 4096  and the denominator the array's entry r. -/
theorem tailFn_apply (u v : FVec Ideal S4096x128 .f32) (d : FVec Ideal S8192 .f32) :
    tailFn u v d ix0
      = Cert.Contrastive.meanNegLog
          (fun r => Ideal.exp ((∑ k : Fin 128,
              u (ix2 (⟨r.val % 4096, Nat.mod_lt _ (by norm_num)⟩ : Fin 4096) k)
                * v (ix2 (⟨r.val % 4096, Nat.mod_lt _ (by norm_num)⟩ : Fin 4096) k)) * Cert.Contrastive.invTemp))
          (fun r => d (ix1 r)) := by
  unfold tailFn Cert.Contrastive.meanNegLog
  generalize pairExp_apply u v = hnum
  generalize pairExp u v = e at hnum
  show Ideal.div (Host.reduceAdd (F := Ideal) _ (constant (F := Ideal) S_ .f32 0x00000000#32)
      Facts₀.reducesTo_S8192_S_d0 Facts₀.h_S_ ix0) (Ideal.ofBits .f32 0x46000000#32) = _
  refine congrArg (fun z => Ideal.div z Cert.Contrastive.rowCount) ?_
  simp only [Host.reduceAdd, Ideal.hostReduceAdd_def]
  rw [Ideal.hostReduceAdd_total Facts₀.reducesTo_S8192_S_d0 (fun b => b.elim0)]
  rw [constant_apply, Ideal.ofBits_zero_f32, zero_add, sum_rows]
  refine Finset.sum_congr rfl fun r _ => ?_
  show -(Ideal.log (Ideal.div (concatenate S8192 0 [⟨S4096, e⟩, ⟨S4096, e⟩] Facts₀.concatenates_S4096_S4096_S8192_d0 (ix1 r)) (d (ix1 r)))) = _
  rw [twice_apply, hnum]

/-- So, from ANY contents `W` before the fifteen lines, the last buffer's one entry after them is that mean, of the
    unit rows `u`, `v` and the denominators `d` found in the three buffers the lines read. -/
theorem tail_result (W : Valuation τ sig (Elt Ideal)) (u v : FVec Ideal S4096x128 .f32) (d : FVec Ideal S8192 .f32)
    (hu : W (Proc.devRef .tc main_v7) = u) (hv : W (Proc.devRef .tc main_v15) = v) (hd : W (Proc.devRef .tc main_v18) = d) :
    (after (hostOps1 (F := Ideal)) W (Proc.devRef .tc main_v29) : S_.Idx → EReal) ix0
      = Cert.Contrastive.meanNegLog
          (fun r => Ideal.exp ((∑ k : Fin 128,
              u (ix2 (⟨r.val % 4096, Nat.mod_lt _ (by norm_num)⟩ : Fin 4096) k)
                * v (ix2 (⟨r.val % 4096, Nat.mod_lt _ (by norm_num)⟩ : Fin 4096) k)) * Cert.Contrastive.invTemp))
          (fun r => d (ix1 r)) := by
  rw [tail_after, hu, hv, hd]
  exact tailFn_apply u v d

end Cert.KerValue

end
-- ==== Proof.KerLoss.lean ====
/-
  The two stretches of host lines put together: the tail fed the unit rows the head produces.

  When the two arrays of unit rows the tail reads are those the head makes of the argument arrays `a` and `b`,
  the tail's numerator of row r is the specification's numerator of row r; and when moreover the denominators it
  reads are the specification's, its one entry is the loss.
-/
import proofs.«165202_j28097676050918_1_alg».proof.Proof.KerHead
import proofs.«165202_j28097676050918_1_alg».proof.Proof.KerTail

noncomputable section

namespace Cert.KerValue

open Cert.KernelIdeal Cert.KernelIdeal.Gen Idealize.ShloMosaic Idealize.ShloMosaic.ValueIdx Idealize.ShloMosaic.StableHlo

/-- The tail's numerator of row r, on the head's unit rows, is the numerator of the pair  r mod 4096. -/
theorem tail_numer (a b : FVec Ideal S4096x128 .f32) (r : Fin 8192) :
    Ideal.exp ((∑ k : Fin 128,
        unitRows a (ix2 (⟨r.val % 4096, Nat.mod_lt _ (by norm_num)⟩ : Fin 4096) k)
          * unitRows b (ix2 (⟨r.val % 4096, Nat.mod_lt _ (by norm_num)⟩ : Fin 4096) k)) * Cert.Contrastive.invTemp)
      = Cert.Contrastive.numer a b r := by
  unfold Cert.Contrastive.numer Cert.Contrastive.pairNumer Cert.Contrastive.dotRows
  simp only [unitRows_apply]

/-- The tail on the head's unit rows and any denominators: the mean of `- log (numerator / denominator)` with the
    specification's numerators. -/
theorem tailFn_unitRows (a b : FVec Ideal S4096x128 .f32) (d : FVec Ideal S8192 .f32) :
    tailFn (unitRows a) (unitRows b) d ix0
      = Cert.Contrastive.meanNegLog (Cert.Contrastive.numer a b) (fun r => d (ix1 r)) := by
  rw [tailFn_apply]
  exact congrArg (fun num => Cert.Contrastive.meanNegLog num fun r => d (ix1 r)) (funext fun r => tail_numer a b r)

/-- With the specification's denominators as well, the tail's entry is the loss. -/
theorem tailFn_loss (a b : FVec Ideal S4096x128 .f32) (d : FVec Ideal S8192 .f32)
    (hd : ∀ r : Fin 8192, d (ix1 r) = Cert.Contrastive.denom a b r) :
    tailFn (unitRows a) (unitRows b) d ix0 = Cert.Contrastive.loss a b := by
  rw [tailFn_unitRows]
  unfold Cert.Contrastive.loss
  exact congrArg (Cert.Contrastive.meanNegLog (Cert.Contrastive.numer a b)) (funext hd)

/-- So, from ANY contents `W` before the fifteen lines in which the two arrays of unit rows are the head's of `a` and
    `b` and the denominators are the specification's, the last buffer holds the loss. -/
theorem tail_loss (W : Valuation τ sig (Elt Ideal)) (a b : FVec Ideal S4096x128 .f32) (d : FVec Ideal S8192 .f32)
    (hu : W (Proc.devRef .tc main_v7) = unitRows a) (hv : W (Proc.devRef .tc main_v15) = unitRows b)
    (hd : W (Proc.devRef .tc main_v18) = d)
    (hden : ∀ r : Fin 8192, d (ix1 r) = Cert.Contrastive.denom a b r) :
    (after (hostOps1 (F := Ideal)) W (Proc.devRef .tc main_v29) : S_.Idx → EReal) = fun _ => Cert.Contrastive.loss a b := by
  rw [tail_after, hu, hv, hd]
  funext i
  rw [eq_ix0 i]
  exact tailFn_loss a b d hden

end Cert.KerValue

end
-- ==== Proof.DenomValue.lean ====
/-
  What the kernel program computes, at the extended reals.

  After the body at point `t = 8·i₀ + j` the kept vector holds, at row `p`, the denominator's terms of stacked row
  `1024·i₀ + p` summed over the column blocks `0 … j`: by induction on the point — a first column block starts from
  zero, every other one adds its block's terms to what the point before left —, never by listing the grid. At
  `j = 7` that is the whole denominator (eight blocks of 1024 are all 8192 rows), it is copied into the output block,
  and that point alone writes the block back: so the denominators array ends at the denominators, row by row. The
  host lines after the region turn numerators and denominators into the loss.
-/
import proofs.«165202_j28097676050918_1_alg».proof.Proof.FrameIdealRun
import proofs.«165202_j28097676050918_1_alg».proof.Proof.FrameIdealPieces
import proofs.«165202_j28097676050918_1_alg».proof.Proof.KerStep
import proofs.«165202_j28097676050918_1_alg».proof.Proof.KerHead
import proofs.«165202_j28097676050918_1_alg».proof.Proof.KerSums
import proofs.«165202_j28097676050918_1_alg».proof.Proof.KerLoss
import Idealize.ShloMosaic.Lib.Pipeline.Value
import Idealize.ShloMosaic.Lib.ValueIdx

set_option maxRecDepth 16384

noncomputable section

namespace Cert.KernelIdeal.DenomValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame Cert.KerValue Cert.Contrastive

variable (m : (ℓ : Loc nD τ sig) → Buf (Elt Ideal) ℓ) (ρ : Dev nD → PrngReg)

/-- The two argument arrays as launched. -/
abbrev argA (c : Dev nD) : FVec Ideal S4096x128 .f32 := m ((c.tc : Thread nD τ).loc main_arg0)
abbrev argB (c : Dev nD) : FVec Ideal S4096x128 .f32 := m ((c.tc : Thread nD τ).loc main_arg1)

/-- The array both input windows read is the 8192 stacked unit rows. -/
theorem stacked_apply (c : Dev nD) (r : Fin 8192) (k : Fin 128) :
    (V m c main_v17 : S8192x128.Idx → EReal) (ix2 r k) = rep (argA m c) (argB m c) r k :=
  head_v17_apply (fun b => m (c, b)) r k

/-- The printed index maps and grid coordinates, decided once over the 64 points. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0 ∧ win0_2.index t (0 : Fin 1) = t.val / 8
    ∧ (grid0.coords t 0).val = t.val / 8 ∧ (grid0.coords t 1).val = t.val % 8 :=
  (by decide +kernel : ∀ t : Fin grid0.N, _)

theorem lt64 (t : Fin cfg0.N) : t.val < 64 := lt_of_lt_of_eq t.isLt (show cfg0.N = 64 from N_0)

/-- Row `p` of the row block at point `t` is stacked row `1024·(t / 8) + p`. -/
theorem rows_apply (c : Dev nD) (t : Fin cfg0.N) (p : Fin 1024) (k : Fin 128) :
    (iblk m c 0 t : S1024x128.Idx → EReal) (ix2 p k) = rep (argA m c) (argB m c) (rowIx (t.val / 8) p) k := by
  rw [← stacked_apply m c]
  show (V m c main_v17 : S8192x128.Idx → EReal) (((cfg0.win 0).blk t).view.emb (ix2 p k)) = _
  refine congrArg (V m c main_v17 : S8192x128.Idx → EReal) ?_
  obtain ⟨e0, e1, e2, e3, e4, e5, e6⟩ := idx_facts t
  have ht := lt64 t
  funext a; apply Fin.ext
  match a with
  | ⟨0, _⟩ => show win0_0.index t (0 : Fin 2) * 1024 + 1 * p.val = (t.val / 8 * 1024 + p.val) % 8192; omega
  | ⟨1, _⟩ => show win0_0.index t (1 : Fin 2) * 128 + 1 * k.val = k.val; omega

/-- Row `q` of the column block at point `t` is stacked row `1024·(t mod 8) + q`. -/
theorem cols_apply (c : Dev nD) (t : Fin cfg0.N) (q : Fin 1024) (k : Fin 128) :
    (iblk m c 1 t : S1024x128.Idx → EReal) (ix2 q k) = rep (argA m c) (argB m c) (rowIx (t.val % 8) q) k := by
  rw [← stacked_apply m c]
  show (V m c main_v17 : S8192x128.Idx → EReal) (((cfg0.win 1).blk t).view.emb (ix2 q k)) = _
  refine congrArg (V m c main_v17 : S8192x128.Idx → EReal) ?_
  obtain ⟨e0, e1, e2, e3, e4, e5, e6⟩ := idx_facts t
  have ht := lt64 t
  funext a; apply Fin.ext
  match a with
  | ⟨0, _⟩ => show win0_1.index t (0 : Fin 2) * 1024 + 1 * q.val = (t.val % 8 * 1024 + q.val) % 8192; omega
  | ⟨1, _⟩ => show win0_1.index t (1 : Fin 2) * 128 + 1 * k.val = k.val; omega

/-- ONE POINT'S STEP: over a kept vector `xs`, the body leaves `xs` plus this column block's terms of each row. -/
theorem step_apply (c : Dev nD) (t : Fin cfg0.N) (xs : Vec Ideal S1024 .f32) (p : Fin 1024) :
    k0_pay2 (F := Ideal) (grid0.coords t) (iblk m c 0 t) (iblk m c 1 t) xs (ix1 p)
      = xs (ix1 p) + ∑ q : Fin 1024, term (argA m c) (argB m c) (rowIx (t.val / 8) p) (rowIx (t.val % 8) q) := by
  obtain ⟨e0, e1, e2, e3, e4, e5, e6⟩ := idx_facts t
  have ht := lt64 t
  rw [pay2_apply, e5, e6]
  congr 1
  exact block_term_eq _ _ (t.val / 8) (t.val % 8) (by omega) (by omega) p _ _ (fun p k => rows_apply m c t p k) (fun q k => cols_apply m c t q k)

/-- THE KEPT VECTOR after point `n`: the terms of the column blocks `0 … n mod 8`, by induction on the point. -/
theorem acc_eq (c : Dev nD) (n : ℕ) : ∀ (hn : n < cfg0.N) (p : Fin 1024),
    (stateAt m c n hn).2 (ix1 p) = partialDenom (argA m c) (argB m c) (n / 8) (n % 8 + 1) p := by
  induction n using Nat.strong_induction_on with
  | _ n ih =>
    intro hn p
    have hN : n < 64 := lt_of_lt_of_eq hn (show cfg0.N = 64 from N_0)
    by_cases h0 : n % 8 = 0
    · have h2 : ¬ n % 8 = 7 := by omega
      rw [show stateAt m c n hn = _ from stateAt_first m c ⟨n, hn⟩ h0 h2]
      dsimp only
      rw [accFirst_eq, step_apply m c ⟨n, hn⟩, pay1_eq]
      dsimp only
      rw [h0, partialDenom_succ, partialDenom_zero]
    · have hprev := ih (n - 1) (by omega) (Nat.lt_of_le_of_lt (Nat.sub_le _ _) hn) p
      rw [show (n - 1) / 8 = n / 8 from by omega, show (n - 1) % 8 + 1 = n % 8 from by omega] at hprev
      by_cases h2 : n % 8 = 7
      · rw [show stateAt m c n hn = _ from stateAt_last m c ⟨n, hn⟩ h0 h2]
        dsimp only
        rw [accLast_eq, step_apply m c ⟨n, hn⟩]
        dsimp only
        rw [partialDenom_succ, hprev]
      · rw [show stateAt m c n hn = _ from stateAt_middle m c ⟨n, hn⟩ h0 h2]
        dsimp only
        rw [accMiddle_eq, step_apply m c ⟨n, hn⟩]
        dsimp only
        rw [partialDenom_succ, hprev]

/-- THE OUTPUT BLOCK at a last column block: the whole denominators of its 1024 rows. -/
theorem out_last (c : Dev nD) (t : Fin cfg0.N) (h7 : t.val % 8 = 7) (p : Fin 1024) :
    (stateAt m c t.val t.isLt).1 (ix1 p) = denom (argA m c) (argB m c) (rowIx (t.val / 8) p) := by
  have ht := lt64 t
  have h0 : ¬ t.val % 8 = 0 := by omega
  rw [stateAt_last m c t h0 h7]
  dsimp only
  rw [outLast_eq, step_apply m c t, acc_eq m c (t.val - 1) _ p,
    show (t.val - 1) / 8 = t.val / 8 from by omega, show (t.val - 1) % 8 + 1 = 7 from by omega, h7,
    ← partialDenom_succ, partialDenom_full]

/-- The denominators, as an array over the 8192 stacked rows. -/
def denomArr (c : Dev nD) : FVec Ideal S8192 .f32 := fun i => denom (argA m c) (argB m c) (i 0)

/-- What a last column block writes back is its block of the denominators. -/
theorem flushed_eq (c : Dev nD) (t : Fin cfg0.N) (hf : (cfg0.win 2).flush t = true) :
    (dats m 0 c).flushed 2 t = ((cfg0.win 2).blk t).view.read (Elt Ideal) (denomArr m c) := by
  have h7 := (flush0_2 t).mp hf
  show (cfg0.win 2).cut (grid0.coords t) ((dats m 0 c).after 2 t) = _
  rw [after_out]
  funext y
  obtain ⟨p, rfl⟩ : ∃ p : Fin 1024, y = ix1 p := ⟨y 0, eq_ix1 y⟩
  show (stateAt m c t.val t.isLt).1 (ix1 p) = denomArr m c (((cfg0.win 2).blk t).view.emb (ix1 p))
  rw [out_last m c t h7 p]
  unfold denomArr
  refine congrArg (denom (argA m c) (argB m c)) (Fin.ext ?_)
  obtain ⟨e0, e1, e2, e3, e4, e5, e6⟩ := idx_facts t
  have ht := lt64 t
  show (t.val / 8 * 1024 + p.val) % 8192 = win0_2.index t (0 : Fin 1) * 1024 + 1 * p.val
  omega

/-- A row is in point `t`'s output block iff it lies in the block's range. -/
theorem mem_blk_out (t : Fin cfg0.N) (i : S8192.Idx) :
    i ∈ ((cfg0.win 2).blk t).view.set ↔ ∀ a : Fin 1, win0_2.index t a * S1024.size a ≤ (i a).val ∧ (i a).val < win0_2.index t a * S1024.size a + S1024.size a := by
  show i ∈ ((View.whole main_v18).slice (win0_2.rect t)).set ↔ _
  rw [View.set_slice_whole, Rect.mem_set_unit]
  exact Iff.rfl

/-- Every row is in the block some last column block writes back: row `r` in that of point `8·(r / 1024) + 7`. -/
theorem cover_out (i : S8192.Idx) : ∃ t : Fin cfg0.N, (cfg0.win 2).flush t = true ∧ i ∈ ((cfg0.win 2).blk t).view.set := by
  have hi : (i 0).val < 8192 := (i 0).isLt
  have hlt : (i 0).val / 1024 * 8 + 7 < cfg0.N := by rw [show cfg0.N = 64 from N_0]; omega
  refine ⟨⟨(i 0).val / 1024 * 8 + 7, hlt⟩, (flush0_2 _).mpr (by show ((i 0).val / 1024 * 8 + 7) % 8 = 7; omega), ?_⟩
  rw [mem_blk_out]
  intro a
  obtain ⟨e0, e1, e2, e3, e4, e5, e6⟩ := idx_facts ⟨(i 0).val / 1024 * 8 + 7, hlt⟩
  dsimp only at e4
  match a with
  | ⟨0, _⟩ =>
    show win0_2.index ⟨(i 0).val / 1024 * 8 + 7, hlt⟩ (0 : Fin 1) * 1024 ≤ (i 0).val ∧ (i 0).val < win0_2.index ⟨(i 0).val / 1024 * 8 + 7, hlt⟩ (0 : Fin 1) * 1024 + 1024
    omega

/-- THE DENOMINATORS ARRAY after the run. -/
theorem denoms_final (c : Dev nD) : (dats m 0 c).arrAt 2 cfg0.N = denomArr m c :=
  (dats m 0 c).arrAt_eq_of_cover 2 (denomArr m c) (fun t hf => flushed_eq m c t hf) cover_out

/-- The host lines after the region, run from the exit contents, leave the loss in the result buffer. -/
theorem result_value (c : Dev nD) :
    StableHlo.after (List.flatten [hostOps1]) (VN m c) (Proc.devRef .tc main_v29) = fun _ => loss (argA m c) (argB m c) :=
  tail_loss (VN m c) (argA m c) (argB m c) (denomArr m c)
    ((VN_of_ne m c main_v7 (by decide)).trans (head_after_v7 (fun b => m (c, b))))
    ((VN_of_ne m c main_v15 (by decide)).trans (head_after_v15 (fun b => m (c, b))))
    ((VN_out m c).trans (denoms_final m c))
    (fun r => rfl)

/-- THE KERNEL PROGRAM'S RUN, READ: the result buffer ends at the loss of the two argument arrays, which end as launched. -/
theorem run : θ_run defs (onTc (τ := τ) (main (F := Ideal))) ⟨m, fun _ => 0, ρ⟩ (fun r => ∀ c : Dev nD,
      r.2.mem ((c.tc : Thread nD τ).loc main_v29) = (fun _ => loss (argA m c) (argB m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v29 result_rest).trans (result_value m c),
      ((h c).2 main_arg0 arg0_rest).trans (kept_arg0 m c), ((h c).2 main_arg1 arg1_rest).trans (kept_arg1 m c)⟩)
    (run_main m ρ)

end Cert.KernelIdeal.DenomValue

end
-- ==== Proof.RefFold.lean ====
/-
  The reference's 95 host lines evaluated in ten consecutive stretches.

  The value of the last line's buffer after all lines, from any starting contents `W`, is the last stage of the
  stage-by-stage reading of the program at `W`'s two argument arrays. Each stretch is run over ARBITRARY incoming
  contents `V`, and says what the buffers still read later hold, given what the buffers it reads held: the stacked
  rows; the similarity matrix; the two columns of row numbers (n, n + 4096) and the entries gathered there; the two
  columns (n + 4096, n) and the entries gathered there; the numerators; the mask; the denominators; the loss. A
  stretch leaves alone every buffer it does not write. A stretch ends right before a line that joins two arrays
  computed in it, so that the joined arrays are read as buffers, never as unevaluated lines. Nothing larger than one
  stretch's lines is ever compared at once.
-/
import proofs.«165202_j28097676050918_1_alg».proof.Proof.RefRunP
import proofs.«165202_j28097676050918_1_alg».proof.Proof.RefStages

set_option maxRecDepth 8192

noncomputable section

namespace Cert.RefLoss

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Lines run one list after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

section Stretches

variable (V : Valuation τ sig (Elt F)) (x0 x1 : (⟨S4096x128, .f32⟩ : BufTy).Contents (Elt F))

/-- Lines 0–20: the stacked unit rows, from the two argument arrays. -/
theorem rows_stretch (h0 : V (Proc.devRef .tc main_arg0) = x0) (h1 : V (Proc.devRef .tc main_arg1) = x1) :
    after (ops1 (F := F)) V (Proc.devRef .tc main_v16) = val_main_v16 x0 x1 := by
  subst h0 h1
  after_results_simp <;> rfl

/-- Lines 21–22: the similarity matrix, from the stacked rows. -/
theorem gram_stretch (h16 : V (Proc.devRef .tc main_v16) = val_main_v16 x0 x1) :
    after (ops2 (F := F)) V (Proc.devRef .tc main_v18) = val_main_v18 x0 x1 := by
  after_results_simp
  rw [h16]; rfl

/-- Lines 23–42: the row numbers n, and the two columns n and n + 4096 (each wrapped if negative, which it never is). -/
theorem words1_rows : after (ops3a (F := F)) V (Proc.devRef .tc main_v19) = val_main_v19 (F := F) := by
  after_results_simp <;> rfl
theorem words1_fst : after (ops3a (F := F)) V (Proc.devRef .tc main_v32) = val_main_v32 (F := F) := by
  after_results_simp <;> rfl
theorem words1_snd : after (ops3a (F := F)) V (Proc.devRef .tc main_v33) = val_main_v33 (F := F) := by
  after_results_simp <;> rfl
theorem words1_keeps18 : after (ops3a (F := F)) V (Proc.devRef .tc main_v18) = V (Proc.devRef .tc main_v18) := by
  after_results_simp <;> rfl

/-- Lines 43–44: the entries of the matrix gathered at (n, n + 4096). -/
theorem diag1_stretch (h18 : V (Proc.devRef .tc main_v18) = val_main_v18 x0 x1)
    (h32 : V (Proc.devRef .tc main_v32) = val_main_v32 (F := F)) (h33 : V (Proc.devRef .tc main_v33) = val_main_v33 (F := F)) :
    after (ops3b (F := F)) V (Proc.devRef .tc main_v35) = val_main_v35 x0 x1 := by
  after_results_simp
  rw [h18, h32, h33]; rfl
theorem diag1_keeps18 : after (ops3b (F := F)) V (Proc.devRef .tc main_v18) = V (Proc.devRef .tc main_v18) := by
  after_results_simp <;> rfl
theorem diag1_keeps19 : after (ops3b (F := F)) V (Proc.devRef .tc main_v19) = V (Proc.devRef .tc main_v19) := by
  after_results_simp <;> rfl

/-- Lines 45–63: the two columns n + 4096 and n. -/
theorem words2_fst (h19 : V (Proc.devRef .tc main_v19) = val_main_v19 (F := F)) :
    after (ops4a (F := F)) V (Proc.devRef .tc main_v48) = val_main_v48 (F := F) := by
  after_results_simp
  rw [h19]; rfl
theorem words2_snd (h19 : V (Proc.devRef .tc main_v19) = val_main_v19 (F := F)) :
    after (ops4a (F := F)) V (Proc.devRef .tc main_v49) = val_main_v49 (F := F) := by
  after_results_simp
  rw [h19]; rfl
theorem words2_keeps18 : after (ops4a (F := F)) V (Proc.devRef .tc main_v18) = V (Proc.devRef .tc main_v18) := by
  after_results_simp <;> rfl
theorem words2_keeps35 : after (ops4a (F := F)) V (Proc.devRef .tc main_v35) = V (Proc.devRef .tc main_v35) := by
  after_results_simp <;> rfl

/-- Lines 64–65: the entries gathered at (n + 4096, n). -/
theorem diag2_stretch (h18 : V (Proc.devRef .tc main_v18) = val_main_v18 x0 x1)
    (h48 : V (Proc.devRef .tc main_v48) = val_main_v48 (F := F)) (h49 : V (Proc.devRef .tc main_v49) = val_main_v49 (F := F)) :
    after (ops4b (F := F)) V (Proc.devRef .tc main_v51) = val_main_v51 x0 x1 := by
  after_results_simp
  rw [h18, h48, h49]; rfl
theorem diag2_keeps18 : after (ops4b (F := F)) V (Proc.devRef .tc main_v18) = V (Proc.devRef .tc main_v18) := by
  after_results_simp <;> rfl
theorem diag2_keeps35 : after (ops4b (F := F)) V (Proc.devRef .tc main_v35) = V (Proc.devRef .tc main_v35) := by
  after_results_simp <;> rfl

/-- Lines 66–70: the numerators. -/
theorem numer_stretch (h35 : V (Proc.devRef .tc main_v35) = val_main_v35 x0 x1) (h51 : V (Proc.devRef .tc main_v51) = val_main_v51 x0 x1) :
    after (ops5 (F := F)) V (Proc.devRef .tc main_v55) = val_main_v55 x0 x1 := by
  after_results_simp
  rw [h35, h51]; rfl
theorem numer_keeps18 : after (ops5 (F := F)) V (Proc.devRef .tc main_v18) = V (Proc.devRef .tc main_v18) := by
  after_results_simp <;> rfl

/-- Lines 71–80: the mask, one minus the identity. -/
theorem mask_stretch : after (ops6 (F := F)) V (Proc.devRef .tc main_v63) = val_main_v63 (F := F) := by
  after_results_simp <;> rfl
theorem mask_keeps18 : after (ops6 (F := F)) V (Proc.devRef .tc main_v18) = V (Proc.devRef .tc main_v18) := by
  after_results_simp <;> rfl
theorem mask_keeps55 : after (ops6 (F := F)) V (Proc.devRef .tc main_v55) = V (Proc.devRef .tc main_v55) := by
  after_results_simp <;> rfl

/-- Lines 81–87: the denominators. -/
theorem denom_stretch (h18 : V (Proc.devRef .tc main_v18) = val_main_v18 x0 x1) (h63 : V (Proc.devRef .tc main_v63) = val_main_v63 (F := F)) :
    after (ops7 (F := F)) V (Proc.devRef .tc main_v68) = val_main_v68 x0 x1 := by
  after_results_simp
  rw [h18, h63]; rfl
theorem denom_keeps55 : after (ops7 (F := F)) V (Proc.devRef .tc main_v55) = V (Proc.devRef .tc main_v55) := by
  after_results_simp <;> rfl

/-- Lines 88–94: the loss. -/
theorem loss_stretch (h55 : V (Proc.devRef .tc main_v55) = val_main_v55 x0 x1) (h68 : V (Proc.devRef .tc main_v68) = val_main_v68 x0 x1) :
    after (ops8 (F := F)) V (Proc.devRef .tc main_v73) = val_main_v73 x0 x1 := by
  after_results_simp
  rw [h55, h68]; rfl

end Stretches

/-- ALL THE LINES: from any starting contents, the last line's buffer ends at the last stage of the two argument arrays. -/
theorem fold_eq (W : Valuation τ sig (Elt F)) (x0 x1 : (⟨S4096x128, .f32⟩ : BufTy).Contents (Elt F))
    (h0 : W (Proc.devRef .tc main_arg0) = x0) (h1 : W (Proc.devRef .tc main_arg1) = x1) :
    after (ops (F := F)) W (Proc.devRef .tc main_v73) = val_main_v73 x0 x1 := by
  rw [ops_split']
  simp only [after_append]
  -- the contents after each stretch
  generalize hV1 : after (ops1 (F := F)) W = V1
  generalize hV2 : after (ops2 (F := F)) V1 = V2
  generalize hV3a : after (ops3a (F := F)) V2 = V3a
  generalize hV3b : after (ops3b (F := F)) V3a = V3b
  generalize hV4a : after (ops4a (F := F)) V3b = V4a
  generalize hV4b : after (ops4b (F := F)) V4a = V4b
  generalize hV5 : after (ops5 (F := F)) V4b = V5
  generalize hV6 : after (ops6 (F := F)) V5 = V6
  generalize hV7 : after (ops7 (F := F)) V6 = V7
  have e16 : V1 (Proc.devRef .tc main_v16) = val_main_v16 x0 x1 := hV1 ▸ rows_stretch W x0 x1 h0 h1
  have e18 : V2 (Proc.devRef .tc main_v18) = val_main_v18 x0 x1 := hV2 ▸ gram_stretch V1 x0 x1 e16
  have a19 : V3a (Proc.devRef .tc main_v19) = val_main_v19 (F := F) := hV3a ▸ words1_rows V2
  have a32 : V3a (Proc.devRef .tc main_v32) = val_main_v32 (F := F) := hV3a ▸ words1_fst V2
  have a33 : V3a (Proc.devRef .tc main_v33) = val_main_v33 (F := F) := hV3a ▸ words1_snd V2
  have a18 : V3a (Proc.devRef .tc main_v18) = val_main_v18 x0 x1 := hV3a ▸ (words1_keeps18 V2).trans e18
  have b35 : V3b (Proc.devRef .tc main_v35) = val_main_v35 x0 x1 := hV3b ▸ diag1_stretch V3a x0 x1 a18 a32 a33
  have b18 : V3b (Proc.devRef .tc main_v18) = val_main_v18 x0 x1 := hV3b ▸ (diag1_keeps18 V3a).trans a18
  have b19 : V3b (Proc.devRef .tc main_v19) = val_main_v19 (F := F) := hV3b ▸ (diag1_keeps19 V3a).trans a19
  have c48 : V4a (Proc.devRef .tc main_v48) = val_main_v48 (F := F) := hV4a ▸ words2_fst V3b b19
  have c49 : V4a (Proc.devRef .tc main_v49) = val_main_v49 (F := F) := hV4a ▸ words2_snd V3b b19
  have c18 : V4a (Proc.devRef .tc main_v18) = val_main_v18 x0 x1 := hV4a ▸ (words2_keeps18 V3b).trans b18
  have c35 : V4a (Proc.devRef .tc main_v35) = val_main_v35 x0 x1 := hV4a ▸ (words2_keeps35 V3b).trans b35
  have d51 : V4b (Proc.devRef .tc main_v51) = val_main_v51 x0 x1 := hV4b ▸ diag2_stretch V4a x0 x1 c18 c48 c49
  have d18 : V4b (Proc.devRef .tc main_v18) = val_main_v18 x0 x1 := hV4b ▸ (diag2_keeps18 V4a).trans c18
  have d35 : V4b (Proc.devRef .tc main_v35) = val_main_v35 x0 x1 := hV4b ▸ (diag2_keeps35 V4a).trans c35
  have e55 : V5 (Proc.devRef .tc main_v55) = val_main_v55 x0 x1 := hV5 ▸ numer_stretch V4b x0 x1 d35 d51
  have f18 : V5 (Proc.devRef .tc main_v18) = val_main_v18 x0 x1 := hV5 ▸ (numer_keeps18 V4b).trans d18
  have g63 : V6 (Proc.devRef .tc main_v63) = val_main_v63 (F := F) := hV6 ▸ mask_stretch V5
  have g18 : V6 (Proc.devRef .tc main_v18) = val_main_v18 x0 x1 := hV6 ▸ (mask_keeps18 V5).trans f18
  have g55 : V6 (Proc.devRef .tc main_v55) = val_main_v55 x0 x1 := hV6 ▸ (mask_keeps55 V5).trans e55
  have h68 : V7 (Proc.devRef .tc main_v68) = val_main_v68 x0 x1 := hV7 ▸ denom_stretch V6 x0 x1 g18 g63
  have h55 : V7 (Proc.devRef .tc main_v55) = val_main_v55 x0 x1 := hV7 ▸ (denom_keeps55 V6).trans g55
  exact loss_stretch V7 x0 x1 h55 h68

end Cert.RefLoss

end
-- ==== Proof.LibPairGather.lean ====
/-
  A gather of single elements of a matrix at (row, column) pairs, read at an index.

  Picking one element of a matrix `x : [N, M]` per entry of a list of `E` (row, column) pairs — a diagonal of the
  matrix is the case where the pairs are (e, e + k) — is the gather whose start indices have shape `[E, 2]` (row `e`
  holds the pair), with offset_dims `[]`, collapsed_slice_dims `[0, 1]`, start_index_map `[0, 1]`,
  index_vector_dim `1` and slice_sizes `[1, 1]`. Every slice is a single element, there are no batching axes and no
  offset axes, so result entry `e` is the operand at (row, column) = (idx[e, 0], idx[e, 1]), each component read as a
  signed integer and clamped into `[0, N − 1]`, respectively `[0, M − 1]`, as the gather clamps every start index.
-/
import Idealize.ShloMosaic.Lib.ValueIdx

namespace Cert.PairGather

open Idealize.ShloMosaic Idealize.ShloMosaic.ValueIdx

variable {α : Type}

/-- Those dimension numbers for an operand `[N, M]`, start indices `[E, 2]` and result `[E]`; their conditions `wf`
    are decided on a program's literal shapes. -/
abbrev pairDims (N M E : Nat)
    (wf : GatherDims.WF ⟨2, ![N, M]⟩ ⟨2, ![E, 2]⟩ ⟨1, ![E]⟩ [] [0, 1] [] [0, 1] [] 1 ![1, 1]) :
    GatherDims ⟨2, ![N, M]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- THE GATHER READ AT ENTRY `e`: the operand at the row `idx[e, 0]` and the column `idx[e, 1]`, each read signed and
    clamped into the operand's extent on its axis. -/
theorem gather_pair_apply {N M E w : Nat} (hN : 0 < N) (hM : 0 < M)
    (wf : GatherDims.WF ⟨2, ![N, M]⟩ ⟨2, ![E, 2]⟩ ⟨1, ![E]⟩ [] [0, 1] [] [0, 1] [] 1 ![1, 1])
    (x : (⟨2, ![N, M]⟩ : Shape).Idx → α) (idx : IVec ⟨2, ![E, 2]⟩ w) (e : Fin E) :
    Host.gather (pairDims N M E wf) x idx (ix1 e) =
      x (ix2 (⟨min (idx (ix2 e (0 : Fin 2))).toInt.toNat (N - 1), by omega⟩ : Fin N)
             (⟨min (idx (ix2 e (1 : Fin 2))).toInt.toNat (M - 1), by omega⟩ : Fin M)) := by
  unfold Host.gather
  congr 1
  funext a
  refine Fin.ext ?_
  match a with
  | ⟨0, _⟩ =>
    show (pairDims N M E wf).start (ix1 e) idx 0 + (pairDims N M E wf).batchCoord (ix1 e) 0
      + (pairDims N M E wf).offCoord (ix1 e) 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (0 : Fin 2) ∈ (pairDims N M E wf).startIndexMap from by simp)]
    have hsi : (pairDims N M E wf).siIdx (ix1 e) ⟨List.idxOf (0 : Fin 2) (pairDims N M E wf).startIndexMap,
        List.idxOf_lt_length_iff.2 (by simp)⟩ = ix2 e (0 : Fin 2) := by
      funext b; refine Fin.ext ?_
      match b with
      | ⟨0, _⟩ => rfl
      | ⟨1, _⟩ => rfl
    rw [hsi]
    rfl
  | ⟨1, _⟩ =>
    show (pairDims N M E wf).start (ix1 e) idx 1 + (pairDims N M E wf).batchCoord (ix1 e) 1
      + (pairDims N M E wf).offCoord (ix1 e) 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (1 : Fin 2) ∈ (pairDims N M E wf).startIndexMap from by simp)]
    have hsi : (pairDims N M E wf).siIdx (ix1 e) ⟨List.idxOf (1 : Fin 2) (pairDims N M E wf).startIndexMap,
        List.idxOf_lt_length_iff.2 (by simp)⟩ = ix2 e (1 : Fin 2) := by
      funext b; refine Fin.ext ?_
      match b with
      | ⟨0, _⟩ => rfl
      | ⟨1, _⟩ => rfl
    rw [hsi]
    rfl

end Cert.PairGather
-- ==== Proof.RefConsts.lean ====
/-
  The three float constants the reference loss spells besides zero — one half, two and one — as the extended reals
  their words denote, and the two laws of the extended reals that the temperature and the diagonal mask rest on:

  • dividing ANY extended real by one half is multiplying it by two (the infinities included: a real non-zero divisor
    is multiplication by its reciprocal);
  • the mask entry `1 − [r = c]`, where the bracket is the comparison's bit read as the number 0 or 1, times ANY
    extended real `e`, is `0` on the diagonal and `e` off it (`0 · e = 0` and `1 · e = e` hold for every extended real).
-/
import Idealize.ShloMosaic.PureOps.Ideal
import Idealize.ShloMosaic.PureOps.Ideal.Laws

noncomputable section

namespace Cert.RefLoss

open Idealize.ShloMosaic

/-- The word `0x3F000000` denotes one half. -/
theorem ofBits_half : Ideal.ofBits .f32 0x3F000000#32 = ((0.5 : ℝ) : EReal) := by
  simp [Ideal.ofBits, Ideal.ieee, -EReal.coe_mul]; norm_num

/-- The word `0x40000000` denotes two. -/
theorem ofBits_two : Ideal.ofBits .f32 0x40000000#32 = ((2 : ℝ) : EReal) := by
  simp [Ideal.ofBits, Ideal.ieee, -EReal.coe_mul]; norm_num

/-- The word `0x3F800000` denotes one. -/
theorem ofBits_one : Ideal.ofBits .f32 0x3F800000#32 = 1 := by
  simp [Ideal.ofBits, Ideal.ieee, -EReal.coe_mul]; norm_num

/-- Dividing by one half is multiplying by two, for every extended real. -/
theorem div_half (x : EReal) :
    Ideal.div x (Ideal.ofBits .f32 0x3F000000#32) = x * Ideal.ofBits .f32 0x40000000#32 := by
  rw [ofBits_half, ofBits_two, Ideal.div_coe (by norm_num)]
  norm_num

/-- One minus a truth value read as a number, times any extended real: nothing where the truth value holds, the
    factor itself where it does not. -/
theorem mask_mul (t : Bool) (e : EReal) :
    (Ideal.ofBits .f32 0x3F800000#32 - ((((BitVec.ofBool t).toNat : ℕ) : ℝ) : EReal)) * e = if t = true then 0 else e := by
  rw [ofBits_one]
  have h11 : (1 : EReal) - 1 = 0 := by
    rw [← EReal.coe_one, ← EReal.coe_sub, sub_self, EReal.coe_zero]
  cases t
  · simp
  · simp [h11]

end Cert.RefLoss

end
-- ==== Proof.RefIndexWords.lean ====
/-
  The integer words the reference's two gathers are fed: the pair index `n` (an iota below 4096) and `n + 4096`, as
  32-bit words. Both are far below 2^31, so read signed they are the numbers themselves, the comparison "is it
  negative" answers no, the select that would add 8192 to a negative index keeps the word, and clamping the number into
  `[0, 8191]` changes nothing.
-/
import Idealize.ShloMosaic.Lib.ValueIdx
import Idealize.ShloMosaic.Lib.Affine

namespace Cert.RefLoss

open Idealize.ShloMosaic Idealize.ShloMosaic.ValueIdx

/-- A 32-bit word whose unsigned value is below 2^31 has that value when read signed. -/
theorem toInt_small (v : BitVec 32) (m : Nat) (hv : v.toNat = m) (hm : m < 2147483648) : v.toInt = (m : Int) := by
  rw [BitVec.toInt_eq_toNat_cond, hv]
  split
  · rfl
  · rename_i h; exfalso; apply h; omega

/-- Such a word is not negative: the signed comparison with zero answers the zero bit. -/
theorem slt_zero_small (v : BitVec 32) (m : Nat) (hv : v.toNat = m) (hm : m < 2147483648) :
    IntOp.cmpi .slt v 0#32 = 0#1 := by
  refine eq_zero_of_ne_one fun h => ?_
  have h1 := IntOp.cmpi_slt.mp h
  rw [toInt_small v m hv hm] at h1
  have h0 : (0#32 : BitVec 32).toInt = 0 := by decide
  rw [h0] at h1
  omega

/-- The select "if the index is negative take the wrapped one" keeps such a word. -/
theorem wrap_small (v w : BitVec 32) (m : Nat) (hv : v.toNat = m) (hm : m < 2147483648) :
    Scalar.select (IntOp.cmpi .slt v 0#32) w v = v := by
  rw [slt_zero_small v m hv hm, select_zero]

/-- Clamping such a word, read signed, into `[0, N - 1]` gives its value when that is below `N`. -/
theorem clamp_small (v : BitVec 32) (m N : Nat) (hv : v.toNat = m) (hm : m < 2147483648) (hN : m < N) :
    min v.toInt.toNat (N - 1) = m := by
  rw [toInt_small v m hv hm, Int.toNat_natCast]
  omega

/-- The iota word at `n < 4096` has value `n`. -/
theorem iota_toNat (n : Fin 4096) : (BitVec.ofNat 32 n.val).toNat = n.val := by
  rw [BitVec.toNat_ofNat]
  have := n.isLt
  omega

/-- The iota word at `n < 4096` plus the word 4096 has value `n + 4096`. -/
theorem iota_add_toNat (n : Fin 4096) : (IntOp.addi (BitVec.ofNat 32 n.val) 4096#32).toNat = n.val + 4096 := by
  unfold IntOp.addi
  rw [BitVec.toNat_add, BitVec.toNat_ofNat]
  have := n.isLt
  have h4 : (4096#32 : BitVec 32).toNat = 4096 := by decide
  rw [h4]
  omega

end Cert.RefLoss
-- ==== Proof.RefRows.lean ====
/-
  The reference's first eighteen stages, read at coordinates.

  • Each argument array, divided entry by entry by its row's floored length — the row's sum of squares (a sum started
    at zero), its square root kept as a column, the larger of that and the floor, the column spread back over the 128
    entries — is, at row `r` and entry `k`, entry `k` of the unit row of row `r`.
  • The two arrays of unit rows joined along the rows are the 8192 stacked unit rows: a row below 4096 is a row of the
    first argument, a row from 4096 on is a row of the second.
  • The product of the stacked rows with their own transpose is, at `(r, c)`, the scalar product of stacked rows `r`
    and `c`.
-/
import proofs.«165202_j28097676050918_1_alg».proof.Proof.RefStages
import proofs.«165202_j28097676050918_1_alg».proof.Proof.Contrastive

noncomputable section

namespace Cert.RefLoss

open Cert.ReferenceIdeal Cert.ReferenceIdeal.Gen Cert.ReferenceIdeal.ReadP Cert.Contrastive
open Idealize.ShloMosaic Idealize.ShloMosaic.ValueIdx

/-- The first argument over its floored row lengths: entry `k` of the unit row of row `r`. -/
theorem unit_rows_fst (a : E4096x128.Idx → EReal) (r : Fin 4096) (k : Fin 128) :
    val_main_v7 (F := Ideal) a (ix2 r k) = unitRow (rowOf a r) k := by
  have e1 : ∀ j : Fin 128, idx_main_v1 (idx_main_v2 (idx_main_v6 (ix2 r k))) j = ix2 r j := fun j =>
    funext fun d => Fin.ext (by match d with | ⟨0, _⟩ => rfl | ⟨1, _⟩ => rfl)
  rw [val_main_v7_apply, val_main_v6_apply, val_main_v5_apply, val_main_v3_apply, val_main_v2_apply,
    val_main_v1_apply, val_main_v4_apply, val_main_cst_0_apply, val_main_cst_apply]
  simp only [val_main_v0_apply, e1, Ideal.hostDivf_def, Ideal.maximumf_def, Ideal.hostUnary_sqrt_def,
    Ideal.mulf_def, Ideal.ofBits_def, Ideal.ofBits_zero_f32, zero_add]
  rfl

/-- The second argument over its floored row lengths, likewise. -/
theorem unit_rows_snd (b : E4096x128.Idx → EReal) (r : Fin 4096) (k : Fin 128) :
    val_main_v15 (F := Ideal) b (ix2 r k) = unitRow (rowOf b r) k := by
  have e1 : ∀ j : Fin 128, idx_main_v9 (idx_main_v10 (idx_main_v14 (ix2 r k))) j = ix2 r j := fun j =>
    funext fun d => Fin.ext (by match d with | ⟨0, _⟩ => rfl | ⟨1, _⟩ => rfl)
  rw [val_main_v15_apply, val_main_v14_apply, val_main_v13_apply, val_main_v11_apply, val_main_v10_apply,
    val_main_v9_apply, val_main_v12_apply, val_main_cst_2_apply, val_main_cst_1_apply]
  simp only [val_main_v8_apply, e1, Ideal.hostDivf_def, Ideal.maximumf_def, Ideal.hostUnary_sqrt_def,
    Ideal.mulf_def, Ideal.ofBits_def, Ideal.ofBits_zero_f32, zero_add]
  rfl

/-- The joined array at row `r`, entry `k`: entry `k` of stacked unit row `r`. -/
theorem stacked_rows (a b : E4096x128.Idx → EReal) (r : Fin 8192) (k : Fin 128) :
    val_main_v16 (F := Ideal) a b (ix2 r k) = rep a b r k := by
  unfold val_main_v16 rep
  by_cases h : r.val < 4096
  · rw [dif_pos h, ← unit_rows_fst a ⟨r.val, h⟩ k]
    exact concatenate_pair_apply_left (s₁ := S4096x128) (s₂ := S4096x128) _ _ _ _ (ix2 r k) rfl (ix2 (⟨r.val, h⟩ : Fin 4096) k) (fun d => by
      match d with
      | ⟨0, _⟩ => rfl
      | ⟨1, _⟩ => rfl)
  · rw [dif_neg h, ← unit_rows_snd b ⟨r.val - 4096, by omega⟩ k]
    exact concatenate_pair_apply_right (s₁ := S4096x128) (s₂ := S4096x128) _ _ _ _ (ix2 r k) rfl rfl (ix2 (⟨r.val - 4096, by omega⟩ : Fin 4096) k)
      (fun d => by
        match d with
        | ⟨0, _⟩ => exact fun hd => absurd rfl hd
        | ⟨1, _⟩ => exact fun _ => rfl)
      (by show r.val - 4096 + 4096 = r.val; omega)

/-- The product of the stacked rows with their transpose at `(r, c)`: the scalar product of rows `r` and `c`. -/
theorem similarity (a b : E4096x128.Idx → EReal) (r c : Fin 8192) :
    val_main_v18 (F := Ideal) a b (ix2 r c) = dotRows (rep a b r) (rep a b c) := by
  rw [val_main_v18_apply]
  unfold dotRows
  refine Finset.sum_congr rfl fun k _ => ?_
  have el : lidx_main_v18 (ix2 r c) k = ix2 r k :=
    funext fun d => Fin.ext (by match d with | ⟨0, _⟩ => rfl | ⟨1, _⟩ => rfl)
  have er : idx_main_v17 (ridx_main_v18 (ix2 r c) k) = ix2 c k :=
    funext fun d => Fin.ext (by match d with | ⟨0, _⟩ => rfl | ⟨1, _⟩ => rfl)
  rw [val_main_v17_apply, el, er, stacked_rows, stacked_rows]

end Cert.RefLoss

end
-- ==== Proof.RefPairs.lean ====
/-
  The reference's numerators. The two gathers pick, out of the 8192 × 8192 array of scalar products, the entries
  `(n, n + 4096)` and `(n + 4096, n)` for each pair `n` below 4096: their (row, column) index words are the iota `n`
  and `n` plus the word 4096, each passed through a select that would wrap a negative index and never does. Joined,
  the 8192 picked entries are, at row `r`, the scalar product of the two unit rows of pair `r mod 4096` (the second
  half has the factors in the other order: multiplication of extended reals commutes under the sum). Divided by one
  half and exponentiated, that is row `r`'s numerator.
-/
import proofs.«165202_j28097676050918_1_alg».proof.Proof.RefStages
import proofs.«165202_j28097676050918_1_alg».proof.Proof.Contrastive
import proofs.«165202_j28097676050918_1_alg».proof.Proof.LibPairGather
import proofs.«165202_j28097676050918_1_alg».proof.Proof.RefConsts
import proofs.«165202_j28097676050918_1_alg».proof.Proof.RefIndexWords
import proofs.«165202_j28097676050918_1_alg».proof.Proof.RefRows

noncomputable section

namespace Cert.RefLoss

open Cert.ReferenceIdeal Cert.ReferenceIdeal.Gen Cert.ReferenceIdeal.ReadP Cert.Contrastive
open Idealize.ShloMosaic Idealize.ShloMosaic.ValueIdx

/-! ## The index words -/

/-- First gather, row word of pair `n`: the iota word `n`. -/
theorem fst_row_word (n : Fin 4096) : val_main_v34 (F := Ideal) (ix2 n (0 : Fin 2)) = BitVec.ofNat 32 n.val := by
  have key : val_main_v34 (F := Ideal) (ix2 n (0 : Fin 2)) = val_main_v32 (F := Ideal) (ix2 n (0 : Fin 1)) := by
    unfold val_main_v34
    exact concatenate_pair_apply_left (s₁ := S4096x1) (s₂ := S4096x1) _ _ _ _ (ix2 n (0 : Fin 2)) rfl (ix2 n (0 : Fin 1)) (fun d => by
      match d with
      | ⟨0, _⟩ => rfl
      | ⟨1, _⟩ => rfl)
  rw [key, val_main_v32_apply, val_main_v26_apply, val_main_v23_apply, val_main_v22_apply, val_main_c_3_apply,
    val_main_v19_apply]
  exact wrap_small _ _ n.val (iota_toNat n) (by have := n.isLt; omega)

/-- First gather, column word of pair `n`: the iota word plus the word 4096. -/
theorem fst_col_word (n : Fin 4096) :
    val_main_v34 (F := Ideal) (ix2 n (1 : Fin 2)) = IntOp.addi (BitVec.ofNat 32 n.val) 4096#32 := by
  have key : val_main_v34 (F := Ideal) (ix2 n (1 : Fin 2)) = val_main_v33 (F := Ideal) (ix2 n (0 : Fin 1)) := by
    unfold val_main_v34
    exact concatenate_pair_apply_right (s₁ := S4096x1) (s₂ := S4096x1) _ _ _ _ (ix2 n (1 : Fin 2)) rfl rfl (ix2 n (0 : Fin 1)) (fun d => by
      match d with
      | ⟨0, _⟩ => exact fun _ => rfl
      | ⟨1, _⟩ => exact fun hd => absurd rfl hd) rfl
  rw [key, val_main_v33_apply, val_main_v31_apply, val_main_v28_apply, val_main_v27_apply, val_main_c_5_apply,
    val_main_v21_apply, val_main_v20_apply, val_main_c_apply, val_main_v19_apply]
  exact wrap_small _ _ (n.val + 4096) (iota_add_toNat n) (by have := n.isLt; omega)

/-- Second gather, row word of pair `n`: the iota word plus the word 4096. -/
theorem snd_row_word (n : Fin 4096) :
    val_main_v50 (F := Ideal) (ix2 n (0 : Fin 2)) = IntOp.addi (BitVec.ofNat 32 n.val) 4096#32 := by
  have key : val_main_v50 (F := Ideal) (ix2 n (0 : Fin 2)) = val_main_v48 (F := Ideal) (ix2 n (0 : Fin 1)) := by
    unfold val_main_v50
    exact concatenate_pair_apply_left (s₁ := S4096x1) (s₂ := S4096x1) _ _ _ _ (ix2 n (0 : Fin 2)) rfl (ix2 n (0 : Fin 1)) (fun d => by
      match d with
      | ⟨0, _⟩ => rfl
      | ⟨1, _⟩ => rfl)
  rw [key, val_main_v48_apply, val_main_v42_apply, val_main_v39_apply, val_main_v38_apply, val_main_c_8_apply,
    val_main_v37_apply, val_main_v36_apply, val_main_c_7_apply, val_main_v19_apply]
  exact wrap_small _ _ (n.val + 4096) (iota_add_toNat n) (by have := n.isLt; omega)

/-- Second gather, column word of pair `n`: the iota word `n`. -/
theorem snd_col_word (n : Fin 4096) : val_main_v50 (F := Ideal) (ix2 n (1 : Fin 2)) = BitVec.ofNat 32 n.val := by
  have key : val_main_v50 (F := Ideal) (ix2 n (1 : Fin 2)) = val_main_v49 (F := Ideal) (ix2 n (0 : Fin 1)) := by
    unfold val_main_v50
    exact concatenate_pair_apply_right (s₁ := S4096x1) (s₂ := S4096x1) _ _ _ _ (ix2 n (1 : Fin 2)) rfl rfl (ix2 n (0 : Fin 1)) (fun d => by
      match d with
      | ⟨0, _⟩ => exact fun _ => rfl
      | ⟨1, _⟩ => exact fun hd => absurd rfl hd) rfl
  rw [key, val_main_v49_apply, val_main_v47_apply, val_main_v44_apply, val_main_v43_apply, val_main_c_10_apply,
    val_main_v19_apply]
  exact wrap_small _ _ n.val (iota_toNat n) (by have := n.isLt; omega)

/-! ## The picked entries -/

/-- Stacked row `n` below 4096 is the unit row of the first argument's row `n`. -/
theorem rep_fst (a b : E4096x128.Idx → EReal) (n : Fin 4096) (h : n.val < 8192) :
    rep a b ⟨n.val, h⟩ = unitRow (rowOf a n) := by
  unfold rep
  rw [dif_pos (show (⟨n.val, h⟩ : Fin 8192).val < 4096 from n.isLt)]

/-- Stacked row `n + 4096` is the unit row of the second argument's row `n`. -/
theorem rep_snd (a b : E4096x128.Idx → EReal) (n : Fin 4096) (h : n.val + 4096 < 8192) :
    rep a b ⟨n.val + 4096, h⟩ = unitRow (rowOf b n) := by
  unfold rep
  rw [dif_neg (show ¬ (⟨n.val + 4096, h⟩ : Fin 8192).val < 4096 from Nat.not_lt.2 (Nat.le_add_left _ _))]
  have e : (⟨(⟨n.val + 4096, h⟩ : Fin 8192).val - 4096, by show n.val + 4096 - 4096 < 4096; have := n.isLt; omega⟩ : Fin 4096) = n :=
    Fin.ext (by show n.val + 4096 - 4096 = n.val; omega)
  rw [e]

/-- The first gather at pair `n`: the scalar product of the pair's two unit rows. -/
theorem picked_fst (a b : E4096x128.Idx → EReal) (n : Fin 4096) :
    val_main_v35 (F := Ideal) a b (ix1 n) = dotRows (unitRow (rowOf a n)) (unitRow (rowOf b n)) := by
  have hn := n.isLt
  unfold val_main_v35
  show Host.gather (Cert.PairGather.pairDims 8192 8192 4096 gather_S8192x8192_S4096x2_S4096_n_01_n_n_01_1_11_wf)
    (val_main_v18 (F := Ideal) a b) (val_main_v34 (F := Ideal)) (ix1 n) = _
  rw [Cert.PairGather.gather_pair_apply (by decide) (by decide)]
  have e0 : (⟨min (val_main_v34 (F := Ideal) (ix2 n (0 : Fin 2))).toInt.toNat (8192 - 1), by omega⟩ : Fin 8192)
      = ⟨n.val, by omega⟩ := Fin.ext (by
    show min (val_main_v34 (F := Ideal) (ix2 n (0 : Fin 2))).toInt.toNat (8192 - 1) = n.val
    rw [fst_row_word]; exact clamp_small _ n.val 8192 (iota_toNat n) (by omega) (by omega))
  have e1 : (⟨min (val_main_v34 (F := Ideal) (ix2 n (1 : Fin 2))).toInt.toNat (8192 - 1), by omega⟩ : Fin 8192)
      = ⟨n.val + 4096, by omega⟩ := Fin.ext (by
    show min (val_main_v34 (F := Ideal) (ix2 n (1 : Fin 2))).toInt.toNat (8192 - 1) = n.val + 4096
    rw [fst_col_word]; exact clamp_small _ (n.val + 4096) 8192 (iota_add_toNat n) (by omega) (by omega))
  rw [e0, e1, similarity, rep_fst, rep_snd]

/-- The second gather at pair `n`: the same scalar product, its factors in the other order. -/
theorem picked_snd (a b : E4096x128.Idx → EReal) (n : Fin 4096) :
    val_main_v51 (F := Ideal) a b (ix1 n) = dotRows (unitRow (rowOf a n)) (unitRow (rowOf b n)) := by
  have hn := n.isLt
  unfold val_main_v51
  show Host.gather (Cert.PairGather.pairDims 8192 8192 4096 gather_S8192x8192_S4096x2_S4096_n_01_n_n_01_1_11_wf)
    (val_main_v18 (F := Ideal) a b) (val_main_v50 (F := Ideal)) (ix1 n) = _
  rw [Cert.PairGather.gather_pair_apply (by decide) (by decide)]
  have e0 : (⟨min (val_main_v50 (F := Ideal) (ix2 n (0 : Fin 2))).toInt.toNat (8192 - 1), by omega⟩ : Fin 8192)
      = ⟨n.val + 4096, by omega⟩ := Fin.ext (by
    show min (val_main_v50 (F := Ideal) (ix2 n (0 : Fin 2))).toInt.toNat (8192 - 1) = n.val + 4096
    rw [snd_row_word]; exact clamp_small _ (n.val + 4096) 8192 (iota_add_toNat n) (by omega) (by omega))
  have e1 : (⟨min (val_main_v50 (F := Ideal) (ix2 n (1 : Fin 2))).toInt.toNat (8192 - 1), by omega⟩ : Fin 8192)
      = ⟨n.val, by omega⟩ := Fin.ext (by
    show min (val_main_v50 (F := Ideal) (ix2 n (1 : Fin 2))).toInt.toNat (8192 - 1) = n.val
    rw [snd_col_word]; exact clamp_small _ n.val 8192 (iota_toNat n) (by omega) (by omega))
  rw [e0, e1, similarity, rep_fst, rep_snd]
  unfold dotRows
  exact Finset.sum_congr rfl fun k _ => mul_comm _ _

/-! ## The numerators -/

/-- The joined picked entries at row `r`: the scalar product of the unit rows of pair `r mod 4096`. -/
theorem positives (a b : E4096x128.Idx → EReal) (r : Fin 8192) :
    val_main_v52 (F := Ideal) a b (ix1 r) =
      dotRows (unitRow (rowOf a ⟨r.val % 4096, Nat.mod_lt _ (by norm_num)⟩))
        (unitRow (rowOf b ⟨r.val % 4096, Nat.mod_lt _ (by norm_num)⟩)) := by
  have hr := r.isLt
  unfold val_main_v52
  by_cases h : r.val < 4096
  · have en : (⟨r.val % 4096, Nat.mod_lt _ (by norm_num)⟩ : Fin 4096) = ⟨r.val, h⟩ := Fin.ext (Nat.mod_eq_of_lt h)
    rw [en, ← picked_fst a b ⟨r.val, h⟩]
    exact concatenate_pair_apply_left (s₁ := S4096) (s₂ := S4096) _ _ _ _ (ix1 r) rfl (ix1 (⟨r.val, h⟩ : Fin 4096)) (fun d => by
      match d with
      | ⟨0, _⟩ => rfl)
  · have en : (⟨r.val % 4096, Nat.mod_lt _ (by norm_num)⟩ : Fin 4096) = ⟨r.val - 4096, by omega⟩ :=
      Fin.ext (by show r.val % 4096 = r.val - 4096; omega)
    rw [en, ← picked_snd a b ⟨r.val - 4096, by omega⟩]
    exact concatenate_pair_apply_right (s₁ := S4096) (s₂ := S4096) _ _ _ _ (ix1 r) rfl rfl (ix1 (⟨r.val - 4096, by omega⟩ : Fin 4096))
      (fun d => by
        match d with
        | ⟨0, _⟩ => exact fun hd => absurd rfl hd)
      (by show r.val - 4096 + 4096 = r.val; omega)

/-- Row `r`'s numerator. -/
theorem numerators (a b : E4096x128.Idx → EReal) (r : Fin 8192) :
    val_main_v55 (F := Ideal) a b (ix1 r) = numer a b r := by
  rw [val_main_v55_apply, val_main_v54_apply, val_main_v53_apply, val_main_cst_12_apply, positives]
  simp only [Ideal.hostUnary_exp_def, Ideal.hostDivf_def, Ideal.ofBits_def, div_half]
  rfl

end Cert.RefLoss

end
-- ==== Proof.RefDenom.lean ====
/-
  The reference's denominators. The mask `1 − eye` is built from two iotas: entry `(r, c)` compares the word of the
  row coordinate (plus the zero word) with the word of the column coordinate, and the resulting bit, read as the number
  0 or 1, is subtracted from one. Both coordinates are below 8192, so the words are equal exactly when `r = c`. Times
  `exp` of the scalar product over one half, the masked entry is row `r`'s term at `c`; the row sum started at zero is
  row `r`'s denominator.
-/
import proofs.«165202_j28097676050918_1_alg».proof.Proof.RefStages
import proofs.«165202_j28097676050918_1_alg».proof.Proof.Contrastive
import proofs.«165202_j28097676050918_1_alg».proof.Proof.RefConsts
import proofs.«165202_j28097676050918_1_alg».proof.Proof.RefRows

noncomputable section

namespace Cert.RefLoss

open Cert.ReferenceIdeal Cert.ReferenceIdeal.Gen Cert.ReferenceIdeal.ReadP Cert.Contrastive
open Idealize.ShloMosaic Idealize.ShloMosaic.ValueIdx

/-- The row coordinate's word plus the zero word equals the column coordinate's word exactly on the diagonal. -/
theorem diag_bit (r c : Fin 8192) :
    (IntOp.addi (BitVec.ofNat 32 r.val) 0#32 == BitVec.ofNat 32 c.val) = true ↔ r = c := by
  unfold IntOp.addi
  rw [BitVec.add_zero, beq_iff_eq]
  constructor
  · intro h
    have h1 := congrArg BitVec.toNat h
    rw [BitVec.toNat_ofNat, BitVec.toNat_ofNat] at h1
    have h2 := r.isLt
    have h3 := c.isLt
    exact Fin.ext (by omega)
  · intro h
    rw [h]

/-- The masked exponential at `(r, c)`: row `r`'s term at `c`. -/
theorem masked_term (a b : E4096x128.Idx → EReal) (r c : Fin 8192) :
    val_main_v67 (F := Ideal) a b (ix2 r c) = term a b r c := by
  rw [val_main_v67_apply, val_main_v63_apply, val_main_v62_apply, val_main_cst_14_apply, val_main_v61_apply,
    val_main_v60_apply, val_main_v59_apply, val_main_v58_apply, val_main_c_13_apply, val_main_v56_apply,
    val_main_v57_apply, val_main_v66_apply, val_main_v65_apply, val_main_v64_apply, val_main_cst_15_apply,
    similarity]
  show (Ideal.ofBits .f32 0x3F800000#32
        - ((((BitVec.ofBool (IntOp.addi (BitVec.ofNat 32 r.val) 0#32 == BitVec.ofNat 32 c.val)).toNat : ℕ) : ℝ) : EReal))
      * Ideal.exp (Ideal.div (dotRows (rep a b r) (rep a b c)) (Ideal.ofBits .f32 0x3F000000#32)) = _
  rw [mask_mul, div_half]
  unfold term
  by_cases h : r = c
  · rw [if_pos ((diag_bit r c).mpr h), if_pos h]
  · rw [if_neg (fun h' => h ((diag_bit r c).mp h')), if_neg h]
    rfl

/-- The masked row sum at `r`: row `r`'s denominator. -/
theorem denominators (a b : E4096x128.Idx → EReal) (r : Fin 8192) :
    val_main_v68 (F := Ideal) a b (ix1 r) = denom a b r := by
  have e1 : ∀ c : Fin 8192, idx_main_v68 (ix1 r) c = ix2 r c := fun c =>
    funext fun d => Fin.ext (by match d with | ⟨0, _⟩ => rfl | ⟨1, _⟩ => rfl)
  rw [val_main_v68_apply, val_main_cst_16_apply]
  simp only [e1, masked_term, Ideal.ofBits_def, Ideal.ofBits_zero_f32, zero_add]
  rfl

end Cert.RefLoss

end
-- ==== Proof.RefLoss.lean ====
/-
  The reference IS the specification: its last stage — the sum over the 8192 rows, started at zero, of minus the
  logarithm of numerator over denominator, divided by the float 8192 — is the loss of the two argument arrays.
-/
import proofs.«165202_j28097676050918_1_alg».proof.Proof.RefStages
import proofs.«165202_j28097676050918_1_alg».proof.Proof.Contrastive
import proofs.«165202_j28097676050918_1_alg».proof.Proof.RefPairs
import proofs.«165202_j28097676050918_1_alg».proof.Proof.RefDenom

noncomputable section

namespace Cert.RefLoss

open Cert.ReferenceIdeal Cert.ReferenceIdeal.Gen Cert.ReferenceIdeal.ReadP Cert.Contrastive
open Idealize.ShloMosaic Idealize.ShloMosaic.ValueIdx

/-- A one-axis index set is its one coordinate's range. -/
def rowEquiv : (⟨1, ![8192]⟩ : Shape).Idx ≃ Fin 8192 where
  toFun j := j 0
  invFun r := ix1 r
  left_inv j := (eq_ix1 j).symm
  right_inv _ := rfl

/-- The row before the final sum: minus the logarithm of numerator over denominator. -/
theorem neg_log_rows (a b : E4096x128.Idx → EReal) (r : Fin 8192) :
    val_main_v71 (F := Ideal) a b (ix1 r) = -(Ideal.log (Ideal.div (numer a b r) (denom a b r))) := by
  rw [val_main_v71_apply, val_main_v70_apply, val_main_v69_apply, numerators, denominators]
  rfl

/-- THE REFERENCE'S RESULT IS THE LOSS. -/
theorem ref_eq (a b : E4096x128.Idx → EReal) :
    val_main_v73 (F := Ideal) a b = fun _ => loss a b := by
  funext i
  rw [val_main_v73_apply, val_main_v72_apply, val_main_cst_17_apply, val_main_cst_18_apply]
  rw [← Equiv.sum_comp rowEquiv.symm (val_main_v71 (F := Ideal) a b)]
  have e : ∀ r : Fin 8192, val_main_v71 (F := Ideal) a b (rowEquiv.symm r)
      = -(Ideal.log (Ideal.div (numer a b r) (denom a b r))) := fun r => neg_log_rows a b r
  simp only [e, Ideal.hostDivf_def, Ideal.ofBits_def, Ideal.ofBits_zero_f32, zero_add]
  rfl

end Cert.RefLoss

end
-- ==== Proof.lean ====
/-
  The certificate of the normalised-temperature cross-entropy kernel against its reference.

  Both programs compute ONE function of the two argument arrays over the extended reals, `Cert.Contrastive.loss`:
  rows divided by their floored Euclidean lengths and stacked; for each stacked row the sum over every other row of
  `exp (2 · ⟨row, other row⟩)` as denominator and `exp (2 · ⟨a-row, b-row⟩)` of its pair as numerator; the mean of
  `- log (numerator / denominator)`. The kernel accumulates each denominator over eight column blocks of 1024 rows
  in a vector it keeps between grid points, masking the row's own term by a select; the reference forms the whole
  8192 × 8192 matrix, masks by a product with `1 − identity`, divides by the temperature 1/2 where the kernel
  multiplies by 2, and gathers the numerators out of the matrix. The two agree by commutativity and associativity of
  + and · on the extended reals, `0 · x = 0`, and `x / (1/2) = x · 2`: no finiteness is used.

  The kernel's two input windows read one array, so its frame is proved here from the library's launch theorem with
  the array's share dealt between the windows (Proof/Frame*.lean, once per program); the kernel's value is read off
  that run (Proof/DenomValue.lean over Proof/Ker*.lean). The reference is 95 host lines: its run leaves each buffer at
  the lines' fold over the launch contents, the fold is evaluated in eight consecutive stretches (Proof/RefFold.lean)
  to the last stage of a stage-by-stage reading of the program, and that stage is the loss (Proof/Ref*.lean).
-/
import proofs.«165202_j28097676050918_1_alg».proof.Defs
import proofs.«165202_j28097676050918_1_alg».proof.Proof.Gen.Kernel
import proofs.«165202_j28097676050918_1_alg».proof.Proof.Gen.KernelIdeal
import proofs.«165202_j28097676050918_1_alg».proof.Proof.Gen.ReferenceIdeal
import proofs.«165202_j28097676050918_1_alg».proof.Proof.Gen.Pre_finite_inputs
import proofs.«165202_j28097676050918_1_alg».proof.Proof.FrameBitsRun
import proofs.«165202_j28097676050918_1_alg».proof.Proof.DenomValue
import proofs.«165202_j28097676050918_1_alg».proof.Proof.RefRunP
import proofs.«165202_j28097676050918_1_alg».proof.Proof.RefFold
import proofs.«165202_j28097676050918_1_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel program runs to the end, faults nowhere, and leaves its arguments as launched. -/
theorem frame_kernel : Cert.frame_Kernel := fun m ρ _ => Cert.Kernel.Frame.frame m ρ

/-- So does the idealized kernel program. -/
theorem frame_kernelIdeal : Cert.frame_KernelIdeal := fun m ρ _ => Cert.KernelIdeal.Frame.frame m ρ

/-- The reference's run, read: its result buffer ends at the loss of its two argument arrays, which end as launched. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v73)
            = (fun _ => Cert.Contrastive.loss (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono
    (fun _ h c => ⟨(h c).1.trans ((Cert.RefLoss.fold_eq (StableHlo.launchContents m c) _ _ rfl rfl).trans (Cert.RefLoss.ref_eq _ _)), (h c).2⟩)
    (Cert.ReferenceIdeal.ValueP.run (F := Ideal) m ρ)

/-- The reference is host lines only: its frame is its run with the result dropped. -/
theorem frame_reference : Cert.frame_ReferenceIdeal := fun m ρ _ =>
  (θ_run Cert.ReferenceIdeal.defs _ _).mono (fun _ h c => (h c).2) (reference_run m ρ)

/-- The idealization rewrote nothing. -/
theorem preserves : Cert.preserves_Kernel_KernelIdeal := trivial

/-- Both idealized programs end with the loss of the argument arrays in their result buffer. -/
theorem algebraic : Cert.algebraic_KernelIdeal_ReferenceIdeal := by
  intro m ρ m' ρ' _ hagree
  refine ⟨fun c => fun _ => Cert.Contrastive.loss (Cert.KernelIdeal.DenomValue.argA m c) (Cert.KernelIdeal.DenomValue.argB m c),
    Cert.KernelIdeal.DenomValue.run m ρ, ?_⟩
  refine (θ_run Cert.ReferenceIdeal.defs _ _).mono (fun _ h c => ⟨?_, (h c).2⟩) (reference_run m' ρ')
  rw [(h c).1, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
